-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel

variable [Facts]

def fn {F : FTy → Type} [FloatOps F] (main_arg0 : FVec F S8x4096x3 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  main_v3
-- ==== Kernel.lean ====
abbrev S8x4096x3 : Shape := ⟨3, ![8, 4096, 3]⟩
abbrev S8x1x1 : Shape := ⟨3, ![8, 1, 1]⟩
abbrev S1x1024x3 : Shape := ⟨3, ![1, 1024, 3]⟩
abbrev S1x512x3 : Shape := ⟨3, ![1, 512, 3]⟩
abbrev S1x1x1 : Shape := ⟨3, ![1, 1, 1]⟩
abbrev S1024x1 : Shape := ⟨2, ![1024, 1]⟩
abbrev S1x1 : Shape := ⟨2, ![1, 1]⟩
abbrev S1024x3 : Shape := ⟨2, ![1024, 3]⟩
abbrev S512x3 : Shape := ⟨2, ![512, 3]⟩
abbrev S1024 : Shape := ⟨1, ![1024]⟩
abbrev S512 : Shape := ⟨1, ![512]⟩
abbrev S512x1 : Shape := ⟨2, ![512, 1]⟩
abbrev S1024x512 : Shape := ⟨2, ![1024, 512]⟩
abbrev S1x512 : Shape := ⟨2, ![1, 512]⟩
abbrev S1 : Shape := ⟨1, ![1]⟩
abbrev S8 : Shape := ⟨1, ![8]⟩

abbrev nBuf : Space → Nat
  | .hbm => 3
  | .vmem => 8
  | .smem => 0
  | _ => 0

abbrev bufTy : (tb : Table) → Fin (tcTables nBuf tb) → BufTy
  | .hbm, ⟨0, _⟩ => ⟨S8x4096x3, .f32⟩
  | .hbm, ⟨1, _⟩ => ⟨S8x1x1, .f32⟩
  | .hbm, ⟨2, _⟩ => ⟨S8, .f32⟩
  | .local _ .vmem, ⟨0, _⟩ => ⟨S1x1024x3, .f32⟩
  | .local _ .vmem, ⟨1, _⟩ => ⟨S1x1024x3, .f32⟩
  | .local _ .vmem, ⟨2, _⟩ => ⟨S1x512x3, .f32⟩
  | .local _ .vmem, ⟨3, _⟩ => ⟨S1x512x3, .f32⟩
  | .local _ .vmem, ⟨4, _⟩ => ⟨S1x1x1, .f32⟩
  | .local _ .vmem, ⟨5, _⟩ => ⟨S1x1x1, .f32⟩
  | .local _ .vmem, ⟨6, _⟩ => ⟨S1024x1, .f32⟩
  | .local _ .vmem, ⟨7, _⟩ => ⟨S1x1, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 8], ![false, false, false]⟩

def k0_cond4 (i : grid0.Coords) : BitVec 1 :=
  let arg1 : BitVec 32 := BitVec.ofNat 32 (i 1).val
  let c3_i32 : BitVec 32 := 3#32
  let v54 : BitVec 1 := Scalar.cmpi .eq arg1 c3_i32
  let arg2 : BitVec 32 := BitVec.ofNat 32 (i 2).val
  let c7_i32_21 : BitVec 32 := 7#32
  let v55 : BitVec 1 := Scalar.cmpi .eq arg2 c7_i32_21
  let v56 : BitVec 1 := Scalar.andi v54 v55
  let v57 : BitVec 32 := Scalar.extui v56
  let c0_i32_22 : BitVec 32 := 0#32
  let v58 : BitVec 1 := Scalar.cmpi .ne v57 c0_i32_22
  v58

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  reduces_S1024x3_S1024 : S1024x3.Reduces [1] S1024
  shapeCasts_S1024_S1024x1 : S1024.ShapeCasts S1024x1
  reduces_S512x3_S512 : S512x3.Reduces [1] S512
  shapeCasts_S512_S512x1 : S512.ShapeCasts S512x1
  bitsLt_bf16_f32 : FTy.bits .bf16 < FTy.bits .f32
  transposes_S512x1_p1_0_S1x512 : S512x1.Transposes [1, 0] S1x512
  broadcasts_S1024x1_S1024x512 : S1024x1.Broadcasts S1024x512
  broadcasts_S1x512_S1024x512 : S1x512.Broadcasts S1024x512
  iota_S1024x512_d0_w32 : S1024x512.Iotas .tc 32 [0]
  iota_S1024x512_d1_w32 : S1024x512.Iotas .tc 32 [1]
  reduces_S1024x512_S1024 : S1024x512.Reduces [1] S1024
  reduces_S1024x1_S1 : S1024x1.Reduces [0] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  shapeCasts_S8x1x1_S8 : S8x1x1.ShapeCasts S8
  dot_S1024x3_S512x3_S1024x512_1_1_0_0_n_n_wf : DotDims.WF S1024x3 S512x3 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S8x4096x3.size a
  hwx0_0 : ∀ i : grid0.Coords, EltTy.bits .f32 = 32 ∨ (Rect.block (s := S8x4096x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x3.size a ≤ S8x4096x3.size a
  hwx0_1 : ∀ i : grid0.Coords, EltTy.bits .f32 = 32 ∨ (Rect.block (s := S8x4096x3) S1x512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S8x1x1.size a
  hwx0_2 : ∀ i : grid0.Coords, EltTy.bits .f32 = 32 ∨ (Rect.block (s := S8x1x1) S1x1x1.size (cc0_transform_2 i) (hinb0_2 i)).WholeWords (EltTy.packing .f32)

variable [Facts₀]

def dot_S1024x3_S512x3_S1024x512_1_1_0_0_n_n : DotDims S1024x3 S512x3 S1024x512 where
  lhsContracting := [1]
  rhsContracting := [1]
  lhsNonContracting := [0]
  rhsNonContracting := [0]
  lhsBatch := []
  rhsBatch := []
  wf := dot_S1024x3_S512x3_S1024x512_1_1_0_0_n_n_wf

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond4 i == 1#1) | ⟨_ + 3, h⟩ => absurd h (Nat.not_lt.2 (Nat.le_add_left _ _))

class Facts : Prop extends Facts₀ where

variable [Facts]
-- ==== ReferenceIdeal.lean ====
abbrev S8x4096x3 : Shape := ⟨3, ![8, 4096, 3]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S8x4096x4096 : Shape := ⟨3, ![8, 4096, 4096]⟩
abbrev S4096x4096 : Shape := ⟨2, ![4096, 4096]⟩
abbrev S1x4096x4096 : Shape := ⟨3, ![1, 4096, 4096]⟩
abbrev S8 : Shape := ⟨1, ![8]⟩

abbrev nBuf : Space → Nat
  | .hbm => 38
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S_, .f32⟩
  | .hbm, ⟨3, _⟩ => ⟨S8x4096, .f32⟩
  | .hbm, ⟨4, _⟩ => ⟨S8x4096x1, .f32⟩
  | .hbm, ⟨5, _⟩ => ⟨S8x1x4096, .f32⟩
  | .hbm, ⟨6, _⟩ => ⟨S8x4096x4096, .f32⟩
  | .hbm, ⟨7, _⟩ => ⟨S8x4096x4096, .f32⟩
  | .hbm, ⟨8, _⟩ => ⟨S8x4096x4096, .f32⟩
  | .hbm, ⟨9, _⟩ => ⟨S8x4096x4096, .f32⟩
  | .hbm, ⟨10, _⟩ => ⟨S_, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S4096x4096, .i32⟩
  | .hbm, ⟨19, _⟩ => ⟨S4096x4096, .i32⟩
  | .hbm, ⟨20, _⟩ => ⟨S_, .i32⟩
  | .hbm, ⟨21, _⟩ => ⟨S4096x4096, .i32⟩
  | .hbm, ⟨22, _⟩ => ⟨S4096x4096, .i32⟩
  | .hbm, ⟨23, _⟩ => ⟨S4096x4096, .i1⟩
  | .hbm, ⟨24, _⟩ => ⟨S4096x4096, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S1x4096x4096, .f32⟩
  | .hbm, ⟨29, _⟩ => ⟨S8x4096x4096, .f32⟩
  | .hbm, ⟨30, _⟩ => ⟨S8x4096x4096, .f32⟩
  | .hbm, ⟨31, _⟩ => ⟨S_, .f32⟩
  | .hbm, ⟨32, _⟩ => ⟨S8x4096, .f32⟩
  | .hbm, ⟨33, _⟩ => ⟨S_, .f32⟩
  | .hbm, ⟨34, _⟩ => ⟨S8, .f32⟩
  | .hbm, ⟨35, _⟩ => ⟨S_, .f32⟩
  | .hbm, ⟨36, _⟩ => ⟨S8, .f32⟩
  | .hbm, ⟨37, _⟩ => ⟨S8, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_3 : Ref sig .tc := ⟨.hbm, 31, rfl⟩
abbrev main_v25 : Ref sig .tc := ⟨.hbm, 32, rfl⟩
abbrev main_cst_4 : Ref sig .tc := ⟨.hbm, 33, rfl⟩
abbrev main_v26 : Ref sig .tc := ⟨.hbm, 34, rfl⟩
abbrev main_cst_5 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  bcast_S_S4096x4096 : S_.BroadcastsInDim S4096x4096 (![] : Fin 0 → Fin S4096x4096.rank)
  bcast_S4096x4096_S1x4096x4096_1_2 : S4096x4096.BroadcastsInDim S1x4096x4096 (![1, 2] : Fin 2 → Fin S1x4096x4096.rank)
  bcast_S1x4096x4096_S8x4096x4096_0_1_2 : S1x4096x4096.BroadcastsInDim S8x4096x4096 (![0, 1, 2] : Fin 3 → Fin S8x4096x4096.rank)
  reducesTo_S8x4096x4096_S8x4096_d2 : S8x4096x4096.ReducesTo [2] S8x4096
  reducesTo_S8x4096_S8_d1 : S8x4096.ReducesTo [1] S8
  bcast_S_S8 : S_.BroadcastsInDim S8 (![] : Fin 0 → Fin S8.rank)
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.KernelBody.lean ====
import proofs.«106982_j77386720740129_1_alg».proof.Proof.Gen.Kernel.Launch
import proofs.«106982_j77386720740129_1_alg».proof.Proof.Gen.Kernel.Skeleton
import proofs.«106982_j77386720740129_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reset of the running maximum: first row tile and first column tile of a batch. -/
abbrev cond1 (i : grid0.Coords) : Prop := Scalar.cmpi .ne (Scalar.extui (Scalar.andi (Scalar.cmpi .eq (BitVec.ofNat 32 (i 1).val) 0#32) (Scalar.cmpi .eq (BitVec.ofNat 32 (i 2).val) 0#32))) 0#32 = 1#1
/-- The reset of the running minima: first column tile. -/
abbrev cond2 (i : grid0.Coords) : Prop := Scalar.cmpi .ne (Scalar.extui (Scalar.cmpi .eq (BitVec.ofNat 32 (i 2).val) 0#32)) 0#32 = 1#1
/-- The fold of the minima into the maximum: last column tile. -/
abbrev cond3 (i : grid0.Coords) : Prop := Scalar.cmpi .ne (Scalar.extui (Scalar.cmpi .eq (BitVec.ofNat 32 (i 2).val) 7#32)) 0#32 = 1#1
/-- The store of the clamped result: last row tile and last column tile of a batch. -/
abbrev cond4 (i : grid0.Coords) : Prop := k0_cond4 i = 1#1

/-! ## Whole-buffer stores and loads

Every store of this body writes a whole buffer (the rectangle at zero offsets of the buffer's own extents), and every load
reads one whole. So a buffer reads back as the payload of the last store into it, whatever came before. -/

section Whole
variable {Val : EltTy → Type} [∀ e, Nonempty (Val e)] {S : Shape} {e : EltTy} {sig' : RefSig} {κ : Kind} {sp : Space}

/-- Every offset vector of zeros, however spelt, is the zero function (rank 2, rank 3). -/
theorem zeros2 : (![0, 0] : Fin 2 → ℕ) = fun _ => 0 := by funext a; fin_cases a <;> rfl
theorem zeros3 : (![0, 0, 0] : Fin 3 → ℕ) = fun _ => 0 := by funext a; fin_cases a <;> rfl

/-- After a list of stores whose last one writes the whole buffer, the buffer reads as that store's payload. -/
theorem read_whole_head_of (v : View sig' κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb w L]

/-- A whole-buffer load after such a list of stores reads that payload too. -/
theorem readCov_whole_head_of (v : View sig' κ sp S e) {off : Fin S.rank → ℕ} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

end Whole

/-- The same at each of the body's buffer shapes, zeros and extents spelt as literals. -/
theorem read_whole_S1024x1 {sp : Space} (v : View sig .tc sp S1024x1 .f32) (f : v.ty.Contents (Elt F))
    (inb : ∀ a, (![0, 0] : Fin 2 → ℕ) a + (![1024, 1] : Fin 2 → ℕ) a ≤ S1024x1.size a) (w : S1024x1.Idx → Elt F .f32) (L : List (View.Piece (Elt F) S1024x1 .f32)) :
    v.read (Elt F) (v.writes (Elt F) f ((⟨Rect.unit (s := S1024x1) ![0, 0] ![1024, 1] inb, w⟩ : View.Piece (Elt F) S1024x1 .f32) :: L)) = w :=
  read_whole_head_of v f zeros2 inb w L
theorem readCov_whole_S1024x1 {sp : Space} (v : View sig .tc sp S1024x1 .f32)
    (inb : ∀ a, (![0, 0] : Fin 2 → ℕ) a + (![1024, 1] : Fin 2 → ℕ) a ≤ S1024x1.size a) (w : S1024x1.Idx → Elt F .f32) (L : List (View.Piece (Elt F) S1024x1 .f32)) :
    v.readCov ((⟨Rect.unit (s := S1024x1) ![0, 0] ![1024, 1] inb, w⟩ : View.Piece (Elt F) S1024x1 .f32) :: L) (Rect.unit (s := S1024x1) ![0, 0] ![1024, 1] inb).toLoadRect = w :=
  readCov_whole_head_of v zeros2 inb w L
theorem ld_whole_S1024x1 (inb : ∀ a, (![0, 0] : Fin 2 → ℕ) a + (![1024, 1] : Fin 2 → ℕ) a ≤ S1024x1.size a) (X : S1024x1.Idx → Elt F .f32) :
    View.ld X (Rect.unit (s := S1024x1) ![0, 0] ![1024, 1] inb) = X :=
  View.ld_unit_zero zeros2 inb X

theorem read_whole_S1x1 {sp : Space} (v : View sig .tc sp S1x1 .f32) (f : v.ty.Contents (Elt F))
    (inb : ∀ a, (![0, 0] : Fin 2 → ℕ) a + (![1, 1] : Fin 2 → ℕ) a ≤ S1x1.size a) (w : S1x1.Idx → Elt F .f32) (L : List (View.Piece (Elt F) S1x1 .f32)) :
    v.read (Elt F) (v.writes (Elt F) f ((⟨Rect.unit (s := S1x1) ![0, 0] ![1, 1] inb, w⟩ : View.Piece (Elt F) S1x1 .f32) :: L)) = w :=
  read_whole_head_of v f zeros2 inb w L
theorem readCov_whole_S1x1 {sp : Space} (v : View sig .tc sp S1x1 .f32)
    (inb : ∀ a, (![0, 0] : Fin 2 → ℕ) a + (![1, 1] : Fin 2 → ℕ) a ≤ S1x1.size a) (w : S1x1.Idx → Elt F .f32) (L : List (View.Piece (Elt F) S1x1 .f32)) :
    v.readCov ((⟨Rect.unit (s := S1x1) ![0, 0] ![1, 1] inb, w⟩ : View.Piece (Elt F) S1x1 .f32) :: L) (Rect.unit (s := S1x1) ![0, 0] ![1, 1] inb).toLoadRect = w :=
  readCov_whole_head_of v zeros2 inb w L
theorem ld_whole_S1x1 (inb : ∀ a, (![0, 0] : Fin 2 → ℕ) a + (![1, 1] : Fin 2 → ℕ) a ≤ S1x1.size a) (X : S1x1.Idx → Elt F .f32) :
    View.ld X (Rect.unit (s := S1x1) ![0, 0] ![1, 1] inb) = X :=
  View.ld_unit_zero zeros2 inb X

theorem read_whole_S1x1x1 {sp : Space} (v : View sig .tc sp S1x1x1 .f32) (f : v.ty.Contents (Elt F))
    (inb : ∀ a, (![0, 0, 0] : Fin 3 → ℕ) a + (![1, 1, 1] : Fin 3 → ℕ) a ≤ S1x1x1.size a) (w : S1x1x1.Idx → Elt F .f32) (L : List (View.Piece (Elt F) S1x1x1 .f32)) :
    v.read (Elt F) (v.writes (Elt F) f ((⟨Rect.unit (s := S1x1x1) ![0, 0, 0] ![1, 1, 1] inb, w⟩ : View.Piece (Elt F) S1x1x1 .f32) :: L)) = w :=
  read_whole_head_of v f zeros3 inb w L
theorem readCov_whole_S1x1x1 {sp : Space} (v : View sig .tc sp S1x1x1 .f32)
    (inb : ∀ a, (![0, 0, 0] : Fin 3 → ℕ) a + (![1, 1, 1] : Fin 3 → ℕ) a ≤ S1x1x1.size a) (w : S1x1x1.Idx → Elt F .f32) (L : List (View.Piece (Elt F) S1x1x1 .f32)) :
    v.readCov ((⟨Rect.unit (s := S1x1x1) ![0, 0, 0] ![1, 1, 1] inb, w⟩ : View.Piece (Elt F) S1x1x1 .f32) :: L) (Rect.unit (s := S1x1x1) ![0, 0, 0] ![1, 1, 1] inb).toLoadRect = w :=
  readCov_whole_head_of v zeros3 inb w L
theorem ld_whole_S1x1x1 (inb : ∀ a, (![0, 0, 0] : Fin 3 → ℕ) a + (![1, 1, 1] : Fin 3 → ℕ) a ≤ S1x1x1.size a) (X : S1x1x1.Idx → Elt F .f32) :
    View.ld X (Rect.unit (s := S1x1x1) ![0, 0, 0] ![1, 1, 1] inb) = X :=
  View.ld_unit_zero zeros3 inb X

theorem read_whole_S1x1024x3 {sp : Space} (v : View sig .tc sp S1x1024x3 .f32) (f : v.ty.Contents (Elt F))
    (inb : ∀ a, (![0, 0, 0] : Fin 3 → ℕ) a + (![1, 1024, 3] : Fin 3 → ℕ) a ≤ S1x1024x3.size a) (w : S1x1024x3.Idx → Elt F .f32) (L : List (View.Piece (Elt F) S1x1024x3 .f32)) :
    v.read (Elt F) (v.writes (Elt F) f ((⟨Rect.unit (s := S1x1024x3) ![0, 0, 0] ![1, 1024, 3] inb, w⟩ : View.Piece (Elt F) S1x1024x3 .f32) :: L)) = w :=
  read_whole_head_of v f zeros3 inb w L
theorem readCov_whole_S1x1024x3 {sp : Space} (v : View sig .tc sp S1x1024x3 .f32)
    (inb : ∀ a, (![0, 0, 0] : Fin 3 → ℕ) a + (![1, 1024, 3] : Fin 3 → ℕ) a ≤ S1x1024x3.size a) (w : S1x1024x3.Idx → Elt F .f32) (L : List (View.Piece (Elt F) S1x1024x3 .f32)) :
    v.readCov ((⟨Rect.unit (s := S1x1024x3) ![0, 0, 0] ![1, 1024, 3] inb, w⟩ : View.Piece (Elt F) S1x1024x3 .f32) :: L) (Rect.unit (s := S1x1024x3) ![0, 0, 0] ![1, 1024, 3] inb).toLoadRect = w :=
  readCov_whole_head_of v zeros3 inb w L
theorem ld_whole_S1x1024x3 (inb : ∀ a, (![0, 0, 0] : Fin 3 → ℕ) a + (![1, 1024, 3] : Fin 3 → ℕ) a ≤ S1x1024x3.size a) (X : S1x1024x3.Idx → Elt F .f32) :
    View.ld X (Rect.unit (s := S1x1024x3) ![0, 0, 0] ![1, 1024, 3] inb) = X :=
  View.ld_unit_zero zeros3 inb X

theorem read_whole_S1x512x3 {sp : Space} (v : View sig .tc sp S1x512x3 .f32) (f : v.ty.Contents (Elt F))
    (inb : ∀ a, (![0, 0, 0] : Fin 3 → ℕ) a + (![1, 512, 3] : Fin 3 → ℕ) a ≤ S1x512x3.size a) (w : S1x512x3.Idx → Elt F .f32) (L : List (View.Piece (Elt F) S1x512x3 .f32)) :
    v.read (Elt F) (v.writes (Elt F) f ((⟨Rect.unit (s := S1x512x3) ![0, 0, 0] ![1, 512, 3] inb, w⟩ : View.Piece (Elt F) S1x512x3 .f32) :: L)) = w :=
  read_whole_head_of v f zeros3 inb w L
theorem readCov_whole_S1x512x3 {sp : Space} (v : View sig .tc sp S1x512x3 .f32)
    (inb : ∀ a, (![0, 0, 0] : Fin 3 → ℕ) a + (![1, 512, 3] : Fin 3 → ℕ) a ≤ S1x512x3.size a) (w : S1x512x3.Idx → Elt F .f32) (L : List (View.Piece (Elt F) S1x512x3 .f32)) :
    v.readCov ((⟨Rect.unit (s := S1x512x3) ![0, 0, 0] ![1, 512, 3] inb, w⟩ : View.Piece (Elt F) S1x512x3 .f32) :: L) (Rect.unit (s := S1x512x3) ![0, 0, 0] ![1, 512, 3] inb).toLoadRect = w :=
  readCov_whole_head_of v zeros3 inb w L
theorem ld_whole_S1x512x3 (inb : ∀ a, (![0, 0, 0] : Fin 3 → ℕ) a + (![1, 512, 3] : Fin 3 → ℕ) a ≤ S1x512x3.size a) (X : S1x512x3.Idx → Elt F .f32) :
    View.ld X (Rect.unit (s := S1x512x3) ![0, 0, 0] ![1, 512, 3] inb) = X :=
  View.ld_unit_zero zeros3 inb X

/-! ## The body's next state

What one grid point does to the two scratch buffers and to the output block, as pure functions of the two input blocks
and of what the buffers held: the running minima restart from +∞ at the first column tile and take in the tile's row
minima; the running maximum restarts from −∞ at a batch's first point and takes in the largest running minimum at the last
column tile; the output block receives the running maximum clamped from below at a batch's last point. -/

/-- The column offset of the tile and the lane index, as the body computes them. -/
abbrev colBase (i : grid0.Coords) : BitVec 32 := Scalar.muli (BitVec.ofNat 32 (i 2).val) 512#32
abbrev colIota : IVec S1024x512 32 := iota .tc S1024x512 32 [1] iota_S1024x512_d1_w32

/-- The running minima after taking in one tile. -/
def minStep (i : grid0.Coords) (x0 : Vec F S1x1024x3 .f32) (x1 : Vec F S1x512x3 .f32) (mn : Vec F S1024x1 .f32) : Vec F S1024x1 .f32 :=
  k0_pay1 (k0_pay6 x0 x1) (k0_pay7 i) (colBase i) colIota mn

/-- The running minima after the point. -/
def minNext (i : grid0.Coords) (x0 : Vec F S1x1024x3 .f32) (x1 : Vec F S1x512x3 .f32) (xs0 : Vec F S1024x1 .f32) : Vec F S1024x1 .f32 :=
  minStep i x0 x1 (if cond2 i then k0_pay5 else xs0)

/-- The running maximum after the point. -/
def maxNext (i : grid0.Coords) (x0 : Vec F S1x1024x3 .f32) (x1 : Vec F S1x512x3 .f32) (xs0 : Vec F S1024x1 .f32) (xs1 : Vec F S1x1 .f32) : Vec F S1x1 .f32 :=
  if cond3 i then k0_pay2 (minNext i x0 x1 xs0) (if cond1 i then k0_pay4 else xs1) else (if cond1 i then k0_pay4 else xs1)

/-- The output block after the point. -/
def outNext (i : grid0.Coords) (x0 : Vec F S1x1024x3 .f32) (x1 : Vec F S1x512x3 .f32) (xs0 : Vec F S1024x1 .f32) (xs1 : Vec F S1x1 .f32) (xo : Vec F S1x1x1 .f32) : Vec F S1x1x1 .f32 :=
  if cond4 i then k0_pay3 (maxNext i x0 x1 xs0 xs1) else xo

/-! ## The body's run, one theorem per way the four conditions can fall on the grid -/

set_option maxHeartbeats 4000000 in
/-- The body at a grid point where the four branch conditions are decided as stated: it runs to its end, the two input blocks
    untouched, the running minima, the running maximum and the output block at their next values. -/
theorem run_A (c : Dev nD) (i : grid0.Coords)
    (arg3 : Memref sig .tc .vmem S1x1024x3 .f32) (harg3 : arg3.IsWhole) (arg4 : Memref sig .tc .vmem S1x512x3 .f32) (harg4 : arg4.IsWhole)
    (arg5 : Memref sig .tc .vmem S1x1x1 .f32) (harg5 : arg5.IsWhole) (arg6 : Memref sig .tc .vmem S1024x1 .f32) (harg6 : arg6.IsWhole)
    (arg7 : Memref sig .tc .vmem S1x1 .f32) (harg7 : arg7.IsWhole)
    (h1 : cond1 i) (h2 : cond2 i) (h3 : ¬cond3 i) (h4 : ¬cond4 i)
    (x0 : Vec F S1x1024x3 .f32) (x1 : Vec F S1x512x3 .f32) (xo : Vec F S1x1x1 .f32) (xs0 : Vec F S1024x1 .f32) (xs1 : Vec F S1x1 .f32)
    (E : Set ℕ) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare xs0 ∗ owns (c : Thread nD τ) arg7 fullShare xs1
        ∗ (iprop(owns (c : Thread nD τ) arg3 fullShare x0 ∗ owns (c : Thread nD τ) arg4 fullShare x1
            ∗ owns (c : Thread nD τ) arg5 fullShare (outNext i x0 x1 xs0 xs1 xo)
            ∗ owns (c : Thread nD τ) arg6 fullShare (minNext i x0 x1 xs0)
            ∗ owns (c : Thread nD τ) arg7 fullShare (maxNext i x0 x1 xs0 xs1)) -∗ K ⟨⟩))
      ⊢ wp frame (wpE (defs₀ (F := F)) Variants.none c none) E (cc0__maxmin_kernel i arg3 harg3 arg4 harg4 arg5 harg5 arg6 harg6 arg7 harg7) K := by
  simp only [cc0__maxmin_kernel_eq_skeleton]; unfold cc0__maxmin_kernel_skel
  unfold owns
  iintro ⟨⟨%f0, %hf0, H0⟩, ⟨%f1, %hf1, H1⟩, ⟨%fo, %hfo, HO⟩, ⟨%fs0, %hfs0, HS0⟩, ⟨%fs1, %hfs1, HS1⟩, Hk⟩
  obtain rfl := harg3.eq_unread hf0; obtain rfl := harg4.eq_unread hf1; obtain rfl := harg5.eq_unread hfo
  obtain rfl := harg6.eq_unread hfs0; obtain rfl := harg7.eq_unread hfs1
  sl_exec (disch := first | exact h1 | exact h2 | exact h3 | exact h4)
  sl_step
  sl_unfold_words
  iapply Hk
  isplitl [H0]
  · iexists _; isplitr; · ipureintro; exact harg3.read_unread _
    iexact H0
  isplitl [H1]
  · iexists _; isplitr; · ipureintro; exact harg4.read_unread _
    iexact H1
  isplitl [HO]
  · iexists _; isplitr
    swap; · iexact HO
    ipureintro
    simp only [outNext, maxNext, minNext, minStep, if_pos h1, if_pos h2, if_neg h3, if_neg h4, read_whole_S1024x1, readCov_whole_S1024x1, ld_whole_S1024x1, read_whole_S1x1, readCov_whole_S1x1, ld_whole_S1x1, read_whole_S1x1x1, readCov_whole_S1x1x1, ld_whole_S1x1x1, read_whole_S1x1024x3, readCov_whole_S1x1024x3, ld_whole_S1x1024x3, read_whole_S1x512x3, readCov_whole_S1x512x3, ld_whole_S1x512x3,
      View.readAt_eq_ld, Memref.IsWhole.read_unread, colBase, colIota]
  isplitl [HS0]
  · iexists _; isplitr
    swap; · iexact HS0
    ipureintro
    simp only [minNext, minStep, if_pos h1, if_pos h2, if_neg h3, if_neg h4, read_whole_S1024x1, readCov_whole_S1024x1, ld_whole_S1024x1, read_whole_S1x1, readCov_whole_S1x1, ld_whole_S1x1, read_whole_S1x1x1, readCov_whole_S1x1x1, ld_whole_S1x1x1, read_whole_S1x1024x3, readCov_whole_S1x1024x3, ld_whole_S1x1024x3, read_whole_S1x512x3, readCov_whole_S1x512x3, ld_whole_S1x512x3,
      View.readAt_eq_ld, Memref.IsWhole.read_unread, colBase, colIota]
  · iexists _; isplitr
    swap; · iexact HS1
    ipureintro
    simp only [maxNext, minNext, minStep, if_pos h1, if_pos h2, if_neg h3, if_neg h4, read_whole_S1024x1, readCov_whole_S1024x1, ld_whole_S1024x1, read_whole_S1x1, readCov_whole_S1x1, ld_whole_S1x1, read_whole_S1x1x1, readCov_whole_S1x1x1, ld_whole_S1x1x1, read_whole_S1x1024x3, readCov_whole_S1x1024x3, ld_whole_S1x1024x3, read_whole_S1x512x3, readCov_whole_S1x512x3, ld_whole_S1x512x3,
      View.readAt_eq_ld, Memref.IsWhole.read_unread, colBase, colIota]

set_option maxHeartbeats 4000000 in
/-- The body at a grid point where the four branch conditions are decided as stated: it runs to its end, the two input blocks
    untouched, the running minima, the running maximum and the output block at their next values. -/
theorem run_B (c : Dev nD) (i : grid0.Coords)
    (arg3 : Memref sig .tc .vmem S1x1024x3 .f32) (harg3 : arg3.IsWhole) (arg4 : Memref sig .tc .vmem S1x512x3 .f32) (harg4 : arg4.IsWhole)
    (arg5 : Memref sig .tc .vmem S1x1x1 .f32) (harg5 : arg5.IsWhole) (arg6 : Memref sig .tc .vmem S1024x1 .f32) (harg6 : arg6.IsWhole)
    (arg7 : Memref sig .tc .vmem S1x1 .f32) (harg7 : arg7.IsWhole)
    (h1 : ¬cond1 i) (h2 : cond2 i) (h3 : ¬cond3 i) (h4 : ¬cond4 i)
    (x0 : Vec F S1x1024x3 .f32) (x1 : Vec F S1x512x3 .f32) (xo : Vec F S1x1x1 .f32) (xs0 : Vec F S1024x1 .f32) (xs1 : Vec F S1x1 .f32)
    (E : Set ℕ) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare xs0 ∗ owns (c : Thread nD τ) arg7 fullShare xs1
        ∗ (iprop(owns (c : Thread nD τ) arg3 fullShare x0 ∗ owns (c : Thread nD τ) arg4 fullShare x1
            ∗ owns (c : Thread nD τ) arg5 fullShare (outNext i x0 x1 xs0 xs1 xo)
            ∗ owns (c : Thread nD τ) arg6 fullShare (minNext i x0 x1 xs0)
            ∗ owns (c : Thread nD τ) arg7 fullShare (maxNext i x0 x1 xs0 xs1)) -∗ K ⟨⟩))
      ⊢ wp frame (wpE (defs₀ (F := F)) Variants.none c none) E (cc0__maxmin_kernel i arg3 harg3 arg4 harg4 arg5 harg5 arg6 harg6 arg7 harg7) K := by
  simp only [cc0__maxmin_kernel_eq_skeleton]; unfold cc0__maxmin_kernel_skel
  unfold owns
  iintro ⟨⟨%f0, %hf0, H0⟩, ⟨%f1, %hf1, H1⟩, ⟨%fo, %hfo, HO⟩, ⟨%fs0, %hfs0, HS0⟩, ⟨%fs1, %hfs1, HS1⟩, Hk⟩
  obtain rfl := harg3.eq_unread hf0; obtain rfl := harg4.eq_unread hf1; obtain rfl := harg5.eq_unread hfo
  obtain rfl := harg6.eq_unread hfs0; obtain rfl := harg7.eq_unread hfs1
  sl_exec (disch := first | exact h1 | exact h2 | exact h3 | exact h4)
  sl_step
  sl_unfold_words
  iapply Hk
  isplitl [H0]
  · iexists _; isplitr; · ipureintro; exact harg3.read_unread _
    iexact H0
  isplitl [H1]
  · iexists _; isplitr; · ipureintro; exact harg4.read_unread _
    iexact H1
  isplitl [HO]
  · iexists _; isplitr
    swap; · iexact HO
    ipureintro
    simp only [outNext, maxNext, minNext, minStep, if_neg h1, if_pos h2, if_neg h3, if_neg h4, read_whole_S1024x1, readCov_whole_S1024x1, ld_whole_S1024x1, read_whole_S1x1, readCov_whole_S1x1, ld_whole_S1x1, read_whole_S1x1x1, readCov_whole_S1x1x1, ld_whole_S1x1x1, read_whole_S1x1024x3, readCov_whole_S1x1024x3, ld_whole_S1x1024x3, read_whole_S1x512x3, readCov_whole_S1x512x3, ld_whole_S1x512x3,
      View.readAt_eq_ld, Memref.IsWhole.read_unread, colBase, colIota]
  isplitl [HS0]
  · iexists _; isplitr
    swap; · iexact HS0
    ipureintro
    simp only [minNext, minStep, if_neg h1, if_pos h2, if_neg h3, if_neg h4, read_whole_S1024x1, readCov_whole_S1024x1, ld_whole_S1024x1, read_whole_S1x1, readCov_whole_S1x1, ld_whole_S1x1, read_whole_S1x1x1, readCov_whole_S1x1x1, ld_whole_S1x1x1, read_whole_S1x1024x3, readCov_whole_S1x1024x3, ld_whole_S1x1024x3, read_whole_S1x512x3, readCov_whole_S1x512x3, ld_whole_S1x512x3,
      View.readAt_eq_ld, Memref.IsWhole.read_unread, colBase, colIota]
  · iexists _; isplitr
    swap; · iexact HS1
    ipureintro
    simp only [maxNext, minNext, minStep, if_neg h1, if_pos h2, if_neg h3, if_neg h4, read_whole_S1024x1, readCov_whole_S1024x1, ld_whole_S1024x1, read_whole_S1x1, readCov_whole_S1x1, ld_whole_S1x1, read_whole_S1x1x1, readCov_whole_S1x1x1, ld_whole_S1x1x1, read_whole_S1x1024x3, readCov_whole_S1x1024x3, ld_whole_S1x1024x3, read_whole_S1x512x3, readCov_whole_S1x512x3, ld_whole_S1x512x3,
      View.readAt_eq_ld, Memref.IsWhole.read_unread, colBase, colIota]

set_option maxHeartbeats 4000000 in
/-- The body at a grid point where the four branch conditions are decided as stated: it runs to its end, the two input blocks
    untouched, the running minima, the running maximum and the output block at their next values. -/
theorem run_C (c : Dev nD) (i : grid0.Coords)
    (arg3 : Memref sig .tc .vmem S1x1024x3 .f32) (harg3 : arg3.IsWhole) (arg4 : Memref sig .tc .vmem S1x512x3 .f32) (harg4 : arg4.IsWhole)
    (arg5 : Memref sig .tc .vmem S1x1x1 .f32) (harg5 : arg5.IsWhole) (arg6 : Memref sig .tc .vmem S1024x1 .f32) (harg6 : arg6.IsWhole)
    (arg7 : Memref sig .tc .vmem S1x1 .f32) (harg7 : arg7.IsWhole)
    (h1 : ¬cond1 i) (h2 : ¬cond2 i) (h3 : ¬cond3 i) (h4 : ¬cond4 i)
    (x0 : Vec F S1x1024x3 .f32) (x1 : Vec F S1x512x3 .f32) (xo : Vec F S1x1x1 .f32) (xs0 : Vec F S1024x1 .f32) (xs1 : Vec F S1x1 .f32)
    (E : Set ℕ) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare xs0 ∗ owns (c : Thread nD τ) arg7 fullShare xs1
        ∗ (iprop(owns (c : Thread nD τ) arg3 fullShare x0 ∗ owns (c : Thread nD τ) arg4 fullShare x1
            ∗ owns (c : Thread nD τ) arg5 fullShare (outNext i x0 x1 xs0 xs1 xo)
            ∗ owns (c : Thread nD τ) arg6 fullShare (minNext i x0 x1 xs0)
            ∗ owns (c : Thread nD τ) arg7 fullShare (maxNext i x0 x1 xs0 xs1)) -∗ K ⟨⟩))
      ⊢ wp frame (wpE (defs₀ (F := F)) Variants.none c none) E (cc0__maxmin_kernel i arg3 harg3 arg4 harg4 arg5 harg5 arg6 harg6 arg7 harg7) K := by
  simp only [cc0__maxmin_kernel_eq_skeleton]; unfold cc0__maxmin_kernel_skel
  unfold owns
  iintro ⟨⟨%f0, %hf0, H0⟩, ⟨%f1, %hf1, H1⟩, ⟨%fo, %hfo, HO⟩, ⟨%fs0, %hfs0, HS0⟩, ⟨%fs1, %hfs1, HS1⟩, Hk⟩
  obtain rfl := harg3.eq_unread hf0; obtain rfl := harg4.eq_unread hf1; obtain rfl := harg5.eq_unread hfo
  obtain rfl := harg6.eq_unread hfs0; obtain rfl := harg7.eq_unread hfs1
  sl_exec (disch := first | exact h1 | exact h2 | exact h3 | exact h4)
  sl_step
  sl_unfold_words
  iapply Hk
  isplitl [H0]
  · iexists _; isplitr; · ipureintro; exact harg3.read_unread _
    iexact H0
  isplitl [H1]
  · iexists _; isplitr; · ipureintro; exact harg4.read_unread _
    iexact H1
  isplitl [HO]
  · iexists _; isplitr
    swap; · iexact HO
    ipureintro
    simp only [outNext, maxNext, minNext, minStep, if_neg h1, if_neg h2, if_neg h3, if_neg h4, read_whole_S1024x1, readCov_whole_S1024x1, ld_whole_S1024x1, read_whole_S1x1, readCov_whole_S1x1, ld_whole_S1x1, read_whole_S1x1x1, readCov_whole_S1x1x1, ld_whole_S1x1x1, read_whole_S1x1024x3, readCov_whole_S1x1024x3, ld_whole_S1x1024x3, read_whole_S1x512x3, readCov_whole_S1x512x3, ld_whole_S1x512x3,
      View.readAt_eq_ld, Memref.IsWhole.read_unread, colBase, colIota]
  isplitl [HS0]
  · iexists _; isplitr
    swap; · iexact HS0
    ipureintro
    simp only [minNext, minStep, if_neg h1, if_neg h2, if_neg h3, if_neg h4, read_whole_S1024x1, readCov_whole_S1024x1, ld_whole_S1024x1, read_whole_S1x1, readCov_whole_S1x1, ld_whole_S1x1, read_whole_S1x1x1, readCov_whole_S1x1x1, ld_whole_S1x1x1, read_whole_S1x1024x3, readCov_whole_S1x1024x3, ld_whole_S1x1024x3, read_whole_S1x512x3, readCov_whole_S1x512x3, ld_whole_S1x512x3,
      View.readAt_eq_ld, Memref.IsWhole.read_unread, colBase, colIota]
  · iexists _; isplitr
    swap; · iexact HS1
    ipureintro
    simp only [maxNext, minNext, minStep, if_neg h1, if_neg h2, if_neg h3, if_neg h4, read_whole_S1024x1, readCov_whole_S1024x1, ld_whole_S1024x1, read_whole_S1x1, readCov_whole_S1x1, ld_whole_S1x1, read_whole_S1x1x1, readCov_whole_S1x1x1, ld_whole_S1x1x1, read_whole_S1x1024x3, readCov_whole_S1x1024x3, ld_whole_S1x1024x3, read_whole_S1x512x3, readCov_whole_S1x512x3, ld_whole_S1x512x3,
      View.readAt_eq_ld, Memref.IsWhole.read_unread, colBase, colIota]

set_option maxHeartbeats 4000000 in
/-- The body at a grid point where the four branch conditions are decided as stated: it runs to its end, the two input blocks
    untouched, the running minima, the running maximum and the output block at their next values. -/
theorem run_D (c : Dev nD) (i : grid0.Coords)
    (arg3 : Memref sig .tc .vmem S1x1024x3 .f32) (harg3 : arg3.IsWhole) (arg4 : Memref sig .tc .vmem S1x512x3 .f32) (harg4 : arg4.IsWhole)
    (arg5 : Memref sig .tc .vmem S1x1x1 .f32) (harg5 : arg5.IsWhole) (arg6 : Memref sig .tc .vmem S1024x1 .f32) (harg6 : arg6.IsWhole)
    (arg7 : Memref sig .tc .vmem S1x1 .f32) (harg7 : arg7.IsWhole)
    (h1 : ¬cond1 i) (h2 : ¬cond2 i) (h3 : cond3 i) (h4 : ¬cond4 i)
    (x0 : Vec F S1x1024x3 .f32) (x1 : Vec F S1x512x3 .f32) (xo : Vec F S1x1x1 .f32) (xs0 : Vec F S1024x1 .f32) (xs1 : Vec F S1x1 .f32)
    (E : Set ℕ) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare xs0 ∗ owns (c : Thread nD τ) arg7 fullShare xs1
        ∗ (iprop(owns (c : Thread nD τ) arg3 fullShare x0 ∗ owns (c : Thread nD τ) arg4 fullShare x1
            ∗ owns (c : Thread nD τ) arg5 fullShare (outNext i x0 x1 xs0 xs1 xo)
            ∗ owns (c : Thread nD τ) arg6 fullShare (minNext i x0 x1 xs0)
            ∗ owns (c : Thread nD τ) arg7 fullShare (maxNext i x0 x1 xs0 xs1)) -∗ K ⟨⟩))
      ⊢ wp frame (wpE (defs₀ (F := F)) Variants.none c none) E (cc0__maxmin_kernel i arg3 harg3 arg4 harg4 arg5 harg5 arg6 harg6 arg7 harg7) K := by
  simp only [cc0__maxmin_kernel_eq_skeleton]; unfold cc0__maxmin_kernel_skel
  unfold owns
  iintro ⟨⟨%f0, %hf0, H0⟩, ⟨%f1, %hf1, H1⟩, ⟨%fo, %hfo, HO⟩, ⟨%fs0, %hfs0, HS0⟩, ⟨%fs1, %hfs1, HS1⟩, Hk⟩
  obtain rfl := harg3.eq_unread hf0; obtain rfl := harg4.eq_unread hf1; obtain rfl := harg5.eq_unread hfo
  obtain rfl := harg6.eq_unread hfs0; obtain rfl := harg7.eq_unread hfs1
  sl_exec (disch := first | exact h1 | exact h2 | exact h3 | exact h4)
  sl_step
  sl_unfold_words
  iapply Hk
  isplitl [H0]
  · iexists _; isplitr; · ipureintro; exact harg3.read_unread _
    iexact H0
  isplitl [H1]
  · iexists _; isplitr; · ipureintro; exact harg4.read_unread _
    iexact H1
  isplitl [HO]
  · iexists _; isplitr
    swap; · iexact HO
    ipureintro
    simp only [outNext, maxNext, minNext, minStep, if_neg h1, if_neg h2, if_pos h3, if_neg h4, read_whole_S1024x1, readCov_whole_S1024x1, ld_whole_S1024x1, read_whole_S1x1, readCov_whole_S1x1, ld_whole_S1x1, read_whole_S1x1x1, readCov_whole_S1x1x1, ld_whole_S1x1x1, read_whole_S1x1024x3, readCov_whole_S1x1024x3, ld_whole_S1x1024x3, read_whole_S1x512x3, readCov_whole_S1x512x3, ld_whole_S1x512x3,
      View.readAt_eq_ld, Memref.IsWhole.read_unread, colBase, colIota]
  isplitl [HS0]
  · iexists _; isplitr
    swap; · iexact HS0
    ipureintro
    simp only [minNext, minStep, if_neg h1, if_neg h2, if_pos h3, if_neg h4, read_whole_S1024x1, readCov_whole_S1024x1, ld_whole_S1024x1, read_whole_S1x1, readCov_whole_S1x1, ld_whole_S1x1, read_whole_S1x1x1, readCov_whole_S1x1x1, ld_whole_S1x1x1, read_whole_S1x1024x3, readCov_whole_S1x1024x3, ld_whole_S1x1024x3, read_whole_S1x512x3, readCov_whole_S1x512x3, ld_whole_S1x512x3,
      View.readAt_eq_ld, Memref.IsWhole.read_unread, colBase, colIota]
  · iexists _; isplitr
    swap; · iexact HS1
    ipureintro
    simp only [maxNext, minNext, minStep, if_neg h1, if_neg h2, if_pos h3, if_neg h4, read_whole_S1024x1, readCov_whole_S1024x1, ld_whole_S1024x1, read_whole_S1x1, readCov_whole_S1x1, ld_whole_S1x1, read_whole_S1x1x1, readCov_whole_S1x1x1, ld_whole_S1x1x1, read_whole_S1x1024x3, readCov_whole_S1x1024x3, ld_whole_S1x1024x3, read_whole_S1x512x3, readCov_whole_S1x512x3, ld_whole_S1x512x3,
      View.readAt_eq_ld, Memref.IsWhole.read_unread, colBase, colIota]

set_option maxHeartbeats 4000000 in
/-- The body at a grid point where the four branch conditions are decided as stated: it runs to its end, the two input blocks
    untouched, the running minima, the running maximum and the output block at their next values. -/
theorem run_E (c : Dev nD) (i : grid0.Coords)
    (arg3 : Memref sig .tc .vmem S1x1024x3 .f32) (harg3 : arg3.IsWhole) (arg4 : Memref sig .tc .vmem S1x512x3 .f32) (harg4 : arg4.IsWhole)
    (arg5 : Memref sig .tc .vmem S1x1x1 .f32) (harg5 : arg5.IsWhole) (arg6 : Memref sig .tc .vmem S1024x1 .f32) (harg6 : arg6.IsWhole)
    (arg7 : Memref sig .tc .vmem S1x1 .f32) (harg7 : arg7.IsWhole)
    (h1 : ¬cond1 i) (h2 : ¬cond2 i) (h3 : cond3 i) (h4 : cond4 i)
    (x0 : Vec F S1x1024x3 .f32) (x1 : Vec F S1x512x3 .f32) (xo : Vec F S1x1x1 .f32) (xs0 : Vec F S1024x1 .f32) (xs1 : Vec F S1x1 .f32)
    (E : Set ℕ) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare xs0 ∗ owns (c : Thread nD τ) arg7 fullShare xs1
        ∗ (iprop(owns (c : Thread nD τ) arg3 fullShare x0 ∗ owns (c : Thread nD τ) arg4 fullShare x1
            ∗ owns (c : Thread nD τ) arg5 fullShare (outNext i x0 x1 xs0 xs1 xo)
            ∗ owns (c : Thread nD τ) arg6 fullShare (minNext i x0 x1 xs0)
            ∗ owns (c : Thread nD τ) arg7 fullShare (maxNext i x0 x1 xs0 xs1)) -∗ K ⟨⟩))
      ⊢ wp frame (wpE (defs₀ (F := F)) Variants.none c none) E (cc0__maxmin_kernel i arg3 harg3 arg4 harg4 arg5 harg5 arg6 harg6 arg7 harg7) K := by
  simp only [cc0__maxmin_kernel_eq_skeleton]; unfold cc0__maxmin_kernel_skel
  unfold owns
  iintro ⟨⟨%f0, %hf0, H0⟩, ⟨%f1, %hf1, H1⟩, ⟨%fo, %hfo, HO⟩, ⟨%fs0, %hfs0, HS0⟩, ⟨%fs1, %hfs1, HS1⟩, Hk⟩
  obtain rfl := harg3.eq_unread hf0; obtain rfl := harg4.eq_unread hf1; obtain rfl := harg5.eq_unread hfo
  obtain rfl := harg6.eq_unread hfs0; obtain rfl := harg7.eq_unread hfs1
  sl_exec (disch := first | exact h1 | exact h2 | exact h3 | exact h4)
  sl_step
  sl_unfold_words
  iapply Hk
  isplitl [H0]
  · iexists _; isplitr; · ipureintro; exact harg3.read_unread _
    iexact H0
  isplitl [H1]
  · iexists _; isplitr; · ipureintro; exact harg4.read_unread _
    iexact H1
  isplitl [HO]
  · iexists _; isplitr
    swap; · iexact HO
    ipureintro
    simp only [outNext, maxNext, minNext, minStep, if_neg h1, if_neg h2, if_pos h3, if_pos h4, read_whole_S1024x1, readCov_whole_S1024x1, ld_whole_S1024x1, read_whole_S1x1, readCov_whole_S1x1, ld_whole_S1x1, read_whole_S1x1x1, readCov_whole_S1x1x1, ld_whole_S1x1x1, read_whole_S1x1024x3, readCov_whole_S1x1024x3, ld_whole_S1x1024x3, read_whole_S1x512x3, readCov_whole_S1x512x3, ld_whole_S1x512x3,
      View.readAt_eq_ld, Memref.IsWhole.read_unread, colBase, colIota]
  isplitl [HS0]
  · iexists _; isplitr
    swap; · iexact HS0
    ipureintro
    simp only [minNext, minStep, if_neg h1, if_neg h2, if_pos h3, if_pos h4, read_whole_S1024x1, readCov_whole_S1024x1, ld_whole_S1024x1, read_whole_S1x1, readCov_whole_S1x1, ld_whole_S1x1, read_whole_S1x1x1, readCov_whole_S1x1x1, ld_whole_S1x1x1, read_whole_S1x1024x3, readCov_whole_S1x1024x3, ld_whole_S1x1024x3, read_whole_S1x512x3, readCov_whole_S1x512x3, ld_whole_S1x512x3,
      View.readAt_eq_ld, Memref.IsWhole.read_unread, colBase, colIota]
  · iexists _; isplitr
    swap; · iexact HS1
    ipureintro
    simp only [maxNext, minNext, minStep, if_neg h1, if_neg h2, if_pos h3, if_pos h4, read_whole_S1024x1, readCov_whole_S1024x1, ld_whole_S1024x1, read_whole_S1x1, readCov_whole_S1x1, ld_whole_S1x1, read_whole_S1x1x1, readCov_whole_S1x1x1, ld_whole_S1x1x1, read_whole_S1x1024x3, readCov_whole_S1x1024x3, ld_whole_S1x1024x3, read_whole_S1x512x3, readCov_whole_S1x512x3, ld_whole_S1x512x3,
      View.readAt_eq_ld, Memref.IsWhole.read_unread, colBase, colIota]

/-- The body at any grid point: the conditions fall one of five ways (the reset of the maximum only with the reset of the
    minima, the output store only with the fold into the maximum, and never the first and the last column tile at once). -/
theorem body_run (c : Dev nD) (i : grid0.Coords)
    (arg3 : Memref sig .tc .vmem S1x1024x3 .f32) (harg3 : arg3.IsWhole) (arg4 : Memref sig .tc .vmem S1x512x3 .f32) (harg4 : arg4.IsWhole)
    (arg5 : Memref sig .tc .vmem S1x1x1 .f32) (harg5 : arg5.IsWhole) (arg6 : Memref sig .tc .vmem S1024x1 .f32) (harg6 : arg6.IsWhole)
    (arg7 : Memref sig .tc .vmem S1x1 .f32) (harg7 : arg7.IsWhole)
    (h12 : cond1 i → cond2 i) (h43 : cond4 i → cond3 i) (h23 : cond2 i → ¬cond3 i)
    (x0 : Vec F S1x1024x3 .f32) (x1 : Vec F S1x512x3 .f32) (xo : Vec F S1x1x1 .f32) (xs0 : Vec F S1024x1 .f32) (xs1 : Vec F S1x1 .f32)
    (E : Set ℕ) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare xs0 ∗ owns (c : Thread nD τ) arg7 fullShare xs1
        ∗ (iprop(owns (c : Thread nD τ) arg3 fullShare x0 ∗ owns (c : Thread nD τ) arg4 fullShare x1
            ∗ owns (c : Thread nD τ) arg5 fullShare (outNext i x0 x1 xs0 xs1 xo)
            ∗ owns (c : Thread nD τ) arg6 fullShare (minNext i x0 x1 xs0)
            ∗ owns (c : Thread nD τ) arg7 fullShare (maxNext i x0 x1 xs0 xs1)) -∗ K ⟨⟩))
      ⊢ wp frame (wpE (defs₀ (F := F)) Variants.none c none) E (cc0__maxmin_kernel i arg3 harg3 arg4 harg4 arg5 harg5 arg6 harg6 arg7 harg7) K := by
  by_cases h1 : cond1 i
  · have h2 := h12 h1
    have h3 := h23 h2
    have h4 : ¬cond4 i := fun h => h3 (h43 h)
    exact run_A c i arg3 harg3 arg4 harg4 arg5 harg5 arg6 harg6 arg7 harg7 h1 h2 h3 h4 x0 x1 xo xs0 xs1 E K
  · by_cases h2 : cond2 i
    · have h3 := h23 h2
      have h4 : ¬cond4 i := fun h => h3 (h43 h)
      exact run_B c i arg3 harg3 arg4 harg4 arg5 harg5 arg6 harg6 arg7 harg7 h1 h2 h3 h4 x0 x1 xo xs0 xs1 E K
    · by_cases h3 : cond3 i
      · by_cases h4 : cond4 i
        · exact run_E c i arg3 harg3 arg4 harg4 arg5 harg5 arg6 harg6 arg7 harg7 h1 h2 h3 h4 x0 x1 xo xs0 xs1 E K
        · exact run_D c i arg3 harg3 arg4 harg4 arg5 harg5 arg6 harg6 arg7 harg7 h1 h2 h3 h4 x0 x1 xo xs0 xs1 E K
      · have h4 : ¬cond4 i := fun h => h3 (h43 h)
        exact run_C c i arg3 harg3 arg4 harg4 arg5 harg5 arg6 harg6 arg7 harg7 h1 h2 h3 h4 x0 x1 xo xs0 xs1 E K

end Cert.Kernel.Hand

end
-- ==== Proof.KernelData.lean ====
import proofs.«106982_j77386720740129_1_alg».proof.Proof.KernelBody

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: no host line precedes it, so the launch contents. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem V_main_arg0 (c : Dev nD) : V m c main_arg0 = m ((c : Thread nD τ).loc main_arg0) := rfl

theorem hostOps1_fresh : (hostOps1 : List (HloOp τ sig (Elt F))).Forall fun op => op.fresh = ∅ := by
  simp only [List.Forall]; repeat' constructor

/-- @main is the region followed by the one reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-! ## The branch conditions over the grid

A point `t` of the 8 × 4 × 8 grid is batch `t / 32`, row tile `(t / 8) % 4`, column tile `t % 8`. -/

theorem hc1 : ∀ t : Fin cfg0.N, cond1 (grid0.coords t) ↔ t.val % 32 = 0 :=
  (by decide +kernel : ∀ t : Fin grid0.N, cond1 (grid0.coords t) ↔ t.val % 32 = 0)
theorem hc2 : ∀ t : Fin cfg0.N, cond2 (grid0.coords t) ↔ t.val % 8 = 0 :=
  (by decide +kernel : ∀ t : Fin grid0.N, cond2 (grid0.coords t) ↔ t.val % 8 = 0)
theorem hc3 : ∀ t : Fin cfg0.N, cond3 (grid0.coords t) ↔ t.val % 8 = 7 :=
  (by decide +kernel : ∀ t : Fin grid0.N, cond3 (grid0.coords t) ↔ t.val % 8 = 7)
theorem hc4 : ∀ t : Fin cfg0.N, cond4 (grid0.coords t) ↔ t.val % 32 = 31 :=
  (by decide +kernel : ∀ t : Fin grid0.N, cond4 (grid0.coords t) ↔ t.val % 32 = 31)

/-- The input windows are never idle; the output window is idle, and not written back, away from a batch's last point. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, t.val % 32 = 31 → cfg0.idle 2 (grid0.coords t) = false := by decide +kernel
theorem idle2 : ∀ t : Fin cfg0.N, ¬t.val % 32 = 31 → cfg0.idle 2 (grid0.coords t) = true := by decide +kernel
theorem noFlush2 : ∀ t : Fin cfg0.N, ¬t.val % 32 = 31 → (cfg0.win 2).flush t = false := by decide +kernel

/-! ## The staging memrefs and the scratch -/

abbrev ms0 (t : Fin cfg0.N) : Memref sig .tc .vmem S1x1024x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x1 .f32 := win0_2.stage (cfg0.slots t 2)
abbrev hs2 (t : Fin cfg0.N) : (ms2 t).IsWhole := hstage0_2 ((cfg0.slots t 2).cast nbuf0_2)
/-- The running minima and the running maximum live in the kernel's two scratch buffers. -/
abbrev scM0 : Memref sig .tc .vmem S1024x1 .f32 := Memref.whole cc0_scratch0
abbrev scM1 : Memref sig .tc .vmem S1x1 .f32 := Memref.whole cc0_scratch1

/-- Before the first point the region's invariant holds both scratch buffers at some contents, and the generator register. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-! ## The blocks and the state point by point -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The running minima and the running maximum after each point: the body's next state of what the point before left. Before
    the first point the scratch holds anything; the first point restarts both, so the start value here is immaterial. -/
def stAt (c : Dev nD) : (n : ℕ) → n < cfg0.N → Vec F S1024x1 .f32 × Vec F S1x1 .f32
  | 0, hn => (minNext (grid0.coords ⟨0, hn⟩) (iblk m c 0 ⟨0, hn⟩) (iblk m c 1 ⟨0, hn⟩) k0_pay5,
      maxNext (grid0.coords ⟨0, hn⟩) (iblk m c 0 ⟨0, hn⟩) (iblk m c 1 ⟨0, hn⟩) k0_pay5 k0_pay4)
  | n + 1, hn =>
    (minNext (grid0.coords ⟨n + 1, hn⟩) (iblk m c 0 ⟨n + 1, hn⟩) (iblk m c 1 ⟨n + 1, hn⟩) (stAt c n (Nat.lt_of_succ_lt hn)).1,
      maxNext (grid0.coords ⟨n + 1, hn⟩) (iblk m c 0 ⟨n + 1, hn⟩) (iblk m c 1 ⟨n + 1, hn⟩) (stAt c n (Nat.lt_of_succ_lt hn)).1 (stAt c n (Nat.lt_of_succ_lt hn)).2)

/-- Where both restarts fire, the next state does not depend on what the scratch held. -/
theorem next_of_reset (i : grid0.Coords) (h1 : cond1 i) (h2 : cond2 i) (x0 : Vec F S1x1024x3 .f32) (x1 : Vec F S1x512x3 .f32)
    (a a' : Vec F S1024x1 .f32) (b b' : Vec F S1x1 .f32) :
    minNext i x0 x1 a = minNext i x0 x1 a' ∧ maxNext i x0 x1 a b = maxNext i x0 x1 a' b' := by
  unfold maxNext minNext; simp only [if_pos h1, if_pos h2, and_self]

theorem stAt_pos (c : Dev nD) (t : Fin cfg0.N) (ht : t.val ≠ 0) :
    stAt m c t.val t.isLt =
      (minNext (grid0.coords t) (iblk m c 0 t) (iblk m c 1 t) (stAt m c (t.val - 1) (Nat.lt_of_le_of_lt (Nat.sub_le _ _) t.isLt)).1,
        maxNext (grid0.coords t) (iblk m c 0 t) (iblk m c 1 t) (stAt m c (t.val - 1) (Nat.lt_of_le_of_lt (Nat.sub_le _ _) t.isLt)).1
          (stAt m c (t.val - 1) (Nat.lt_of_le_of_lt (Nat.sub_le _ _) t.isLt)).2) := by
  obtain ⟨n, hn⟩ := t
  cases n with
  | zero => exact absurd rfl ht
  | succ n => rfl

/-- The region's invariant before position `n`: before the first point the scratch at anything; afterwards the running
    minima and the running maximum at what the point before left, and the generator register at some state. -/
def PhiS (c : Dev nD) : (n : ℕ) → n ≤ cfg0.N → sProp 𝕄
  | 0, _ => Pipeline.ΦA spec0 c
  | n + 1, hn => iprop(iprop(owns (c : Thread nD τ) scM0 fullShare ((stAt m c n hn).1) ∗ owns (c : Thread nD τ) scM1 fullShare ((stAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0 fullShare ((stAt m c n hn).1) ∗ owns (c : Thread nD τ) scM1 fullShare ((stAt m c n hn).2)) ∗ (∃ r, prngReg c r)) := rfl

theorem PhiS_pos (c : Dev nD) (n : ℕ) (h : n ≤ cfg0.N) (hz : n ≠ 0) :
    PhiS m c n h = iprop(iprop(owns (c : Thread nD τ) scM0 fullShare ((stAt m c (n - 1) (by omega)).1) ∗ owns (c : Thread nD τ) scM1 fullShare ((stAt m c (n - 1) (by omega)).2)) ∗ (∃ r, prngReg c r)) := by
  cases n with
  | zero => exact absurd rfl hz
  | succ n => rfl

/-! ## The pipeline's proof data -/

/-- The proof data of the one pipeline on core `c`. The two input windows read ONE array: each holds it at one half of the
    full share. After the body at point `t` each input's buffer holds its block; the output's holds the running maximum
    clamped from below (consulted only where the body stores it: a batch's last point). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay3 (stAt m c t.val t.isLt).2
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = k0_pay3 (stAt m c t.val t.isLt).2 := by dsimp only [dats]

/-- Each input's current staging buffer holds its block at every point, fetched there or not (the row tile's block is
    fetched once per eight points and left in place). -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)

end Cert.Kernel.Hand

end
-- ==== Proof.KernelObligation.lean ====
import proofs.«106982_j77386720740129_1_alg».proof.Proof.KernelData

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant opened at a point -/

/-- Before point `t` the scratch buffers hold SOME running minima and running maximum from which the state after `t` is the
    body's next state: before the first point anything (both restart there), afterwards what the point before left. -/
theorem Phi_open (c : Dev nD) (t : Fin cfg0.N) :
    (dats m 0 c).Φ t.castSucc ⊢ (iprop(∃ xs0 xs1,
        ⌜stAt m c t.val t.isLt = (minNext (grid0.coords t) (iblk m c 0 t) (iblk m c 1 t) xs0,
            maxNext (grid0.coords t) (iblk m c 0 t) (iblk m c 1 t) xs0 xs1)⌝
        ∗ owns (c : Thread nD τ) scM0 fullShare xs0 ∗ owns (c : Thread nD τ) scM1 fullShare xs1 ∗ (∃ r, prngReg c r)) : sProp 𝕄) := by
  by_cases hz : t.val = 0
  · rw [PhiS_castSucc, PhiS_zero m c _ _ hz, PhiA_eq]
    iintro ⟨⟨⟨%e0, HS0⟩, ⟨%e1, HS1⟩⟩, Hg⟩
    iexists e0; iexists e1
    isplitr
    · ipureintro
      obtain ⟨n, hn⟩ := t
      obtain rfl : n = 0 := hz
      have h1 : cond1 (grid0.coords ⟨0, hn⟩) := (hc1 ⟨0, hn⟩).mpr rfl
      have h2 : cond2 (grid0.coords ⟨0, hn⟩) := (hc2 ⟨0, hn⟩).mpr rfl
      obtain ⟨ha, hb⟩ := next_of_reset (grid0.coords ⟨0, hn⟩) h1 h2 (iblk m c 0 ⟨0, hn⟩) (iblk m c 1 ⟨0, hn⟩) k0_pay5 e0 k0_pay4 e1
      exact Prod.ext ha hb
    isplitl [HS0]; · iexact HS0
    isplitl [HS1]; · iexact HS1
    iexact Hg
  · rw [PhiS_castSucc, PhiS_pos m c _ _ hz]
    iintro ⟨⟨HS0, HS1⟩, Hg⟩
    iexists _; iexists _
    isplitr; · ipureintro; exact stAt_pos m c t hz
    isplitl [HS0]; · iexact HS0
    isplitl [HS1]; · iexact HS1
    iexact Hg

/-! ## The body obligation -/

/-- What the body is called with at point `t`: the invariant, the core owing nothing, each window's current buffer. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' buffers hold their blocks, the invariant hands over the scratch, the body's run
    applies; the scratch goes back at the point's state, and the output's buffer at the clamped maximum where the body
    stores it (a batch's last point), untouched elsewhere. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  have h12 : cond1 (grid0.coords t) → cond2 (grid0.coords t) := fun h => (hc2 t).mpr (by have := (hc1 t).mp h; omega)
  have h43 : cond4 (grid0.coords t) → cond3 (grid0.coords t) := fun h => (hc3 t).mpr (by have := (hc4 t).mp h; omega)
  have h23 : cond2 (grid0.coords t) → ¬cond3 (grid0.coords t) := fun h h' => by
    have := (hc2 t).mp h; have := (hc3 t).mp h'; omega
  by_cases h4 : t.val % 32 = 31
  · rw [show (dats m 0 c).leavesExact 2 t = owns (c : Thread nD τ) (ms2 t) fullShare ((dats m 0 c).after 2 t) from by
      unfold Dat.leavesExact; rw [live2 t h4], after2]
    iintro ⟨HΦ, Ho, ⟨%d0, H0⟩, ⟨%d1, H1⟩, ⟨%d2, H2⟩⟩
    ihave HΦ' := (Phi_open m c t) $$ HΦ
    icases HΦ' with ⟨%xs0, %xs1, %hst, HS0, HS1, Hg⟩
    rw [hst]
    iapply (body_run c (grid0.coords t) (ms0 t) (hs0 t) (ms1 t) (hs1 t) (ms2 t) (hs2 t) scM0 (Memref.isWhole_whole _) scM1 (Memref.isWhole_whole _)
      h12 h43 h23 (iblk m c 0 t) (iblk m c 1 t) ((dats m 0 c).before 2 t d2) xs0 xs1 Set.univ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    iapply (Entails.of_eq (congrArg (owns (c : Thread nD τ) (ms2 t) fullShare)
      (show outNext (grid0.coords t) (iblk m c 0 t) (iblk m c 1 t) xs0 xs1 ((dats m 0 c).before 2 t d2)
          = k0_pay3 (maxNext (grid0.coords t) (iblk m c 0 t) (iblk m c 1 t) xs0 xs1) from if_pos ((hc4 t).mpr h4))))
    iexact H2
  · rw [Dat.leavesExact_idle (dats m 0 c) 2 t (idle2 t h4) (noFlush2 t h4)]
    iintro ⟨HΦ, Ho, ⟨%d0, H0⟩, ⟨%d1, H1⟩, ⟨%d2, H2⟩⟩
    ihave HΦ' := (Phi_open m c t) $$ HΦ
    icases HΦ' with ⟨%xs0, %xs1, %hst, HS0, HS1, Hg⟩
    rw [hst]
    iapply (body_run c (grid0.coords t) (ms0 t) (hs0 t) (ms1 t) (hs1 t) (ms2 t) (hs2 t) scM0 (Memref.isWhole_whole _) scM1 (Memref.isWhole_whole _)
      h12 h43 h23 (iblk m c 0 t) (iblk m c 1 t) ((dats m 0 c).before 2 t d2) xs0 xs1 Set.univ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    iexists d2
    iapply (Entails.of_eq (congrArg (owns (c : Thread nD τ) (ms2 t) fullShare)
      (show outNext (grid0.coords t) (iblk m c 0 t) (iblk m c 1 t) xs0 xs1 ((dats m 0 c).before 2 t d2)
          = (dats m 0 c).before 2 t d2 from if_neg (fun h => h4 ((hc4 t).mp h)))))
    iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KernelLaunch.lean ====
import proofs.«106982_j77386720740129_1_alg».proof.Proof.KernelObligation

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (arrRef)

variable (m : (ℓ : Loc nD τ sig) → Buf (Elt F) ℓ) (ρ : Dev nD → PrngReg)

/-! ## One array, two windows

The two input windows read the same array. The launch hands the pipeline that array whole; each window holds it at one half
of the full share (nothing writes an input array, so half a share suffices for every fetch). -/

/-- The buffers behind the windows' arrays are two: the argument array and the result array. -/
theorem arrBufs_eq (c : Dev nD) :
    (Pipeline.arrBufs spec0 c (V m c) : sProp 𝕄)
      = iprop((((c : Thread nD τ).loc main_arg0) ↦{fullShare} V m c main_arg0) ∗ (((c : Thread nD τ).loc main_v0) ↦{fullShare} V m c main_v0)) := by
  unfold Pipeline.arrBufs
  exact bigSep_eq_bigSepL_of_eq [main_arg0, main_v0] (by decide) (by decide) _

/-- The windows' arrays at contents `G`, window by window at its share. -/
theorem arrays_eq3 (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2)) := by
  unfold Dat.arrays
  rw [bigSep_W0]
  simp only [(arr_whole0 0).set_eq_univ, (arr_whole0 1).set_eq_univ, (arr_whole0 2).set_eq_univ]
  rfl

/-- At entry the whole argument array is dealt to the two windows on it, half a share each. -/
theorem hsplit (c : Dev nD) : (Pipeline.arrBufs spec0 c (V m c) : sProp 𝕄) ⊢ (dats m 0 c).arrays ((dats m 0 c).arrAt · 0) := by
  rw [arrBufs_eq, arrays_eq3]
  iintro ⟨Ha, Hv⟩
  ihave Ha' := (pointsTo_share (PosShare.mem_left_op_right fullShare)).1 $$ Ha
  icases Ha' with ⟨Hl, Hr⟩
  isplitl [Hl]; · iexact Hl
  isplitl [Hr]; · iexact Hr
  iexact Hv

/-! ## The line after the region

@main ends with one reshape of the result array [8, 1, 1] into the returned vector [8]: it reads the result array and
writes the returned vector, and touches neither half of the argument array. -/

/-- The buffers the line touches. -/
abbrev tailS : Finset (DevRef τ sig) := {Proc.devRef .tc main_v0, Proc.devRef .tc main_v1}

/-- The buffer contents the line starts from: the result array as the pipeline left it, every other buffer as at entry. -/
def Wv (c : Dev nD) : Valuation τ sig (Elt F) :=
  Function.update (V0 m c) (Proc.devRef .tc main_v0) ((dats m 0 c).arrAt 2 cfg0.N)
/-- What the line leaves. -/
abbrev Wf (c : Dev nD) : Valuation τ sig (Elt F) :=
  StableHlo.after ([hostOps1] : List (List (HloOp τ sig (Elt F)))).flatten (Wv m c)

theorem Wv_v0 (c : Dev nD) : Wv m c (Proc.devRef .tc main_v0) = (dats m 0 c).arrAt 2 cfg0.N := Function.update_self ..
theorem Wv_v1 (c : Dev nD) : Wv m c (Proc.devRef .tc main_v1) = V m c main_v1 := Function.update_of_ne (by decide) ..

/-- The line does not write the result array. -/
theorem Wf_v0 (c : Dev nD) : Wf m c (Proc.devRef .tc main_v0) = (dats m 0 c).arrAt 2 cfg0.N := by
  simp only [Wf, List.flatten_cons, List.flatten_nil, List.append_nil, hostOps1]
  after_results
  exact Wv_v0 m c

theorem tail_sub : ∀ ops ∈ ([hostOps1] : List (List (HloOp τ sig (Elt F)))), ∀ op ∈ ops, op.bufs ⊆ tailS := by
  intro ops hops op hop
  simp only [List.mem_cons, List.mem_nil_iff, or_false] at hops
  subst hops
  simp only [hostOps1, List.mem_cons, List.mem_nil_iff, or_false] at hop
  subst hop
  rw [StableHlo.reshape_bufs]

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- The two buffers held at a valuation, one by one. -/
theorem held_S (c : Dev nD) (W : Valuation τ sig (Elt F)) :
    (StableHlo.held (c : Thread nD τ) tailS W : sProp 𝕄)
      = iprop((((c : Thread nD τ).loc main_v0) ↦{fullShare} W (Proc.devRef .tc main_v0)) ∗ (((c : Thread nD τ).loc main_v1) ↦{fullShare} W (Proc.devRef .tc main_v1))) := by
  unfold StableHlo.held
  exact bigSep_eq_bigSepL_of_eq [Proc.devRef .tc main_v0, Proc.devRef .tc main_v1] (by decide) (by decide) _

/-! ## The invariant at the two ends -/

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch back, its contents forgotten. -/
theorem hout (c : Dev nD) : (dats m 0 c).Φ (Fin.last cfg0.N) ⊢ Pipeline.ΦA spec0 c := by
  have hN : (Fin.last cfg0.N).val ≠ 0 := by rw [Fin.val_last]; have : cfg0.N = 256 := N_0; omega
  rw [show (dats m 0 c).Φ (Fin.last cfg0.N) = PhiS m c (Fin.last cfg0.N).val (Nat.le_of_lt_succ (Fin.last cfg0.N).isLt) from rfl,
    PhiS_pos m c _ _ hN, PhiA_eq]
  iintro ⟨⟨HS0, HS1⟩, Hg⟩
  isplitl [HS0 HS1]
  · isplitl [HS0]
    · iexists _; iexact HS0
    · iexists _; iexact HS1
  iexact Hg

/-! ## The run -/

set_option backward.isDefEq.respectTransparency.types false in
set_option maxHeartbeats 4000000 in
/-- At the compiled mesh, from any memory with zero counters: every weakly fair execution of @main terminates, every array
    of the pipeline ends at what the write-backs leave of it, and every other unscoped buffer at what the reshape leaves. -/
theorem run_main : θ_run (defs (F := F)) (onTc (τ := τ) (main (F := F))) ⟨m, fun _ => 0, ρ⟩ (fun r => ∀ c : Dev nD,
      (∀ w, r.2.mem ((spec0 w).arr.view.loc (c.tc : Thread nD τ)) = (dats m 0 c).arrAt w cfg0.N)
      ∧ (∀ b ∈ Pipeline.restRefsP sig Pipeline.Prefetch.none spec0, r.2.mem ((c.tc : Thread nD τ).loc b) = Wf m c (Proc.devRef .tc b))) :=
  Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none spec0) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (fun b => Wf m c (Proc.devRef .tc b)))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => by
      rw [Pipeline.unscopedRestP_none, Pipeline.unscopedRestP_none, unscopedRest0_eq, unscopedRest0_eq, arrays_eq3,
        show Pipeline.chain [StableHlo.seq (hostOps1 (F := F))] = Pipeline.chain (([hostOps1] : List (List (HloOp τ sig (Elt F)))).map StableHlo.seq ++ []) from rfl]
      iintro ⟨Hk, Hb, ⟨Hl, Hr, Hv0⟩, Hv1⟩
      iapply (Pipeline.wp_seqs_then (fun q => (cfgs q).toPCfg (Val := Elt F)) defs₀ Variants.none c tailS [] [hostOps1] tail_sub tail_fresh (Wv m c)) $$ [Hb Hv0 Hv1]
      · rw [held_S, Wv_v0, Wv_v1]
        isplitl [Hb]; · iexact Hb
        isplitl [Hv0]; · iexact Hv0
        iexact Hv1
      iintro ⟨Hb, Hh⟩
      rw [Pipeline.chain_nil, wp_pure]
      imodintro
      iapply Hk
      ihave Hh' := (Entails.of_eq (held_S c (Wf m c))) $$ Hh
      icases Hh' with ⟨Hv0, Hv1⟩
      isplitl [Hl Hr Hv0]
      · isplitl [Hl]; · iexact Hl
        isplitl [Hr]; · iexact Hr
        iapply (Entails.of_eq (congrArg (fun X => (((c.tc : Thread nD τ).loc main_v0) ↦{fullShare} X : sProp 𝕄)) (Wf_v0 m c)))
        iexact Hv0
      iexact Hv1)
    (QY := fun c s => ∀ b ∈ Pipeline.restRefsP sig Pipeline.Prefetch.none spec0, s.mem ((c.tc : Thread nD τ).loc b) = Wf m c (Proc.devRef .tc b))
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (fun b => Wf m c (Proc.devRef .tc b)) s')
      isplitl [HU] <;> iassumption)
    (hQ := fun s h c => ⟨(h c).1, (h c).2.2⟩)

/-- info: 'Cert.Kernel.Hand.run_main' depends on axioms: [propext, Classical.choice, Quot.sound] -/
#guard_msgs in #print axioms run_main

/-- THE FRAME: every weakly fair execution terminates, nothing faults, and the argument array ends as it began (an input
    window's array is never written). -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)) :=
  (θ_run (defs (F := F)) _ _).mono (fun _ h c => ((h c).1 0).trans (((dats m 0 c).arrAt_in 0 rfl _).trans ((A_eq m c 0).trans (V_main_arg0 m c))))
    (run_main m ρ)

end Cert.Kernel.Hand

end
-- ==== Proof.KernelIdealBody.lean ====
import proofs.«106982_j77386720740129_1_alg».proof.Proof.Gen.KernelIdeal.Launch
import proofs.«106982_j77386720740129_1_alg».proof.Proof.Gen.KernelIdeal.Skeleton
import proofs.«106982_j77386720740129_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reset of the running maximum: first row tile and first column tile of a batch. -/
abbrev cond1 (i : grid0.Coords) : Prop := Scalar.cmpi .ne (Scalar.extui (Scalar.andi (Scalar.cmpi .eq (BitVec.ofNat 32 (i 1).val) 0#32) (Scalar.cmpi .eq (BitVec.ofNat 32 (i 2).val) 0#32))) 0#32 = 1#1
/-- The reset of the running minima: first column tile. -/
abbrev cond2 (i : grid0.Coords) : Prop := Scalar.cmpi .ne (Scalar.extui (Scalar.cmpi .eq (BitVec.ofNat 32 (i 2).val) 0#32)) 0#32 = 1#1
/-- The fold of the minima into the maximum: last column tile. -/
abbrev cond3 (i : grid0.Coords) : Prop := Scalar.cmpi .ne (Scalar.extui (Scalar.cmpi .eq (BitVec.ofNat 32 (i 2).val) 7#32)) 0#32 = 1#1
/-- The store of the clamped result: last row tile and last column tile of a batch. -/
abbrev cond4 (i : grid0.Coords) : Prop := k0_cond4 i = 1#1

/-! ## Whole-buffer stores and loads

Every store of this body writes a whole buffer (the rectangle at zero offsets of the buffer's own extents), and every load
reads one whole. So a buffer reads back as the payload of the last store into it, whatever came before. -/

section Whole
variable {Val : EltTy → Type} [∀ e, Nonempty (Val e)] {S : Shape} {e : EltTy} {sig' : RefSig} {κ : Kind} {sp : Space}

/-- Every offset vector of zeros, however spelt, is the zero function (rank 2, rank 3). -/
theorem zeros2 : (![0, 0] : Fin 2 → ℕ) = fun _ => 0 := by funext a; fin_cases a <;> rfl
theorem zeros3 : (![0, 0, 0] : Fin 3 → ℕ) = fun _ => 0 := by funext a; fin_cases a <;> rfl

/-- After a list of stores whose last one writes the whole buffer, the buffer reads as that store's payload. -/
theorem read_whole_head_of (v : View sig' κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb w L]

/-- A whole-buffer load after such a list of stores reads that payload too. -/
theorem readCov_whole_head_of (v : View sig' κ sp S e) {off : Fin S.rank → ℕ} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

end Whole

/-- The same at each of the body's buffer shapes, zeros and extents spelt as literals. -/
theorem read_whole_S1024x1 {sp : Space} (v : View sig .tc sp S1024x1 .f32) (f : v.ty.Contents (Elt F))
    (inb : ∀ a, (![0, 0] : Fin 2 → ℕ) a + (![1024, 1] : Fin 2 → ℕ) a ≤ S1024x1.size a) (w : S1024x1.Idx → Elt F .f32) (L : List (View.Piece (Elt F) S1024x1 .f32)) :
    v.read (Elt F) (v.writes (Elt F) f ((⟨Rect.unit (s := S1024x1) ![0, 0] ![1024, 1] inb, w⟩ : View.Piece (Elt F) S1024x1 .f32) :: L)) = w :=
  read_whole_head_of v f zeros2 inb w L
theorem readCov_whole_S1024x1 {sp : Space} (v : View sig .tc sp S1024x1 .f32)
    (inb : ∀ a, (![0, 0] : Fin 2 → ℕ) a + (![1024, 1] : Fin 2 → ℕ) a ≤ S1024x1.size a) (w : S1024x1.Idx → Elt F .f32) (L : List (View.Piece (Elt F) S1024x1 .f32)) :
    v.readCov ((⟨Rect.unit (s := S1024x1) ![0, 0] ![1024, 1] inb, w⟩ : View.Piece (Elt F) S1024x1 .f32) :: L) (Rect.unit (s := S1024x1) ![0, 0] ![1024, 1] inb).toLoadRect = w :=
  readCov_whole_head_of v zeros2 inb w L
theorem ld_whole_S1024x1 (inb : ∀ a, (![0, 0] : Fin 2 → ℕ) a + (![1024, 1] : Fin 2 → ℕ) a ≤ S1024x1.size a) (X : S1024x1.Idx → Elt F .f32) :
    View.ld X (Rect.unit (s := S1024x1) ![0, 0] ![1024, 1] inb) = X :=
  View.ld_unit_zero zeros2 inb X

theorem read_whole_S1x1 {sp : Space} (v : View sig .tc sp S1x1 .f32) (f : v.ty.Contents (Elt F))
    (inb : ∀ a, (![0, 0] : Fin 2 → ℕ) a + (![1, 1] : Fin 2 → ℕ) a ≤ S1x1.size a) (w : S1x1.Idx → Elt F .f32) (L : List (View.Piece (Elt F) S1x1 .f32)) :
    v.read (Elt F) (v.writes (Elt F) f ((⟨Rect.unit (s := S1x1) ![0, 0] ![1, 1] inb, w⟩ : View.Piece (Elt F) S1x1 .f32) :: L)) = w :=
  read_whole_head_of v f zeros2 inb w L
theorem readCov_whole_S1x1 {sp : Space} (v : View sig .tc sp S1x1 .f32)
    (inb : ∀ a, (![0, 0] : Fin 2 → ℕ) a + (![1, 1] : Fin 2 → ℕ) a ≤ S1x1.size a) (w : S1x1.Idx → Elt F .f32) (L : List (View.Piece (Elt F) S1x1 .f32)) :
    v.readCov ((⟨Rect.unit (s := S1x1) ![0, 0] ![1, 1] inb, w⟩ : View.Piece (Elt F) S1x1 .f32) :: L) (Rect.unit (s := S1x1) ![0, 0] ![1, 1] inb).toLoadRect = w :=
  readCov_whole_head_of v zeros2 inb w L
theorem ld_whole_S1x1 (inb : ∀ a, (![0, 0] : Fin 2 → ℕ) a + (![1, 1] : Fin 2 → ℕ) a ≤ S1x1.size a) (X : S1x1.Idx → Elt F .f32) :
    View.ld X (Rect.unit (s := S1x1) ![0, 0] ![1, 1] inb) = X :=
  View.ld_unit_zero zeros2 inb X

theorem read_whole_S1x1x1 {sp : Space} (v : View sig .tc sp S1x1x1 .f32) (f : v.ty.Contents (Elt F))
    (inb : ∀ a, (![0, 0, 0] : Fin 3 → ℕ) a + (![1, 1, 1] : Fin 3 → ℕ) a ≤ S1x1x1.size a) (w : S1x1x1.Idx → Elt F .f32) (L : List (View.Piece (Elt F) S1x1x1 .f32)) :
    v.read (Elt F) (v.writes (Elt F) f ((⟨Rect.unit (s := S1x1x1) ![0, 0, 0] ![1, 1, 1] inb, w⟩ : View.Piece (Elt F) S1x1x1 .f32) :: L)) = w :=
  read_whole_head_of v f zeros3 inb w L
theorem readCov_whole_S1x1x1 {sp : Space} (v : View sig .tc sp S1x1x1 .f32)
    (inb : ∀ a, (![0, 0, 0] : Fin 3 → ℕ) a + (![1, 1, 1] : Fin 3 → ℕ) a ≤ S1x1x1.size a) (w : S1x1x1.Idx → Elt F .f32) (L : List (View.Piece (Elt F) S1x1x1 .f32)) :
    v.readCov ((⟨Rect.unit (s := S1x1x1) ![0, 0, 0] ![1, 1, 1] inb, w⟩ : View.Piece (Elt F) S1x1x1 .f32) :: L) (Rect.unit (s := S1x1x1) ![0, 0, 0] ![1, 1, 1] inb).toLoadRect = w :=
  readCov_whole_head_of v zeros3 inb w L
theorem ld_whole_S1x1x1 (inb : ∀ a, (![0, 0, 0] : Fin 3 → ℕ) a + (![1, 1, 1] : Fin 3 → ℕ) a ≤ S1x1x1.size a) (X : S1x1x1.Idx → Elt F .f32) :
    View.ld X (Rect.unit (s := S1x1x1) ![0, 0, 0] ![1, 1, 1] inb) = X :=
  View.ld_unit_zero zeros3 inb X

theorem read_whole_S1x1024x3 {sp : Space} (v : View sig .tc sp S1x1024x3 .f32) (f : v.ty.Contents (Elt F))
    (inb : ∀ a, (![0, 0, 0] : Fin 3 → ℕ) a + (![1, 1024, 3] : Fin 3 → ℕ) a ≤ S1x1024x3.size a) (w : S1x1024x3.Idx → Elt F .f32) (L : List (View.Piece (Elt F) S1x1024x3 .f32)) :
    v.read (Elt F) (v.writes (Elt F) f ((⟨Rect.unit (s := S1x1024x3) ![0, 0, 0] ![1, 1024, 3] inb, w⟩ : View.Piece (Elt F) S1x1024x3 .f32) :: L)) = w :=
  read_whole_head_of v f zeros3 inb w L
theorem readCov_whole_S1x1024x3 {sp : Space} (v : View sig .tc sp S1x1024x3 .f32)
    (inb : ∀ a, (![0, 0, 0] : Fin 3 → ℕ) a + (![1, 1024, 3] : Fin 3 → ℕ) a ≤ S1x1024x3.size a) (w : S1x1024x3.Idx → Elt F .f32) (L : List (View.Piece (Elt F) S1x1024x3 .f32)) :
    v.readCov ((⟨Rect.unit (s := S1x1024x3) ![0, 0, 0] ![1, 1024, 3] inb, w⟩ : View.Piece (Elt F) S1x1024x3 .f32) :: L) (Rect.unit (s := S1x1024x3) ![0, 0, 0] ![1, 1024, 3] inb).toLoadRect = w :=
  readCov_whole_head_of v zeros3 inb w L
theorem ld_whole_S1x1024x3 (inb : ∀ a, (![0, 0, 0] : Fin 3 → ℕ) a + (![1, 1024, 3] : Fin 3 → ℕ) a ≤ S1x1024x3.size a) (X : S1x1024x3.Idx → Elt F .f32) :
    View.ld X (Rect.unit (s := S1x1024x3) ![0, 0, 0] ![1, 1024, 3] inb) = X :=
  View.ld_unit_zero zeros3 inb X

theorem read_whole_S1x512x3 {sp : Space} (v : View sig .tc sp S1x512x3 .f32) (f : v.ty.Contents (Elt F))
    (inb : ∀ a, (![0, 0, 0] : Fin 3 → ℕ) a + (![1, 512, 3] : Fin 3 → ℕ) a ≤ S1x512x3.size a) (w : S1x512x3.Idx → Elt F .f32) (L : List (View.Piece (Elt F) S1x512x3 .f32)) :
    v.read (Elt F) (v.writes (Elt F) f ((⟨Rect.unit (s := S1x512x3) ![0, 0, 0] ![1, 512, 3] inb, w⟩ : View.Piece (Elt F) S1x512x3 .f32) :: L)) = w :=
  read_whole_head_of v f zeros3 inb w L
theorem readCov_whole_S1x512x3 {sp : Space} (v : View sig .tc sp S1x512x3 .f32)
    (inb : ∀ a, (![0, 0, 0] : Fin 3 → ℕ) a + (![1, 512, 3] : Fin 3 → ℕ) a ≤ S1x512x3.size a) (w : S1x512x3.Idx → Elt F .f32) (L : List (View.Piece (Elt F) S1x512x3 .f32)) :
    v.readCov ((⟨Rect.unit (s := S1x512x3) ![0, 0, 0] ![1, 512, 3] inb, w⟩ : View.Piece (Elt F) S1x512x3 .f32) :: L) (Rect.unit (s := S1x512x3) ![0, 0, 0] ![1, 512, 3] inb).toLoadRect = w :=
  readCov_whole_head_of v zeros3 inb w L
theorem ld_whole_S1x512x3 (inb : ∀ a, (![0, 0, 0] : Fin 3 → ℕ) a + (![1, 512, 3] : Fin 3 → ℕ) a ≤ S1x512x3.size a) (X : S1x512x3.Idx → Elt F .f32) :
    View.ld X (Rect.unit (s := S1x512x3) ![0, 0, 0] ![1, 512, 3] inb) = X :=
  View.ld_unit_zero zeros3 inb X

/-! ## The body's next state

What one grid point does to the two scratch buffers and to the output block, as pure functions of the two input blocks
and of what the buffers held: the running minima restart from +∞ at the first column tile and take in the tile's row
minima; the running maximum restarts from −∞ at a batch's first point and takes in the largest running minimum at the last
column tile; the output block receives the running maximum clamped from below at a batch's last point. -/

/-- The column offset of the tile and the lane index, as the body computes them. -/
abbrev colBase (i : grid0.Coords) : BitVec 32 := Scalar.muli (BitVec.ofNat 32 (i 2).val) 512#32
abbrev colIota : IVec S1024x512 32 := iota .tc S1024x512 32 [1] iota_S1024x512_d1_w32

/-- The running minima after taking in one tile. -/
def minStep (i : grid0.Coords) (x0 : Vec F S1x1024x3 .f32) (x1 : Vec F S1x512x3 .f32) (mn : Vec F S1024x1 .f32) : Vec F S1024x1 .f32 :=
  k0_pay1 (k0_pay6 x0 x1) (k0_pay7 i) (colBase i) colIota mn

/-- The running minima after the point. -/
def minNext (i : grid0.Coords) (x0 : Vec F S1x1024x3 .f32) (x1 : Vec F S1x512x3 .f32) (xs0 : Vec F S1024x1 .f32) : Vec F S1024x1 .f32 :=
  minStep i x0 x1 (if cond2 i then k0_pay5 else xs0)

/-- The running maximum after the point. -/
def maxNext (i : grid0.Coords) (x0 : Vec F S1x1024x3 .f32) (x1 : Vec F S1x512x3 .f32) (xs0 : Vec F S1024x1 .f32) (xs1 : Vec F S1x1 .f32) : Vec F S1x1 .f32 :=
  if cond3 i then k0_pay2 (minNext i x0 x1 xs0) (if cond1 i then k0_pay4 else xs1) else (if cond1 i then k0_pay4 else xs1)

/-- The output block after the point. -/
def outNext (i : grid0.Coords) (x0 : Vec F S1x1024x3 .f32) (x1 : Vec F S1x512x3 .f32) (xs0 : Vec F S1024x1 .f32) (xs1 : Vec F S1x1 .f32) (xo : Vec F S1x1x1 .f32) : Vec F S1x1x1 .f32 :=
  if cond4 i then k0_pay3 (maxNext i x0 x1 xs0 xs1) else xo

/-! ## The body's run, one theorem per way the four conditions can fall on the grid -/

set_option maxHeartbeats 4000000 in
/-- The body at a grid point where the four branch conditions are decided as stated: it runs to its end, the two input blocks
    untouched, the running minima, the running maximum and the output block at their next values. -/
theorem run_A (c : Dev nD) (i : grid0.Coords)
    (arg3 : Memref sig .tc .vmem S1x1024x3 .f32) (harg3 : arg3.IsWhole) (arg4 : Memref sig .tc .vmem S1x512x3 .f32) (harg4 : arg4.IsWhole)
    (arg5 : Memref sig .tc .vmem S1x1x1 .f32) (harg5 : arg5.IsWhole) (arg6 : Memref sig .tc .vmem S1024x1 .f32) (harg6 : arg6.IsWhole)
    (arg7 : Memref sig .tc .vmem S1x1 .f32) (harg7 : arg7.IsWhole)
    (h1 : cond1 i) (h2 : cond2 i) (h3 : ¬cond3 i) (h4 : ¬cond4 i)
    (x0 : Vec F S1x1024x3 .f32) (x1 : Vec F S1x512x3 .f32) (xo : Vec F S1x1x1 .f32) (xs0 : Vec F S1024x1 .f32) (xs1 : Vec F S1x1 .f32)
    (E : Set ℕ) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare xs0 ∗ owns (c : Thread nD τ) arg7 fullShare xs1
        ∗ (iprop(owns (c : Thread nD τ) arg3 fullShare x0 ∗ owns (c : Thread nD τ) arg4 fullShare x1
            ∗ owns (c : Thread nD τ) arg5 fullShare (outNext i x0 x1 xs0 xs1 xo)
            ∗ owns (c : Thread nD τ) arg6 fullShare (minNext i x0 x1 xs0)
            ∗ owns (c : Thread nD τ) arg7 fullShare (maxNext i x0 x1 xs0 xs1)) -∗ K ⟨⟩))
      ⊢ wp frame (wpE (defs₀ (F := F)) Variants.none c none) E (cc0__maxmin_kernel i arg3 harg3 arg4 harg4 arg5 harg5 arg6 harg6 arg7 harg7) K := by
  simp only [cc0__maxmin_kernel_eq_skeleton]; unfold cc0__maxmin_kernel_skel
  unfold owns
  iintro ⟨⟨%f0, %hf0, H0⟩, ⟨%f1, %hf1, H1⟩, ⟨%fo, %hfo, HO⟩, ⟨%fs0, %hfs0, HS0⟩, ⟨%fs1, %hfs1, HS1⟩, Hk⟩
  obtain rfl := harg3.eq_unread hf0; obtain rfl := harg4.eq_unread hf1; obtain rfl := harg5.eq_unread hfo
  obtain rfl := harg6.eq_unread hfs0; obtain rfl := harg7.eq_unread hfs1
  sl_exec (disch := first | exact h1 | exact h2 | exact h3 | exact h4)
  sl_step
  sl_unfold_words
  iapply Hk
  isplitl [H0]
  · iexists _; isplitr; · ipureintro; exact harg3.read_unread _
    iexact H0
  isplitl [H1]
  · iexists _; isplitr; · ipureintro; exact harg4.read_unread _
    iexact H1
  isplitl [HO]
  · iexists _; isplitr
    swap; · iexact HO
    ipureintro
    simp only [outNext, maxNext, minNext, minStep, if_pos h1, if_pos h2, if_neg h3, if_neg h4, read_whole_S1024x1, readCov_whole_S1024x1, ld_whole_S1024x1, read_whole_S1x1, readCov_whole_S1x1, ld_whole_S1x1, read_whole_S1x1x1, readCov_whole_S1x1x1, ld_whole_S1x1x1, read_whole_S1x1024x3, readCov_whole_S1x1024x3, ld_whole_S1x1024x3, read_whole_S1x512x3, readCov_whole_S1x512x3, ld_whole_S1x512x3,
      View.readAt_eq_ld, Memref.IsWhole.read_unread, colBase, colIota]
  isplitl [HS0]
  · iexists _; isplitr
    swap; · iexact HS0
    ipureintro
    simp only [minNext, minStep, if_pos h1, if_pos h2, if_neg h3, if_neg h4, read_whole_S1024x1, readCov_whole_S1024x1, ld_whole_S1024x1, read_whole_S1x1, readCov_whole_S1x1, ld_whole_S1x1, read_whole_S1x1x1, readCov_whole_S1x1x1, ld_whole_S1x1x1, read_whole_S1x1024x3, readCov_whole_S1x1024x3, ld_whole_S1x1024x3, read_whole_S1x512x3, readCov_whole_S1x512x3, ld_whole_S1x512x3,
      View.readAt_eq_ld, Memref.IsWhole.read_unread, colBase, colIota]
  · iexists _; isplitr
    swap; · iexact HS1
    ipureintro
    simp only [maxNext, minNext, minStep, if_pos h1, if_pos h2, if_neg h3, if_neg h4, read_whole_S1024x1, readCov_whole_S1024x1, ld_whole_S1024x1, read_whole_S1x1, readCov_whole_S1x1, ld_whole_S1x1, read_whole_S1x1x1, readCov_whole_S1x1x1, ld_whole_S1x1x1, read_whole_S1x1024x3, readCov_whole_S1x1024x3, ld_whole_S1x1024x3, read_whole_S1x512x3, readCov_whole_S1x512x3, ld_whole_S1x512x3,
      View.readAt_eq_ld, Memref.IsWhole.read_unread, colBase, colIota]

set_option maxHeartbeats 4000000 in
/-- The body at a grid point where the four branch conditions are decided as stated: it runs to its end, the two input blocks
    untouched, the running minima, the running maximum and the output block at their next values. -/
theorem run_B (c : Dev nD) (i : grid0.Coords)
    (arg3 : Memref sig .tc .vmem S1x1024x3 .f32) (harg3 : arg3.IsWhole) (arg4 : Memref sig .tc .vmem S1x512x3 .f32) (harg4 : arg4.IsWhole)
    (arg5 : Memref sig .tc .vmem S1x1x1 .f32) (harg5 : arg5.IsWhole) (arg6 : Memref sig .tc .vmem S1024x1 .f32) (harg6 : arg6.IsWhole)
    (arg7 : Memref sig .tc .vmem S1x1 .f32) (harg7 : arg7.IsWhole)
    (h1 : ¬cond1 i) (h2 : cond2 i) (h3 : ¬cond3 i) (h4 : ¬cond4 i)
    (x0 : Vec F S1x1024x3 .f32) (x1 : Vec F S1x512x3 .f32) (xo : Vec F S1x1x1 .f32) (xs0 : Vec F S1024x1 .f32) (xs1 : Vec F S1x1 .f32)
    (E : Set ℕ) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare xs0 ∗ owns (c : Thread nD τ) arg7 fullShare xs1
        ∗ (iprop(owns (c : Thread nD τ) arg3 fullShare x0 ∗ owns (c : Thread nD τ) arg4 fullShare x1
            ∗ owns (c : Thread nD τ) arg5 fullShare (outNext i x0 x1 xs0 xs1 xo)
            ∗ owns (c : Thread nD τ) arg6 fullShare (minNext i x0 x1 xs0)
            ∗ owns (c : Thread nD τ) arg7 fullShare (maxNext i x0 x1 xs0 xs1)) -∗ K ⟨⟩))
      ⊢ wp frame (wpE (defs₀ (F := F)) Variants.none c none) E (cc0__maxmin_kernel i arg3 harg3 arg4 harg4 arg5 harg5 arg6 harg6 arg7 harg7) K := by
  simp only [cc0__maxmin_kernel_eq_skeleton]; unfold cc0__maxmin_kernel_skel
  unfold owns
  iintro ⟨⟨%f0, %hf0, H0⟩, ⟨%f1, %hf1, H1⟩, ⟨%fo, %hfo, HO⟩, ⟨%fs0, %hfs0, HS0⟩, ⟨%fs1, %hfs1, HS1⟩, Hk⟩
  obtain rfl := harg3.eq_unread hf0; obtain rfl := harg4.eq_unread hf1; obtain rfl := harg5.eq_unread hfo
  obtain rfl := harg6.eq_unread hfs0; obtain rfl := harg7.eq_unread hfs1
  sl_exec (disch := first | exact h1 | exact h2 | exact h3 | exact h4)
  sl_step
  sl_unfold_words
  iapply Hk
  isplitl [H0]
  · iexists _; isplitr; · ipureintro; exact harg3.read_unread _
    iexact H0
  isplitl [H1]
  · iexists _; isplitr; · ipureintro; exact harg4.read_unread _
    iexact H1
  isplitl [HO]
  · iexists _; isplitr
    swap; · iexact HO
    ipureintro
    simp only [outNext, maxNext, minNext, minStep, if_neg h1, if_pos h2, if_neg h3, if_neg h4, read_whole_S1024x1, readCov_whole_S1024x1, ld_whole_S1024x1, read_whole_S1x1, readCov_whole_S1x1, ld_whole_S1x1, read_whole_S1x1x1, readCov_whole_S1x1x1, ld_whole_S1x1x1, read_whole_S1x1024x3, readCov_whole_S1x1024x3, ld_whole_S1x1024x3, read_whole_S1x512x3, readCov_whole_S1x512x3, ld_whole_S1x512x3,
      View.readAt_eq_ld, Memref.IsWhole.read_unread, colBase, colIota]
  isplitl [HS0]
  · iexists _; isplitr
    swap; · iexact HS0
    ipureintro
    simp only [minNext, minStep, if_neg h1, if_pos h2, if_neg h3, if_neg h4, read_whole_S1024x1, readCov_whole_S1024x1, ld_whole_S1024x1, read_whole_S1x1, readCov_whole_S1x1, ld_whole_S1x1, read_whole_S1x1x1, readCov_whole_S1x1x1, ld_whole_S1x1x1, read_whole_S1x1024x3, readCov_whole_S1x1024x3, ld_whole_S1x1024x3, read_whole_S1x512x3, readCov_whole_S1x512x3, ld_whole_S1x512x3,
      View.readAt_eq_ld, Memref.IsWhole.read_unread, colBase, colIota]
  · iexists _; isplitr
    swap; · iexact HS1
    ipureintro
    simp only [maxNext, minNext, minStep, if_neg h1, if_pos h2, if_neg h3, if_neg h4, read_whole_S1024x1, readCov_whole_S1024x1, ld_whole_S1024x1, read_whole_S1x1, readCov_whole_S1x1, ld_whole_S1x1, read_whole_S1x1x1, readCov_whole_S1x1x1, ld_whole_S1x1x1, read_whole_S1x1024x3, readCov_whole_S1x1024x3, ld_whole_S1x1024x3, read_whole_S1x512x3, readCov_whole_S1x512x3, ld_whole_S1x512x3,
      View.readAt_eq_ld, Memref.IsWhole.read_unread, colBase, colIota]

set_option maxHeartbeats 4000000 in
/-- The body at a grid point where the four branch conditions are decided as stated: it runs to its end, the two input blocks
    untouched, the running minima, the running maximum and the output block at their next values. -/
theorem run_C (c : Dev nD) (i : grid0.Coords)
    (arg3 : Memref sig .tc .vmem S1x1024x3 .f32) (harg3 : arg3.IsWhole) (arg4 : Memref sig .tc .vmem S1x512x3 .f32) (harg4 : arg4.IsWhole)
    (arg5 : Memref sig .tc .vmem S1x1x1 .f32) (harg5 : arg5.IsWhole) (arg6 : Memref sig .tc .vmem S1024x1 .f32) (harg6 : arg6.IsWhole)
    (arg7 : Memref sig .tc .vmem S1x1 .f32) (harg7 : arg7.IsWhole)
    (h1 : ¬cond1 i) (h2 : ¬cond2 i) (h3 : ¬cond3 i) (h4 : ¬cond4 i)
    (x0 : Vec F S1x1024x3 .f32) (x1 : Vec F S1x512x3 .f32) (xo : Vec F S1x1x1 .f32) (xs0 : Vec F S1024x1 .f32) (xs1 : Vec F S1x1 .f32)
    (E : Set ℕ) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare xs0 ∗ owns (c : Thread nD τ) arg7 fullShare xs1
        ∗ (iprop(owns (c : Thread nD τ) arg3 fullShare x0 ∗ owns (c : Thread nD τ) arg4 fullShare x1
            ∗ owns (c : Thread nD τ) arg5 fullShare (outNext i x0 x1 xs0 xs1 xo)
            ∗ owns (c : Thread nD τ) arg6 fullShare (minNext i x0 x1 xs0)
            ∗ owns (c : Thread nD τ) arg7 fullShare (maxNext i x0 x1 xs0 xs1)) -∗ K ⟨⟩))
      ⊢ wp frame (wpE (defs₀ (F := F)) Variants.none c none) E (cc0__maxmin_kernel i arg3 harg3 arg4 harg4 arg5 harg5 arg6 harg6 arg7 harg7) K := by
  simp only [cc0__maxmin_kernel_eq_skeleton]; unfold cc0__maxmin_kernel_skel
  unfold owns
  iintro ⟨⟨%f0, %hf0, H0⟩, ⟨%f1, %hf1, H1⟩, ⟨%fo, %hfo, HO⟩, ⟨%fs0, %hfs0, HS0⟩, ⟨%fs1, %hfs1, HS1⟩, Hk⟩
  obtain rfl := harg3.eq_unread hf0; obtain rfl := harg4.eq_unread hf1; obtain rfl := harg5.eq_unread hfo
  obtain rfl := harg6.eq_unread hfs0; obtain rfl := harg7.eq_unread hfs1
  sl_exec (disch := first | exact h1 | exact h2 | exact h3 | exact h4)
  sl_step
  sl_unfold_words
  iapply Hk
  isplitl [H0]
  · iexists _; isplitr; · ipureintro; exact harg3.read_unread _
    iexact H0
  isplitl [H1]
  · iexists _; isplitr; · ipureintro; exact harg4.read_unread _
    iexact H1
  isplitl [HO]
  · iexists _; isplitr
    swap; · iexact HO
    ipureintro
    simp only [outNext, maxNext, minNext, minStep, if_neg h1, if_neg h2, if_neg h3, if_neg h4, read_whole_S1024x1, readCov_whole_S1024x1, ld_whole_S1024x1, read_whole_S1x1, readCov_whole_S1x1, ld_whole_S1x1, read_whole_S1x1x1, readCov_whole_S1x1x1, ld_whole_S1x1x1, read_whole_S1x1024x3, readCov_whole_S1x1024x3, ld_whole_S1x1024x3, read_whole_S1x512x3, readCov_whole_S1x512x3, ld_whole_S1x512x3,
      View.readAt_eq_ld, Memref.IsWhole.read_unread, colBase, colIota]
  isplitl [HS0]
  · iexists _; isplitr
    swap; · iexact HS0
    ipureintro
    simp only [minNext, minStep, if_neg h1, if_neg h2, if_neg h3, if_neg h4, read_whole_S1024x1, readCov_whole_S1024x1, ld_whole_S1024x1, read_whole_S1x1, readCov_whole_S1x1, ld_whole_S1x1, read_whole_S1x1x1, readCov_whole_S1x1x1, ld_whole_S1x1x1, read_whole_S1x1024x3, readCov_whole_S1x1024x3, ld_whole_S1x1024x3, read_whole_S1x512x3, readCov_whole_S1x512x3, ld_whole_S1x512x3,
      View.readAt_eq_ld, Memref.IsWhole.read_unread, colBase, colIota]
  · iexists _; isplitr
    swap; · iexact HS1
    ipureintro
    simp only [maxNext, minNext, minStep, if_neg h1, if_neg h2, if_neg h3, if_neg h4, read_whole_S1024x1, readCov_whole_S1024x1, ld_whole_S1024x1, read_whole_S1x1, readCov_whole_S1x1, ld_whole_S1x1, read_whole_S1x1x1, readCov_whole_S1x1x1, ld_whole_S1x1x1, read_whole_S1x1024x3, readCov_whole_S1x1024x3, ld_whole_S1x1024x3, read_whole_S1x512x3, readCov_whole_S1x512x3, ld_whole_S1x512x3,
      View.readAt_eq_ld, Memref.IsWhole.read_unread, colBase, colIota]

set_option maxHeartbeats 4000000 in
/-- The body at a grid point where the four branch conditions are decided as stated: it runs to its end, the two input blocks
    untouched, the running minima, the running maximum and the output block at their next values. -/
theorem run_D (c : Dev nD) (i : grid0.Coords)
    (arg3 : Memref sig .tc .vmem S1x1024x3 .f32) (harg3 : arg3.IsWhole) (arg4 : Memref sig .tc .vmem S1x512x3 .f32) (harg4 : arg4.IsWhole)
    (arg5 : Memref sig .tc .vmem S1x1x1 .f32) (harg5 : arg5.IsWhole) (arg6 : Memref sig .tc .vmem S1024x1 .f32) (harg6 : arg6.IsWhole)
    (arg7 : Memref sig .tc .vmem S1x1 .f32) (harg7 : arg7.IsWhole)
    (h1 : ¬cond1 i) (h2 : ¬cond2 i) (h3 : cond3 i) (h4 : ¬cond4 i)
    (x0 : Vec F S1x1024x3 .f32) (x1 : Vec F S1x512x3 .f32) (xo : Vec F S1x1x1 .f32) (xs0 : Vec F S1024x1 .f32) (xs1 : Vec F S1x1 .f32)
    (E : Set ℕ) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare xs0 ∗ owns (c : Thread nD τ) arg7 fullShare xs1
        ∗ (iprop(owns (c : Thread nD τ) arg3 fullShare x0 ∗ owns (c : Thread nD τ) arg4 fullShare x1
            ∗ owns (c : Thread nD τ) arg5 fullShare (outNext i x0 x1 xs0 xs1 xo)
            ∗ owns (c : Thread nD τ) arg6 fullShare (minNext i x0 x1 xs0)
            ∗ owns (c : Thread nD τ) arg7 fullShare (maxNext i x0 x1 xs0 xs1)) -∗ K ⟨⟩))
      ⊢ wp frame (wpE (defs₀ (F := F)) Variants.none c none) E (cc0__maxmin_kernel i arg3 harg3 arg4 harg4 arg5 harg5 arg6 harg6 arg7 harg7) K := by
  simp only [cc0__maxmin_kernel_eq_skeleton]; unfold cc0__maxmin_kernel_skel
  unfold owns
  iintro ⟨⟨%f0, %hf0, H0⟩, ⟨%f1, %hf1, H1⟩, ⟨%fo, %hfo, HO⟩, ⟨%fs0, %hfs0, HS0⟩, ⟨%fs1, %hfs1, HS1⟩, Hk⟩
  obtain rfl := harg3.eq_unread hf0; obtain rfl := harg4.eq_unread hf1; obtain rfl := harg5.eq_unread hfo
  obtain rfl := harg6.eq_unread hfs0; obtain rfl := harg7.eq_unread hfs1
  sl_exec (disch := first | exact h1 | exact h2 | exact h3 | exact h4)
  sl_step
  sl_unfold_words
  iapply Hk
  isplitl [H0]
  · iexists _; isplitr; · ipureintro; exact harg3.read_unread _
    iexact H0
  isplitl [H1]
  · iexists _; isplitr; · ipureintro; exact harg4.read_unread _
    iexact H1
  isplitl [HO]
  · iexists _; isplitr
    swap; · iexact HO
    ipureintro
    simp only [outNext, maxNext, minNext, minStep, if_neg h1, if_neg h2, if_pos h3, if_neg h4, read_whole_S1024x1, readCov_whole_S1024x1, ld_whole_S1024x1, read_whole_S1x1, readCov_whole_S1x1, ld_whole_S1x1, read_whole_S1x1x1, readCov_whole_S1x1x1, ld_whole_S1x1x1, read_whole_S1x1024x3, readCov_whole_S1x1024x3, ld_whole_S1x1024x3, read_whole_S1x512x3, readCov_whole_S1x512x3, ld_whole_S1x512x3,
      View.readAt_eq_ld, Memref.IsWhole.read_unread, colBase, colIota]
  isplitl [HS0]
  · iexists _; isplitr
    swap; · iexact HS0
    ipureintro
    simp only [minNext, minStep, if_neg h1, if_neg h2, if_pos h3, if_neg h4, read_whole_S1024x1, readCov_whole_S1024x1, ld_whole_S1024x1, read_whole_S1x1, readCov_whole_S1x1, ld_whole_S1x1, read_whole_S1x1x1, readCov_whole_S1x1x1, ld_whole_S1x1x1, read_whole_S1x1024x3, readCov_whole_S1x1024x3, ld_whole_S1x1024x3, read_whole_S1x512x3, readCov_whole_S1x512x3, ld_whole_S1x512x3,
      View.readAt_eq_ld, Memref.IsWhole.read_unread, colBase, colIota]
  · iexists _; isplitr
    swap; · iexact HS1
    ipureintro
    simp only [maxNext, minNext, minStep, if_neg h1, if_neg h2, if_pos h3, if_neg h4, read_whole_S1024x1, readCov_whole_S1024x1, ld_whole_S1024x1, read_whole_S1x1, readCov_whole_S1x1, ld_whole_S1x1, read_whole_S1x1x1, readCov_whole_S1x1x1, ld_whole_S1x1x1, read_whole_S1x1024x3, readCov_whole_S1x1024x3, ld_whole_S1x1024x3, read_whole_S1x512x3, readCov_whole_S1x512x3, ld_whole_S1x512x3,
      View.readAt_eq_ld, Memref.IsWhole.read_unread, colBase, colIota]

set_option maxHeartbeats 4000000 in
/-- The body at a grid point where the four branch conditions are decided as stated: it runs to its end, the two input blocks
    untouched, the running minima, the running maximum and the output block at their next values. -/
theorem run_E (c : Dev nD) (i : grid0.Coords)
    (arg3 : Memref sig .tc .vmem S1x1024x3 .f32) (harg3 : arg3.IsWhole) (arg4 : Memref sig .tc .vmem S1x512x3 .f32) (harg4 : arg4.IsWhole)
    (arg5 : Memref sig .tc .vmem S1x1x1 .f32) (harg5 : arg5.IsWhole) (arg6 : Memref sig .tc .vmem S1024x1 .f32) (harg6 : arg6.IsWhole)
    (arg7 : Memref sig .tc .vmem S1x1 .f32) (harg7 : arg7.IsWhole)
    (h1 : ¬cond1 i) (h2 : ¬cond2 i) (h3 : cond3 i) (h4 : cond4 i)
    (x0 : Vec F S1x1024x3 .f32) (x1 : Vec F S1x512x3 .f32) (xo : Vec F S1x1x1 .f32) (xs0 : Vec F S1024x1 .f32) (xs1 : Vec F S1x1 .f32)
    (E : Set ℕ) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare xs0 ∗ owns (c : Thread nD τ) arg7 fullShare xs1
        ∗ (iprop(owns (c : Thread nD τ) arg3 fullShare x0 ∗ owns (c : Thread nD τ) arg4 fullShare x1
            ∗ owns (c : Thread nD τ) arg5 fullShare (outNext i x0 x1 xs0 xs1 xo)
            ∗ owns (c : Thread nD τ) arg6 fullShare (minNext i x0 x1 xs0)
            ∗ owns (c : Thread nD τ) arg7 fullShare (maxNext i x0 x1 xs0 xs1)) -∗ K ⟨⟩))
      ⊢ wp frame (wpE (defs₀ (F := F)) Variants.none c none) E (cc0__maxmin_kernel i arg3 harg3 arg4 harg4 arg5 harg5 arg6 harg6 arg7 harg7) K := by
  simp only [cc0__maxmin_kernel_eq_skeleton]; unfold cc0__maxmin_kernel_skel
  unfold owns
  iintro ⟨⟨%f0, %hf0, H0⟩, ⟨%f1, %hf1, H1⟩, ⟨%fo, %hfo, HO⟩, ⟨%fs0, %hfs0, HS0⟩, ⟨%fs1, %hfs1, HS1⟩, Hk⟩
  obtain rfl := harg3.eq_unread hf0; obtain rfl := harg4.eq_unread hf1; obtain rfl := harg5.eq_unread hfo
  obtain rfl := harg6.eq_unread hfs0; obtain rfl := harg7.eq_unread hfs1
  sl_exec (disch := first | exact h1 | exact h2 | exact h3 | exact h4)
  sl_step
  sl_unfold_words
  iapply Hk
  isplitl [H0]
  · iexists _; isplitr; · ipureintro; exact harg3.read_unread _
    iexact H0
  isplitl [H1]
  · iexists _; isplitr; · ipureintro; exact harg4.read_unread _
    iexact H1
  isplitl [HO]
  · iexists _; isplitr
    swap; · iexact HO
    ipureintro
    simp only [outNext, maxNext, minNext, minStep, if_neg h1, if_neg h2, if_pos h3, if_pos h4, read_whole_S1024x1, readCov_whole_S1024x1, ld_whole_S1024x1, read_whole_S1x1, readCov_whole_S1x1, ld_whole_S1x1, read_whole_S1x1x1, readCov_whole_S1x1x1, ld_whole_S1x1x1, read_whole_S1x1024x3, readCov_whole_S1x1024x3, ld_whole_S1x1024x3, read_whole_S1x512x3, readCov_whole_S1x512x3, ld_whole_S1x512x3,
      View.readAt_eq_ld, Memref.IsWhole.read_unread, colBase, colIota]
  isplitl [HS0]
  · iexists _; isplitr
    swap; · iexact HS0
    ipureintro
    simp only [minNext, minStep, if_neg h1, if_neg h2, if_pos h3, if_pos h4, read_whole_S1024x1, readCov_whole_S1024x1, ld_whole_S1024x1, read_whole_S1x1, readCov_whole_S1x1, ld_whole_S1x1, read_whole_S1x1x1, readCov_whole_S1x1x1, ld_whole_S1x1x1, read_whole_S1x1024x3, readCov_whole_S1x1024x3, ld_whole_S1x1024x3, read_whole_S1x512x3, readCov_whole_S1x512x3, ld_whole_S1x512x3,
      View.readAt_eq_ld, Memref.IsWhole.read_unread, colBase, colIota]
  · iexists _; isplitr
    swap; · iexact HS1
    ipureintro
    simp only [maxNext, minNext, minStep, if_neg h1, if_neg h2, if_pos h3, if_pos h4, read_whole_S1024x1, readCov_whole_S1024x1, ld_whole_S1024x1, read_whole_S1x1, readCov_whole_S1x1, ld_whole_S1x1, read_whole_S1x1x1, readCov_whole_S1x1x1, ld_whole_S1x1x1, read_whole_S1x1024x3, readCov_whole_S1x1024x3, ld_whole_S1x1024x3, read_whole_S1x512x3, readCov_whole_S1x512x3, ld_whole_S1x512x3,
      View.readAt_eq_ld, Memref.IsWhole.read_unread, colBase, colIota]

/-- The body at any grid point: the conditions fall one of five ways (the reset of the maximum only with the reset of the
    minima, the output store only with the fold into the maximum, and never the first and the last column tile at once). -/
theorem body_run (c : Dev nD) (i : grid0.Coords)
    (arg3 : Memref sig .tc .vmem S1x1024x3 .f32) (harg3 : arg3.IsWhole) (arg4 : Memref sig .tc .vmem S1x512x3 .f32) (harg4 : arg4.IsWhole)
    (arg5 : Memref sig .tc .vmem S1x1x1 .f32) (harg5 : arg5.IsWhole) (arg6 : Memref sig .tc .vmem S1024x1 .f32) (harg6 : arg6.IsWhole)
    (arg7 : Memref sig .tc .vmem S1x1 .f32) (harg7 : arg7.IsWhole)
    (h12 : cond1 i → cond2 i) (h43 : cond4 i → cond3 i) (h23 : cond2 i → ¬cond3 i)
    (x0 : Vec F S1x1024x3 .f32) (x1 : Vec F S1x512x3 .f32) (xo : Vec F S1x1x1 .f32) (xs0 : Vec F S1024x1 .f32) (xs1 : Vec F S1x1 .f32)
    (E : Set ℕ) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare xs0 ∗ owns (c : Thread nD τ) arg7 fullShare xs1
        ∗ (iprop(owns (c : Thread nD τ) arg3 fullShare x0 ∗ owns (c : Thread nD τ) arg4 fullShare x1
            ∗ owns (c : Thread nD τ) arg5 fullShare (outNext i x0 x1 xs0 xs1 xo)
            ∗ owns (c : Thread nD τ) arg6 fullShare (minNext i x0 x1 xs0)
            ∗ owns (c : Thread nD τ) arg7 fullShare (maxNext i x0 x1 xs0 xs1)) -∗ K ⟨⟩))
      ⊢ wp frame (wpE (defs₀ (F := F)) Variants.none c none) E (cc0__maxmin_kernel i arg3 harg3 arg4 harg4 arg5 harg5 arg6 harg6 arg7 harg7) K := by
  by_cases h1 : cond1 i
  · have h2 := h12 h1
    have h3 := h23 h2
    have h4 : ¬cond4 i := fun h => h3 (h43 h)
    exact run_A c i arg3 harg3 arg4 harg4 arg5 harg5 arg6 harg6 arg7 harg7 h1 h2 h3 h4 x0 x1 xo xs0 xs1 E K
  · by_cases h2 : cond2 i
    · have h3 := h23 h2
      have h4 : ¬cond4 i := fun h => h3 (h43 h)
      exact run_B c i arg3 harg3 arg4 harg4 arg5 harg5 arg6 harg6 arg7 harg7 h1 h2 h3 h4 x0 x1 xo xs0 xs1 E K
    · by_cases h3 : cond3 i
      · by_cases h4 : cond4 i
        · exact run_E c i arg3 harg3 arg4 harg4 arg5 harg5 arg6 harg6 arg7 harg7 h1 h2 h3 h4 x0 x1 xo xs0 xs1 E K
        · exact run_D c i arg3 harg3 arg4 harg4 arg5 harg5 arg6 harg6 arg7 harg7 h1 h2 h3 h4 x0 x1 xo xs0 xs1 E K
      · have h4 : ¬cond4 i := fun h => h3 (h43 h)
        exact run_C c i arg3 harg3 arg4 harg4 arg5 harg5 arg6 harg6 arg7 harg7 h1 h2 h3 h4 x0 x1 xo xs0 xs1 E K

end Cert.KernelIdeal.Hand

end
-- ==== Proof.KernelIdealData.lean ====
import proofs.«106982_j77386720740129_1_alg».proof.Proof.KernelIdealBody

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: no host line precedes it, so the launch contents. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem V_main_arg0 (c : Dev nD) : V m c main_arg0 = m ((c : Thread nD τ).loc main_arg0) := rfl

theorem hostOps1_fresh : (hostOps1 : List (HloOp τ sig (Elt F))).Forall fun op => op.fresh = ∅ := by
  simp only [List.Forall]; repeat' constructor

/-- @main is the region followed by the one reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-! ## The branch conditions over the grid

A point `t` of the 8 × 4 × 8 grid is batch `t / 32`, row tile `(t / 8) % 4`, column tile `t % 8`. -/

theorem hc1 : ∀ t : Fin cfg0.N, cond1 (grid0.coords t) ↔ t.val % 32 = 0 :=
  (by decide +kernel : ∀ t : Fin grid0.N, cond1 (grid0.coords t) ↔ t.val % 32 = 0)
theorem hc2 : ∀ t : Fin cfg0.N, cond2 (grid0.coords t) ↔ t.val % 8 = 0 :=
  (by decide +kernel : ∀ t : Fin grid0.N, cond2 (grid0.coords t) ↔ t.val % 8 = 0)
theorem hc3 : ∀ t : Fin cfg0.N, cond3 (grid0.coords t) ↔ t.val % 8 = 7 :=
  (by decide +kernel : ∀ t : Fin grid0.N, cond3 (grid0.coords t) ↔ t.val % 8 = 7)
theorem hc4 : ∀ t : Fin cfg0.N, cond4 (grid0.coords t) ↔ t.val % 32 = 31 :=
  (by decide +kernel : ∀ t : Fin grid0.N, cond4 (grid0.coords t) ↔ t.val % 32 = 31)

/-- The input windows are never idle; the output window is idle, and not written back, away from a batch's last point. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, t.val % 32 = 31 → cfg0.idle 2 (grid0.coords t) = false := by decide +kernel
theorem idle2 : ∀ t : Fin cfg0.N, ¬t.val % 32 = 31 → cfg0.idle 2 (grid0.coords t) = true := by decide +kernel
theorem noFlush2 : ∀ t : Fin cfg0.N, ¬t.val % 32 = 31 → (cfg0.win 2).flush t = false := by decide +kernel

/-! ## The staging memrefs and the scratch -/

abbrev ms0 (t : Fin cfg0.N) : Memref sig .tc .vmem S1x1024x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x1 .f32 := win0_2.stage (cfg0.slots t 2)
abbrev hs2 (t : Fin cfg0.N) : (ms2 t).IsWhole := hstage0_2 ((cfg0.slots t 2).cast nbuf0_2)
/-- The running minima and the running maximum live in the kernel's two scratch buffers. -/
abbrev scM0 : Memref sig .tc .vmem S1024x1 .f32 := Memref.whole cc0_scratch0
abbrev scM1 : Memref sig .tc .vmem S1x1 .f32 := Memref.whole cc0_scratch1

/-- Before the first point the region's invariant holds both scratch buffers at some contents, and the generator register. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-! ## The blocks and the state point by point -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The running minima and the running maximum after each point: the body's next state of what the point before left. Before
    the first point the scratch holds anything; the first point restarts both, so the start value here is immaterial. -/
def stAt (c : Dev nD) : (n : ℕ) → n < cfg0.N → Vec F S1024x1 .f32 × Vec F S1x1 .f32
  | 0, hn => (minNext (grid0.coords ⟨0, hn⟩) (iblk m c 0 ⟨0, hn⟩) (iblk m c 1 ⟨0, hn⟩) k0_pay5,
      maxNext (grid0.coords ⟨0, hn⟩) (iblk m c 0 ⟨0, hn⟩) (iblk m c 1 ⟨0, hn⟩) k0_pay5 k0_pay4)
  | n + 1, hn =>
    (minNext (grid0.coords ⟨n + 1, hn⟩) (iblk m c 0 ⟨n + 1, hn⟩) (iblk m c 1 ⟨n + 1, hn⟩) (stAt c n (Nat.lt_of_succ_lt hn)).1,
      maxNext (grid0.coords ⟨n + 1, hn⟩) (iblk m c 0 ⟨n + 1, hn⟩) (iblk m c 1 ⟨n + 1, hn⟩) (stAt c n (Nat.lt_of_succ_lt hn)).1 (stAt c n (Nat.lt_of_succ_lt hn)).2)

/-- Where both restarts fire, the next state does not depend on what the scratch held. -/
theorem next_of_reset (i : grid0.Coords) (h1 : cond1 i) (h2 : cond2 i) (x0 : Vec F S1x1024x3 .f32) (x1 : Vec F S1x512x3 .f32)
    (a a' : Vec F S1024x1 .f32) (b b' : Vec F S1x1 .f32) :
    minNext i x0 x1 a = minNext i x0 x1 a' ∧ maxNext i x0 x1 a b = maxNext i x0 x1 a' b' := by
  unfold maxNext minNext; simp only [if_pos h1, if_pos h2, and_self]

theorem stAt_pos (c : Dev nD) (t : Fin cfg0.N) (ht : t.val ≠ 0) :
    stAt m c t.val t.isLt =
      (minNext (grid0.coords t) (iblk m c 0 t) (iblk m c 1 t) (stAt m c (t.val - 1) (Nat.lt_of_le_of_lt (Nat.sub_le _ _) t.isLt)).1,
        maxNext (grid0.coords t) (iblk m c 0 t) (iblk m c 1 t) (stAt m c (t.val - 1) (Nat.lt_of_le_of_lt (Nat.sub_le _ _) t.isLt)).1
          (stAt m c (t.val - 1) (Nat.lt_of_le_of_lt (Nat.sub_le _ _) t.isLt)).2) := by
  obtain ⟨n, hn⟩ := t
  cases n with
  | zero => exact absurd rfl ht
  | succ n => rfl

/-- The region's invariant before position `n`: before the first point the scratch at anything; afterwards the running
    minima and the running maximum at what the point before left, and the generator register at some state. -/
def PhiS (c : Dev nD) : (n : ℕ) → n ≤ cfg0.N → sProp 𝕄
  | 0, _ => Pipeline.ΦA spec0 c
  | n + 1, hn => iprop(iprop(owns (c : Thread nD τ) scM0 fullShare ((stAt m c n hn).1) ∗ owns (c : Thread nD τ) scM1 fullShare ((stAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0 fullShare ((stAt m c n hn).1) ∗ owns (c : Thread nD τ) scM1 fullShare ((stAt m c n hn).2)) ∗ (∃ r, prngReg c r)) := rfl

theorem PhiS_pos (c : Dev nD) (n : ℕ) (h : n ≤ cfg0.N) (hz : n ≠ 0) :
    PhiS m c n h = iprop(iprop(owns (c : Thread nD τ) scM0 fullShare ((stAt m c (n - 1) (by omega)).1) ∗ owns (c : Thread nD τ) scM1 fullShare ((stAt m c (n - 1) (by omega)).2)) ∗ (∃ r, prngReg c r)) := by
  cases n with
  | zero => exact absurd rfl hz
  | succ n => rfl

/-! ## The pipeline's proof data -/

/-- The proof data of the one pipeline on core `c`. The two input windows read ONE array: each holds it at one half of the
    full share. After the body at point `t` each input's buffer holds its block; the output's holds the running maximum
    clamped from below (consulted only where the body stores it: a batch's last point). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay3 (stAt m c t.val t.isLt).2
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = k0_pay3 (stAt m c t.val t.isLt).2 := by dsimp only [dats]

/-- Each input's current staging buffer holds its block at every point, fetched there or not (the row tile's block is
    fetched once per eight points and left in place). -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)

end Cert.KernelIdeal.Hand

end
-- ==== Proof.KernelIdealObligation.lean ====
import proofs.«106982_j77386720740129_1_alg».proof.Proof.KernelIdealData

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant opened at a point -/

/-- Before point `t` the scratch buffers hold SOME running minima and running maximum from which the state after `t` is the
    body's next state: before the first point anything (both restart there), afterwards what the point before left. -/
theorem Phi_open (c : Dev nD) (t : Fin cfg0.N) :
    (dats m 0 c).Φ t.castSucc ⊢ (iprop(∃ xs0 xs1,
        ⌜stAt m c t.val t.isLt = (minNext (grid0.coords t) (iblk m c 0 t) (iblk m c 1 t) xs0,
            maxNext (grid0.coords t) (iblk m c 0 t) (iblk m c 1 t) xs0 xs1)⌝
        ∗ owns (c : Thread nD τ) scM0 fullShare xs0 ∗ owns (c : Thread nD τ) scM1 fullShare xs1 ∗ (∃ r, prngReg c r)) : sProp 𝕄) := by
  by_cases hz : t.val = 0
  · rw [PhiS_castSucc, PhiS_zero m c _ _ hz, PhiA_eq]
    iintro ⟨⟨⟨%e0, HS0⟩, ⟨%e1, HS1⟩⟩, Hg⟩
    iexists e0; iexists e1
    isplitr
    · ipureintro
      obtain ⟨n, hn⟩ := t
      obtain rfl : n = 0 := hz
      have h1 : cond1 (grid0.coords ⟨0, hn⟩) := (hc1 ⟨0, hn⟩).mpr rfl
      have h2 : cond2 (grid0.coords ⟨0, hn⟩) := (hc2 ⟨0, hn⟩).mpr rfl
      obtain ⟨ha, hb⟩ := next_of_reset (grid0.coords ⟨0, hn⟩) h1 h2 (iblk m c 0 ⟨0, hn⟩) (iblk m c 1 ⟨0, hn⟩) k0_pay5 e0 k0_pay4 e1
      exact Prod.ext ha hb
    isplitl [HS0]; · iexact HS0
    isplitl [HS1]; · iexact HS1
    iexact Hg
  · rw [PhiS_castSucc, PhiS_pos m c _ _ hz]
    iintro ⟨⟨HS0, HS1⟩, Hg⟩
    iexists _; iexists _
    isplitr; · ipureintro; exact stAt_pos m c t hz
    isplitl [HS0]; · iexact HS0
    isplitl [HS1]; · iexact HS1
    iexact Hg

/-! ## The body obligation -/

/-- What the body is called with at point `t`: the invariant, the core owing nothing, each window's current buffer. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' buffers hold their blocks, the invariant hands over the scratch, the body's run
    applies; the scratch goes back at the point's state, and the output's buffer at the clamped maximum where the body
    stores it (a batch's last point), untouched elsewhere. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  have h12 : cond1 (grid0.coords t) → cond2 (grid0.coords t) := fun h => (hc2 t).mpr (by have := (hc1 t).mp h; omega)
  have h43 : cond4 (grid0.coords t) → cond3 (grid0.coords t) := fun h => (hc3 t).mpr (by have := (hc4 t).mp h; omega)
  have h23 : cond2 (grid0.coords t) → ¬cond3 (grid0.coords t) := fun h h' => by
    have := (hc2 t).mp h; have := (hc3 t).mp h'; omega
  by_cases h4 : t.val % 32 = 31
  · rw [show (dats m 0 c).leavesExact 2 t = owns (c : Thread nD τ) (ms2 t) fullShare ((dats m 0 c).after 2 t) from by
      unfold Dat.leavesExact; rw [live2 t h4], after2]
    iintro ⟨HΦ, Ho, ⟨%d0, H0⟩, ⟨%d1, H1⟩, ⟨%d2, H2⟩⟩
    ihave HΦ' := (Phi_open m c t) $$ HΦ
    icases HΦ' with ⟨%xs0, %xs1, %hst, HS0, HS1, Hg⟩
    rw [hst]
    iapply (body_run c (grid0.coords t) (ms0 t) (hs0 t) (ms1 t) (hs1 t) (ms2 t) (hs2 t) scM0 (Memref.isWhole_whole _) scM1 (Memref.isWhole_whole _)
      h12 h43 h23 (iblk m c 0 t) (iblk m c 1 t) ((dats m 0 c).before 2 t d2) xs0 xs1 Set.univ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    iapply (Entails.of_eq (congrArg (owns (c : Thread nD τ) (ms2 t) fullShare)
      (show outNext (grid0.coords t) (iblk m c 0 t) (iblk m c 1 t) xs0 xs1 ((dats m 0 c).before 2 t d2)
          = k0_pay3 (maxNext (grid0.coords t) (iblk m c 0 t) (iblk m c 1 t) xs0 xs1) from if_pos ((hc4 t).mpr h4))))
    iexact H2
  · rw [Dat.leavesExact_idle (dats m 0 c) 2 t (idle2 t h4) (noFlush2 t h4)]
    iintro ⟨HΦ, Ho, ⟨%d0, H0⟩, ⟨%d1, H1⟩, ⟨%d2, H2⟩⟩
    ihave HΦ' := (Phi_open m c t) $$ HΦ
    icases HΦ' with ⟨%xs0, %xs1, %hst, HS0, HS1, Hg⟩
    rw [hst]
    iapply (body_run c (grid0.coords t) (ms0 t) (hs0 t) (ms1 t) (hs1 t) (ms2 t) (hs2 t) scM0 (Memref.isWhole_whole _) scM1 (Memref.isWhole_whole _)
      h12 h43 h23 (iblk m c 0 t) (iblk m c 1 t) ((dats m 0 c).before 2 t d2) xs0 xs1 Set.univ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    iexists d2
    iapply (Entails.of_eq (congrArg (owns (c : Thread nD τ) (ms2 t) fullShare)
      (show outNext (grid0.coords t) (iblk m c 0 t) (iblk m c 1 t) xs0 xs1 ((dats m 0 c).before 2 t d2)
          = (dats m 0 c).before 2 t d2 from if_neg (fun h => h4 ((hc4 t).mp h)))))
    iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KernelIdealLaunch.lean ====
import proofs.«106982_j77386720740129_1_alg».proof.Proof.KernelIdealObligation

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (arrRef)

variable (m : (ℓ : Loc nD τ sig) → Buf (Elt F) ℓ) (ρ : Dev nD → PrngReg)

/-! ## One array, two windows

The two input windows read the same array. The launch hands the pipeline that array whole; each window holds it at one half
of the full share (nothing writes an input array, so half a share suffices for every fetch). -/

/-- The buffers behind the windows' arrays are two: the argument array and the result array. -/
theorem arrBufs_eq (c : Dev nD) :
    (Pipeline.arrBufs spec0 c (V m c) : sProp 𝕄)
      = iprop((((c : Thread nD τ).loc main_arg0) ↦{fullShare} V m c main_arg0) ∗ (((c : Thread nD τ).loc main_v0) ↦{fullShare} V m c main_v0)) := by
  unfold Pipeline.arrBufs
  exact bigSep_eq_bigSepL_of_eq [main_arg0, main_v0] (by decide) (by decide) _

/-- The windows' arrays at contents `G`, window by window at its share. -/
theorem arrays_eq3 (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2)) := by
  unfold Dat.arrays
  rw [bigSep_W0]
  simp only [(arr_whole0 0).set_eq_univ, (arr_whole0 1).set_eq_univ, (arr_whole0 2).set_eq_univ]
  rfl

/-- At entry the whole argument array is dealt to the two windows on it, half a share each. -/
theorem hsplit (c : Dev nD) : (Pipeline.arrBufs spec0 c (V m c) : sProp 𝕄) ⊢ (dats m 0 c).arrays ((dats m 0 c).arrAt · 0) := by
  rw [arrBufs_eq, arrays_eq3]
  iintro ⟨Ha, Hv⟩
  ihave Ha' := (pointsTo_share (PosShare.mem_left_op_right fullShare)).1 $$ Ha
  icases Ha' with ⟨Hl, Hr⟩
  isplitl [Hl]; · iexact Hl
  isplitl [Hr]; · iexact Hr
  iexact Hv

/-! ## The line after the region

@main ends with one reshape of the result array [8, 1, 1] into the returned vector [8]: it reads the result array and
writes the returned vector, and touches neither half of the argument array. -/

/-- The buffers the line touches. -/
abbrev tailS : Finset (DevRef τ sig) := {Proc.devRef .tc main_v0, Proc.devRef .tc main_v1}

/-- The buffer contents the line starts from: the result array as the pipeline left it, every other buffer as at entry. -/
def Wv (c : Dev nD) : Valuation τ sig (Elt F) :=
  Function.update (V0 m c) (Proc.devRef .tc main_v0) ((dats m 0 c).arrAt 2 cfg0.N)
/-- What the line leaves. -/
abbrev Wf (c : Dev nD) : Valuation τ sig (Elt F) :=
  StableHlo.after ([hostOps1] : List (List (HloOp τ sig (Elt F)))).flatten (Wv m c)

theorem Wv_v0 (c : Dev nD) : Wv m c (Proc.devRef .tc main_v0) = (dats m 0 c).arrAt 2 cfg0.N := Function.update_self ..
theorem Wv_v1 (c : Dev nD) : Wv m c (Proc.devRef .tc main_v1) = V m c main_v1 := Function.update_of_ne (by decide) ..

/-- The line does not write the result array. -/
theorem Wf_v0 (c : Dev nD) : Wf m c (Proc.devRef .tc main_v0) = (dats m 0 c).arrAt 2 cfg0.N := by
  simp only [Wf, List.flatten_cons, List.flatten_nil, List.append_nil, hostOps1]
  after_results
  exact Wv_v0 m c

theorem tail_sub : ∀ ops ∈ ([hostOps1] : List (List (HloOp τ sig (Elt F)))), ∀ op ∈ ops, op.bufs ⊆ tailS := by
  intro ops hops op hop
  simp only [List.mem_cons, List.mem_nil_iff, or_false] at hops
  subst hops
  simp only [hostOps1, List.mem_cons, List.mem_nil_iff, or_false] at hop
  subst hop
  rw [StableHlo.reshape_bufs]

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- The two buffers held at a valuation, one by one. -/
theorem held_S (c : Dev nD) (W : Valuation τ sig (Elt F)) :
    (StableHlo.held (c : Thread nD τ) tailS W : sProp 𝕄)
      = iprop((((c : Thread nD τ).loc main_v0) ↦{fullShare} W (Proc.devRef .tc main_v0)) ∗ (((c : Thread nD τ).loc main_v1) ↦{fullShare} W (Proc.devRef .tc main_v1))) := by
  unfold StableHlo.held
  exact bigSep_eq_bigSepL_of_eq [Proc.devRef .tc main_v0, Proc.devRef .tc main_v1] (by decide) (by decide) _

/-! ## The invariant at the two ends -/

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch back, its contents forgotten. -/
theorem hout (c : Dev nD) : (dats m 0 c).Φ (Fin.last cfg0.N) ⊢ Pipeline.ΦA spec0 c := by
  have hN : (Fin.last cfg0.N).val ≠ 0 := by rw [Fin.val_last]; have : cfg0.N = 256 := N_0; omega
  rw [show (dats m 0 c).Φ (Fin.last cfg0.N) = PhiS m c (Fin.last cfg0.N).val (Nat.le_of_lt_succ (Fin.last cfg0.N).isLt) from rfl,
    PhiS_pos m c _ _ hN, PhiA_eq]
  iintro ⟨⟨HS0, HS1⟩, Hg⟩
  isplitl [HS0 HS1]
  · isplitl [HS0]
    · iexists _; iexact HS0
    · iexists _; iexact HS1
  iexact Hg

/-! ## The run -/

set_option backward.isDefEq.respectTransparency.types false in
set_option maxHeartbeats 4000000 in
/-- At the compiled mesh, from any memory with zero counters: every weakly fair execution of @main terminates, every array
    of the pipeline ends at what the write-backs leave of it, and every other unscoped buffer at what the reshape leaves. -/
theorem run_main : θ_run (defs (F := F)) (onTc (τ := τ) (main (F := F))) ⟨m, fun _ => 0, ρ⟩ (fun r => ∀ c : Dev nD,
      (∀ w, r.2.mem ((spec0 w).arr.view.loc (c.tc : Thread nD τ)) = (dats m 0 c).arrAt w cfg0.N)
      ∧ (∀ b ∈ Pipeline.restRefsP sig Pipeline.Prefetch.none spec0, r.2.mem ((c.tc : Thread nD τ).loc b) = Wf m c (Proc.devRef .tc b))) :=
  Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none spec0) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (fun b => Wf m c (Proc.devRef .tc b)))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => by
      rw [Pipeline.unscopedRestP_none, Pipeline.unscopedRestP_none, unscopedRest0_eq, unscopedRest0_eq, arrays_eq3,
        show Pipeline.chain [StableHlo.seq (hostOps1 (F := F))] = Pipeline.chain (([hostOps1] : List (List (HloOp τ sig (Elt F)))).map StableHlo.seq ++ []) from rfl]
      iintro ⟨Hk, Hb, ⟨Hl, Hr, Hv0⟩, Hv1⟩
      iapply (Pipeline.wp_seqs_then (fun q => (cfgs q).toPCfg (Val := Elt F)) defs₀ Variants.none c tailS [] [hostOps1] tail_sub tail_fresh (Wv m c)) $$ [Hb Hv0 Hv1]
      · rw [held_S, Wv_v0, Wv_v1]
        isplitl [Hb]; · iexact Hb
        isplitl [Hv0]; · iexact Hv0
        iexact Hv1
      iintro ⟨Hb, Hh⟩
      rw [Pipeline.chain_nil, wp_pure]
      imodintro
      iapply Hk
      ihave Hh' := (Entails.of_eq (held_S c (Wf m c))) $$ Hh
      icases Hh' with ⟨Hv0, Hv1⟩
      isplitl [Hl Hr Hv0]
      · isplitl [Hl]; · iexact Hl
        isplitl [Hr]; · iexact Hr
        iapply (Entails.of_eq (congrArg (fun X => (((c.tc : Thread nD τ).loc main_v0) ↦{fullShare} X : sProp 𝕄)) (Wf_v0 m c)))
        iexact Hv0
      iexact Hv1)
    (QY := fun c s => ∀ b ∈ Pipeline.restRefsP sig Pipeline.Prefetch.none spec0, s.mem ((c.tc : Thread nD τ).loc b) = Wf m c (Proc.devRef .tc b))
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (fun b => Wf m c (Proc.devRef .tc b)) s')
      isplitl [HU] <;> iassumption)
    (hQ := fun s h c => ⟨(h c).1, (h c).2.2⟩)

/-- info: 'Cert.KernelIdeal.Hand.run_main' depends on axioms: [propext, Classical.choice, Quot.sound] -/
#guard_msgs in #print axioms run_main

/-- THE FRAME: every weakly fair execution terminates, nothing faults, and the argument array ends as it began (an input
    window's array is never written). -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)) :=
  (θ_run (defs (F := F)) _ _).mono (fun _ h c => ((h c).1 0).trans (((dats m 0 c).arrAt_in 0 rfl _).trans ((A_eq m c 0).trans (V_main_arg0 m c))))
    (run_main m ρ)

end Cert.KernelIdeal.Hand

end
-- ==== Proof.LibColumn.lean ====
/-
  Column forms of two layout operations, read at an index.

  A vector of length `a` viewed as an `[a, 1]` column by a shape cast reads, at `(p, 0)`, the vector at `p`, and the column
  viewed back as a vector reads, at `p`, the column at `(p, 0)`; an `[a, 1]` column broadcast along its unit axis to `[a, b]`
  reads, at `(p, q)`, the column at `(p, 0)`. Together they are what a sum along the last axis that keeps the axis (a row
  sum stored as a column, then spread over the row) reads at an index.
-/
import Idealize.ShloMosaic.Lib.Pipeline.Value
import Idealize.ShloMosaic.Lib.ValueIdx

namespace Cert.Lib.Column

open Idealize.ShloMosaic Idealize.ShloMosaic.ValueIdx

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column cast to `[a]` reads, at `p`, the column's entry of row `p`. -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- An `[a, 1]` column broadcast to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.Lib.Column
-- ==== Proof.MaxMinSpec.lean ====
/-
  The farthest nearest-neighbour distance of a point cloud, clamped from below: the function both programs compute.

  For a batch of 4096 points in three coordinates, the entry for the pair (n, k) is the distance recovered from the squared
  norms and the inner product, |p_n|² + |p_k|² − 2 p_n·p_k clamped at zero and rooted, with a large constant added on the
  diagonal so that a point is never its own nearest neighbour. A row's minimum is the distance from point n to its nearest
  other point; the largest row minimum is the distance of the most isolated point; the result is that, or 8 if larger.
  Minima fold from +∞ and maxima from −∞, as both programs' reductions do; every constant is kept as the float word both
  programs spell, so that none is ever evaluated.
-/
import Idealize.ShloMosaic.PureOps.Ideal
import Idealize.ShloMosaic.PureOps.Ideal.Laws
import Idealize.ShloMosaic.Lib.ValueIdx

noncomputable section

namespace Cert.MaxMinSpec

open Idealize.ShloMosaic Idealize.ShloMosaic.ValueIdx

/-- The point array [8, 4096, 3] at the ideal values. -/
abbrev Pts := (⟨3, ![8, 4096, 3]⟩ : Shape).Idx → EReal

/-- The words both programs spell: 2, 0, 100000, 8, +∞, −∞. -/
abbrev cTwo : EReal := Ideal.ofBits .f32 0x40000000#32
abbrev cZero : EReal := Ideal.ofBits .f32 0x00000000#32
abbrev cBig : EReal := Ideal.ofBits .f32 0x47C35000#32
abbrev cClamp : EReal := Ideal.ofBits .f32 0x41000000#32
abbrev cPosInf : EReal := Ideal.ofBits .f32 0x7F800000#32
abbrev cNegInf : EReal := Ideal.ofBits .f32 0xFF800000#32

/-- The squared norm of point `n` of batch `b`. -/
def normSq (P : Pts) (b : Fin 8) (n : Fin 4096) : EReal := ∑ d : Fin 3, P (ix3 b n d) * P (ix3 b n d)
/-- The inner product of points `n` and `k` of batch `b`. -/
def inner3 (P : Pts) (b : Fin 8) (n k : Fin 4096) : EReal := ∑ d : Fin 3, P (ix3 b n d) * P (ix3 b k d)
/-- The distance entry for the pair (n, k), the diagonal pushed away. -/
def entry (P : Pts) (b : Fin 8) (n k : Fin 4096) : EReal :=
  Ideal.sqrt (max (normSq P b n + normSq P b k - cTwo * inner3 P b n k) cZero) + (if n = k then cBig else cZero)
/-- The distance from point `n` to its nearest other point. -/
def rowMin (P : Pts) (b : Fin 8) (n : Fin 4096) : EReal :=
  (Finset.univ : Finset (Fin 4096)).fold min cPosInf (fun k => entry P b n k)
/-- The distance of the most isolated point, clamped from below. -/
def result (P : Pts) (b : Fin 8) : EReal :=
  max ((Finset.univ : Finset (Fin 4096)).fold max cNegInf (fun n => rowMin P b n)) cClamp

/-- A lower bound of a row's minimum is a lower bound of the fold's start and of every entry of the row. -/
theorem le_rowMin_iff (P : Pts) (b : Fin 8) (n : Fin 4096) (c : EReal) :
    c ≤ rowMin P b n ↔ c ≤ cPosInf ∧ ∀ k, c ≤ entry P b n k := by
  unfold rowMin; rw [Finset.le_fold_min]; simp only [Finset.mem_univ, forall_true_left]

/-- An upper bound of the largest row minimum is an upper bound of the fold's start and of every row minimum. -/
theorem maxRows_le_iff (P : Pts) (b : Fin 8) (u : EReal) :
    (Finset.univ : Finset (Fin 4096)).fold max cNegInf (fun n => rowMin P b n) ≤ u ↔ cNegInf ≤ u ∧ ∀ n, rowMin P b n ≤ u := by
  rw [Finset.fold_max_le]; simp only [Finset.mem_univ, forall_true_left]

/-- A word that encodes a number below 2³² is determined by it. -/
theorem ofNat_inj32 {a b : ℕ} (ha : a < 2 ^ 32) (hb : b < 2 ^ 32) : BitVec.ofNat 32 a = BitVec.ofNat 32 b ↔ a = b := by
  constructor
  · intro h
    have h' := congrArg BitVec.toNat h
    simp only [BitVec.toNat_ofNat] at h'
    rw [Nat.mod_eq_of_lt ha, Nat.mod_eq_of_lt hb] at h'
    exact h'
  · intro h; rw [h]

end Cert.MaxMinSpec

end
-- ==== Proof.KernelIdealTile.lean ====
/-
  The body's payloads read at an index, at the ideal values.

  One tile of the distance matrix: rows from the row block, columns from the column block; an entry is the root of the
  clamped |p_r|² + |p_j|² − 2 p_r·p_j (the inner product through the matrix unit, whose change of operand format is the
  identity at the ideal values), plus the big constant where the global row index equals the global column index. The
  running minima take in the tile's row minima; the running maximum the largest running minimum; the output the running
  maximum clamped from below.
-/
import proofs.«106982_j77386720740129_1_alg».proof.Proof.KernelIdealBody
import proofs.«106982_j77386720740129_1_alg».proof.Proof.LibColumn
import proofs.«106982_j77386720740129_1_alg».proof.Proof.MaxMinSpec
import Idealize.ShloMosaic.Lib.ValueLayout
import Idealize.ShloMosaic.PureOps.Ideal.Laws

set_option maxRecDepth 16384

noncomputable section

namespace Cert.KernelIdeal.Tile

open Cert.KernelIdeal Cert.KernelIdeal.Gen Cert.KernelIdeal.Hand
open Idealize.ShloMosaic Idealize.ShloMosaic.ValueIdx Cert.MaxMinSpec Cert.Lib.Column

/-! ## The pieces of a tile entry -/

/-- A row's squared norm, kept as a column and spread over the tile's columns. -/
theorem sqRow_at (v : FVec Ideal S1024x3 .f32) (r : Fin 1024) (j : Fin 512) :
    broadcastTo S1024x512 (shapeCast S1024x1 (multiReduction .add [1] S1024 (mulf v v) 0x00000000#32 reduces_S1024x3_S1024 (.inl rfl) rfl)
        shapeCasts_S1024_S1024x1) broadcasts_S1024x1_S1024x512 (ix2 r j)
      = ∑ d : Fin 3, v (ix2 r d) * v (ix2 r d) := by
  rw [broadcastTo_a1_ab_apply, shapeCast_a_a1_apply]
  refine (Ideal.multiReduction_add_single (mulf v v) 0x00000000#32 reduces_S1024x3_S1024 (.inl rfl) rfl (ix1 r)).trans ?_
  refine Finset.sum_congr rfl fun d _ => ?_
  rw [show reduces_S1024x3_S1024.lift (ix1 r) d = ix2 r d from funext fun c => Fin.ext (by fin_cases c <;> rfl)]
  rfl

/-- A column point's squared norm, kept as a column, turned into a row and spread over the tile's rows. -/
theorem sqCol_at (v : FVec Ideal S512x3 .f32) (r : Fin 1024) (j : Fin 512) :
    broadcastTo S1024x512 (transpose S1x512 [1, 0] (shapeCast S512x1 (multiReduction .add [1] S512 (mulf v v) 0x00000000#32 reduces_S512x3_S512 (.inl rfl) rfl)
        shapeCasts_S512_S512x1) transposes_S512x1_p1_0_S1x512) broadcasts_S1x512_S1024x512 (ix2 r j)
      = ∑ d : Fin 3, v (ix2 j d) * v (ix2 j d) := by
  rw [broadcastTo_1b_ab_apply, transpose_ix2_apply, shapeCast_a_a1_apply]
  refine (Ideal.multiReduction_add_single (mulf v v) 0x00000000#32 reduces_S512x3_S512 (.inl rfl) rfl (ix1 j)).trans ?_
  refine Finset.sum_congr rfl fun d _ => ?_
  rw [show reduces_S512x3_S512.lift (ix1 j) d = ix2 j d from funext fun c => Fin.ext (by fin_cases c <;> rfl)]
  rfl

theorem lhs0 (i : S1024x512.Idx) (q : dot_S1024x3_S512x3_S1024x512_1_1_0_0_n_n.contr.Idx) : (dot_S1024x3_S512x3_S1024x512_1_1_0_0_n_n.lhsIdx i q 0).val = (i 0).val := by
  unfold DotDims.lhsIdx
  rw [dif_neg (show ¬(0 : Fin S1024x3.rank) ∈ dot_S1024x3_S512x3_S1024x512_1_1_0_0_n_n.lhsBatch by decide), dif_pos (show (0 : Fin S1024x3.rank) ∈ dot_S1024x3_S512x3_S1024x512_1_1_0_0_n_n.lhsNonContracting by decide)]
  rfl
theorem lhs1 (i : S1024x512.Idx) (q : dot_S1024x3_S512x3_S1024x512_1_1_0_0_n_n.contr.Idx) : (dot_S1024x3_S512x3_S1024x512_1_1_0_0_n_n.lhsIdx i q 1).val = (q ⟨0, by decide⟩).val :=
  dot_S1024x3_S512x3_S1024x512_1_1_0_0_n_n.lhsIdx_val_of_single rfl i q
theorem rhs0 (i : S1024x512.Idx) (q : dot_S1024x3_S512x3_S1024x512_1_1_0_0_n_n.contr.Idx) : (dot_S1024x3_S512x3_S1024x512_1_1_0_0_n_n.rhsIdx i q 0).val = (i 1).val := by
  unfold DotDims.rhsIdx
  rw [dif_neg (show ¬(0 : Fin S512x3.rank) ∈ dot_S1024x3_S512x3_S1024x512_1_1_0_0_n_n.rhsBatch by decide), dif_pos (show (0 : Fin S512x3.rank) ∈ dot_S1024x3_S512x3_S1024x512_1_1_0_0_n_n.rhsNonContracting by decide)]
  rfl
theorem rhs1 (i : S1024x512.Idx) (q : dot_S1024x3_S512x3_S1024x512_1_1_0_0_n_n.contr.Idx) : (dot_S1024x3_S512x3_S1024x512_1_1_0_0_n_n.rhsIdx i q 1).val = (q ⟨0, by decide⟩).val :=
  dot_S1024x3_S512x3_S1024x512_1_1_0_0_n_n.rhsIdx_val_of_single rfl i q

/-- The inner products of the tile: the matrix unit contracts the three coordinates of row point `r` against those of
    column point `j`, into a zero accumulator; its operands' narrowing is the identity at the ideal values. -/
theorem cross_at (a : FVec Ideal S1024x3 .f32) (b : FVec Ideal S512x3 .f32) (r : Fin 1024) (j : Fin 512) :
    matmul dot_S1024x3_S512x3_S1024x512_1_1_0_0_n_n none (truncf .bf16 a bitsLt_bf16_f32) (truncf .bf16 b bitsLt_bf16_f32) (constant S1024x512 .f32 0x00000000#32) (ix2 r j)
      = ∑ d : Fin 3, a (ix2 r d) * b (ix2 j d) := by
  refine (Ideal.matmul_constant_zero_apply dot_S1024x3_S512x3_S1024x512_1_1_0_0_n_n none _ _ (ix2 r j)).trans ?_
  rw [← Equiv.sum_comp (contrEquiv1 dot_S1024x3_S512x3_S1024x512_1_1_0_0_n_n 3 rfl rfl).symm]
  refine Finset.sum_congr rfl fun d _ => ?_
  have hk := contrEquiv1_symm_val dot_S1024x3_S512x3_S1024x512_1_1_0_0_n_n 3 rfl rfl d
  have el : dot_S1024x3_S512x3_S1024x512_1_1_0_0_n_n.lhsIdx (ix2 r j) ((contrEquiv1 dot_S1024x3_S512x3_S1024x512_1_1_0_0_n_n 3 rfl rfl).symm d) = ix2 r d := funext fun c => Fin.ext (by
    match c with
    | ⟨0, _⟩ => exact lhs0 _ _
    | ⟨1, _⟩ => exact (lhs1 _ _).trans hk)
  have er : dot_S1024x3_S512x3_S1024x512_1_1_0_0_n_n.rhsIdx (ix2 r j) ((contrEquiv1 dot_S1024x3_S512x3_S1024x512_1_1_0_0_n_n 3 rfl rfl).symm d) = ix2 j d := funext fun c => Fin.ext (by
    match c with
    | ⟨0, _⟩ => exact rhs0 _ _
    | ⟨1, _⟩ => exact (rhs1 _ _).trans hk)
  rw [el, er]
  rfl

/-- The tile's entry (r, j) from the two blocks. -/
def tileEntry (x0 : Vec Ideal S1x1024x3 .f32) (x1 : Vec Ideal S1x512x3 .f32) (r : Fin 1024) (j : Fin 512) : EReal :=
  Ideal.sqrt (max ((∑ d : Fin 3, x0 (ix3 0 r d) * x0 (ix3 0 r d)) + (∑ d : Fin 3, x1 (ix3 0 j d) * x1 (ix3 0 j d))
    - cTwo * ∑ d : Fin 3, x0 (ix3 0 r d) * x1 (ix3 0 j d)) cZero)

theorem pay6_at (x0 : Vec Ideal S1x1024x3 .f32) (x1 : Vec Ideal S1x512x3 .f32) (r : Fin 1024) (j : Fin 512) :
    k0_pay6 (F := Ideal) x0 x1 (ix2 r j) = tileEntry x0 x1 r j := by
  have hq := sqRow_at (shapeCast S1024x3 x0 shapeCasts_S1x1024x3_S1024x3) r j
  have hk := sqCol_at (shapeCast S512x3 x1 shapeCasts_S1x512x3_S512x3) r j
  have hc := cross_at (shapeCast S1024x3 x0 shapeCasts_S1x1024x3_S1024x3) (shapeCast S512x3 x1 shapeCasts_S1x512x3_S512x3) r j
  simp only [shapeCast_1ab_ab_apply] at hq hk hc
  unfold k0_pay6 tileEntry
  show Ideal.sqrt (max (_ + _ - cTwo * _) cZero) = _
  rw [hq, hk, hc]

/-! ## The diagonal term -/

/-- The global row index of a tile entry, as the body's word: the row tile's offset plus the row inside the tile. -/
theorem rowWord_at (i : grid0.Coords) (r : Fin 1024) (j : Fin 512) :
    k0_pay7 i (ix2 r j) = BitVec.ofNat 32 ((i 1).val * 1024 + r.val) := by
  unfold k0_pay7
  show BitVec.ofNat 32 (i 1).val * BitVec.ofNat 32 1024 + iota .tc S1024x512 32 [0] iota_S1024x512_d0_w32 (ix2 r j) = _
  rw [iota_single_apply, ← BitVec.ofNat_mul, ← BitVec.ofNat_add]

/-- The global column index likewise. -/
theorem colWord_at (i : grid0.Coords) (r : Fin 1024) (j : Fin 512) :
    IntOp.addi (colBase i) (colIota (ix2 r j)) = BitVec.ofNat 32 ((i 2).val * 512 + j.val) := by
  show BitVec.ofNat 32 (i 2).val * BitVec.ofNat 32 512 + iota .tc S1024x512 32 [1] iota_S1024x512_d1_w32 (ix2 r j) = _
  rw [iota_single_apply, ← BitVec.ofNat_mul, ← BitVec.ofNat_add]

/-- A select on the equality of two words that encode numbers below 2³² is the `if` on the numbers. -/
theorem select_words (a b : ℕ) (ha : a < 2 ^ 32) (hb : b < 2 ^ 32) (x y : EReal) :
    Scalar.select (IntOp.cmpi .eq (BitVec.ofNat 32 a) (BitVec.ofNat 32 b)) x y = if a = b then x else y := by
  by_cases h : a = b
  · subst h
    rw [if_pos rfl, show IntOp.cmpi .eq (BitVec.ofNat 32 a) (BitVec.ofNat 32 a) = 1#1 from by simp [IntOp.cmpi]]
    exact select_one x y
  · have hne : BitVec.ofNat 32 a ≠ BitVec.ofNat 32 b := fun e => h ((ofNat_inj32 ha hb).mp e)
    rw [if_neg h, show IntOp.cmpi .eq (BitVec.ofNat 32 a) (BitVec.ofNat 32 b) = 0#1 from by
      simp [IntOp.cmpi, beq_eq_false_iff_ne.mpr hne]]
    exact select_zero x y

/-! ## The reductions of the body -/

/-- A tile's row minima, kept as a column: at row `r` the fold of `min` from +∞ over the row's entries. -/
theorem rowMinCol (w : FVec Ideal S1024x512 .f32) (r : Fin 1024) (u : Fin 1) :
    shapeCast S1024x1 (multiReduction .minimumf [1] S1024 w 0x7F800000#32 reduces_S1024x512_S1024 (.inl rfl) rfl) shapeCasts_S1024_S1024x1 (ix2 r u)
      = (Finset.univ : Finset (Fin 512)).fold min cPosInf (fun j => w (ix2 r j)) := by
  rw [shapeCast_a_a1_apply]
  refine (multiReduction_minimumf_eq_fold w 0x7F800000#32 reduces_S1024x512_S1024 (.inl rfl) rfl (ix1 r)).trans ?_
  refine (reduces_S1024x512_S1024.fold_filter_drop_single (FloatOps.minimumf (F := Ideal) (φ := .f32)) (FloatOps.ofBits .f32 0x7F800000#32) w (ix1 r)).trans ?_
  have hf : (w ∘ reduces_S1024x512_S1024.lift (ix1 r)) = fun j : Fin 512 => w (ix2 r j) := funext fun j =>
    congrArg w (show reduces_S1024x512_S1024.lift (ix1 r) j = ix2 r j from funext fun c => Fin.ext (by fin_cases c <;> rfl))
  rw [hf]
  rfl

/-- The largest of a column's 1024 entries, kept as a [1, 1] block: the fold of `max` from −∞ over the rows. -/
theorem colMaxAll (w : FVec Ideal S1024x1 .f32) :
    shapeCast S1x1 (multiReduction .maximumf [0] S1 w 0xFF800000#32 reduces_S1024x1_S1 (.inl rfl) rfl) shapeCasts_S1_S1x1 (ix2 (0 : Fin 1) (0 : Fin 1))
      = (Finset.univ : Finset (Fin 1024)).fold max cNegInf (fun r => w (ix2 r (0 : Fin 1))) := by
  rw [shapeCast_a_a1_apply]
  refine (Ideal.multiReduction_maximumf_single w 0xFF800000#32 reduces_S1024x1_S1 (.inl rfl) rfl (ix1 (0 : Fin 1))).trans ?_
  have hf : (w ∘ reduces_S1024x1_S1.lift (ix1 (0 : Fin 1))) = fun r : Fin 1024 => w (ix2 r (0 : Fin 1)) := funext fun r =>
    congrArg w (show reduces_S1024x1_S1.lift (ix1 (0 : Fin 1)) r = ix2 r (0 : Fin 1) from funext fun c => Fin.ext (by fin_cases c <;> rfl))
  rw [hf]
  rfl

/-! ## The payloads at an index -/

theorem pay5_at (r : Fin 1024) : k0_pay5 (F := Ideal) (ix2 r (0 : Fin 1)) = cPosInf := by
  unfold k0_pay5
  refine (congrFun (shapeCast_self _ _) (ix2 r (0 : Fin 1))).trans ?_
  rfl

theorem pay4_at : k0_pay4 (F := Ideal) (ix2 (0 : Fin 1) (0 : Fin 1)) = cNegInf := by
  unfold k0_pay4
  refine (congrFun (shapeCast_self _ _) (ix2 (0 : Fin 1) (0 : Fin 1))).trans ?_
  rfl

/-- The running minima after taking in a tile: at row `r` the smaller of what they held and the tile's row minimum. -/
theorem pay1_at (v30 : FVec Ideal S1024x512 .f32) (v34 : IVec S1024x512 32) (v35 : BitVec 32) (v36 : IVec S1024x512 32)
    (mn : Vec Ideal S1024x1 .f32) (r : Fin 1024) :
    k0_pay1 (F := Ideal) v30 v34 v35 v36 mn (ix2 r (0 : Fin 1))
      = min (mn (ix2 r (0 : Fin 1))) ((Finset.univ : Finset (Fin 512)).fold min cPosInf
          (fun j => v30 (ix2 r j) + Scalar.select (IntOp.cmpi .eq (v34 (ix2 r j)) (IntOp.addi v35 (v36 (ix2 r j)))) cBig cZero)) := by
  unfold k0_pay1
  refine (congrFun (shapeCast_self _ _) (ix2 r (0 : Fin 1))).trans ?_
  refine congrArg (min (mn (ix2 r (0 : Fin 1)))) ?_
  refine (rowMinCol _ r (0 : Fin 1)).trans ?_
  rfl

/-- The running maximum after taking in the running minima: the larger of what it held and the largest of them. -/
theorem pay2_at (v59 : Vec Ideal S1024x1 .f32) (v62 : Vec Ideal S1x1 .f32) :
    k0_pay2 (F := Ideal) v59 v62 (ix2 (0 : Fin 1) (0 : Fin 1))
      = max (v62 (ix2 (0 : Fin 1) (0 : Fin 1))) ((Finset.univ : Finset (Fin 1024)).fold max cNegInf (fun r => v59 (ix2 r (0 : Fin 1)))) := by
  unfold k0_pay2
  refine (congrFun (shapeCast_self _ _) (ix2 (0 : Fin 1) (0 : Fin 1))).trans ?_
  refine congrArg (max (v62 (ix2 (0 : Fin 1) (0 : Fin 1)))) ?_
  exact colMaxAll v59

/-- The output block: the running maximum clamped from below. -/
theorem pay3_at (v59 : Vec Ideal S1x1 .f32) :
    k0_pay3 (F := Ideal) v59 (ix3 (0 : Fin 1) (0 : Fin 1) (0 : Fin 1)) = max (v59 (ix2 (0 : Fin 1) (0 : Fin 1))) cClamp := by
  unfold k0_pay3
  refine (shapeCast_ab_1ab_apply _ _ (0 : Fin 1) (0 : Fin 1) (0 : Fin 1)).trans ?_
  rfl

/-! ## The next state at an index -/

/-- The running minima after a point, at row `r`: the smaller of what they held (+∞ at a restart) and the tile's row
    minimum, the tile's entries with the big constant added where the global row and column indices agree. -/
theorem minNext_at (i : grid0.Coords) (x0 : Vec Ideal S1x1024x3 .f32) (x1 : Vec Ideal S1x512x3 .f32) (mn : Vec Ideal S1024x1 .f32) (r : Fin 1024) :
    minNext (F := Ideal) i x0 x1 mn (ix2 r (0 : Fin 1))
      = min (if cond2 i then cPosInf else mn (ix2 r (0 : Fin 1)))
          ((Finset.univ : Finset (Fin 512)).fold min cPosInf
            (fun j => tileEntry x0 x1 r j + if (i 1).val * 1024 + r.val = (i 2).val * 512 + j.val then cBig else cZero)) := by
  have h1 : (i 1).val < 4 := (i 1).isLt
  have h2 : (i 2).val < 8 := (i 2).isLt
  unfold minNext minStep
  rw [pay1_at]
  refine congrArg₂ min ?_ ?_
  · by_cases h : cond2 i
    · rw [if_pos h, if_pos h]; exact pay5_at r
    · rw [if_neg h, if_neg h]
  · refine congrArg (fun f => Finset.fold min cPosInf f (Finset.univ : Finset (Fin 512))) (funext fun j => ?_)
    rw [pay6_at, rowWord_at, colWord_at, select_words _ _ (by have := r.isLt; omega) (by have := j.isLt; omega)]

/-- The running maximum after a point: at the last column tile the larger of what it held (−∞ at a restart) and the largest
    running minimum; elsewhere what it held. -/
theorem maxNext_at (i : grid0.Coords) (x0 : Vec Ideal S1x1024x3 .f32) (x1 : Vec Ideal S1x512x3 .f32) (mn : Vec Ideal S1024x1 .f32)
    (mx : Vec Ideal S1x1 .f32) :
    maxNext (F := Ideal) i x0 x1 mn mx (ix2 (0 : Fin 1) (0 : Fin 1))
      = if cond3 i then
          max (if cond1 i then cNegInf else mx (ix2 (0 : Fin 1) (0 : Fin 1)))
            ((Finset.univ : Finset (Fin 1024)).fold max cNegInf (fun r => minNext (F := Ideal) i x0 x1 mn (ix2 r (0 : Fin 1))))
        else (if cond1 i then cNegInf else mx (ix2 (0 : Fin 1) (0 : Fin 1))) := by
  unfold maxNext
  by_cases h3 : cond3 i
  · rw [if_pos h3, if_pos h3, pay2_at]
    refine congrArg₂ max ?_ rfl
    by_cases h1 : cond1 i
    · rw [if_pos h1, if_pos h1]; exact pay4_at
    · rw [if_neg h1, if_neg h1]
  · rw [if_neg h3, if_neg h3]
    by_cases h1 : cond1 i
    · rw [if_pos h1, if_pos h1]; exact pay4_at
    · rw [if_neg h1, if_neg h1]

end Cert.KernelIdeal.Tile

end
-- ==== Proof.KernelIdealValue.lean ====
/-
  The kernel's value at the ideal instance.

  Point `t` of the 8 × 4 × 8 grid is batch `t / 32`, row tile `t / 8 % 4`, column tile `t % 8`. The tile computed there is the
  1024 × 512 block of the batch's distance matrix at those tiles. The running minima after `t` are, row by row, the minimum
  over the column tiles met so far in `t`'s group of eight points; the running maximum after `t` is the largest of the running
  minima completed so far in `t`'s batch of thirty-two points. Both are carried by their bounds: a lower bound of a minimum
  is a lower bound of every entry under it, an upper bound of a maximum an upper bound of every entry under it, so the
  regroupings are arithmetic on the point numbers.
-/
import proofs.«106982_j77386720740129_1_alg».proof.Proof.KernelIdealLaunch
import proofs.«106982_j77386720740129_1_alg».proof.Proof.KernelIdealTile

set_option maxRecDepth 16384

noncomputable section

namespace Cert.KernelIdeal.HandValue

open Cert.KernelIdeal Cert.KernelIdeal.Gen Cert.KernelIdeal.Hand Cert.KernelIdeal.Tile
open Idealize.ShloMosaic Idealize.ShloMosaic.ValueIdx Idealize.ShloMosaic.TcCoe Idealize.SL.Sem Cert.MaxMinSpec
open Idealize.ShloMosaic.Pipeline (Dat)

variable (m : (ℓ : Loc nD τ sig) → Buf (Elt Ideal) ℓ) (c : Dev nD)

/-- The point array as the region finds it. -/
abbrev P : Pts := V m c main_arg0

theorem N256 : cfg0.N = 256 := N_0

/-- The batch of a point, the global row of a tile row at it, the global column of a tile column at it. -/
def bOf (t : Fin cfg0.N) : Fin 8 := ⟨t.val / 32, by have := t.isLt; have := N256; omega⟩
def rowOf (t : Fin cfg0.N) (r : Fin 1024) : Fin 4096 := ⟨t.val / 8 % 4 * 1024 + r.val, by have := r.isLt; omega⟩
def colOf (t : Fin cfg0.N) (j : Fin 512) : Fin 4096 := ⟨t.val % 8 * 512 + j.val, by have := j.isLt; omega⟩

/-- The grid's coordinates and the windows' block indices in closed form, decided over the 256 points. -/
theorem coords_val : ∀ t : Fin cfg0.N, ((grid0.coords t) 1).val = t.val / 8 % 4 ∧ ((grid0.coords t) 2).val = t.val % 8 :=
  (by decide +kernel : ∀ t : Fin grid0.N, ((grid0.coords t) 1).val = t.val / 8 % 4 ∧ ((grid0.coords t) 2).val = t.val % 8)
theorem index0 : ∀ t : Fin cfg0.N, win0_0.index t (0 : Fin 3) = t.val / 32 ∧ win0_0.index t (1 : Fin 3) = t.val / 8 % 4 ∧ win0_0.index t (2 : Fin 3) = 0 :=
  (by decide +kernel : ∀ t : Fin grid0.N, _)
theorem index1 : ∀ t : Fin cfg0.N, win0_1.index t (0 : Fin 3) = t.val / 32 ∧ win0_1.index t (1 : Fin 3) = t.val % 8 ∧ win0_1.index t (2 : Fin 3) = 0 :=
  (by decide +kernel : ∀ t : Fin grid0.N, _)
theorem index2 : ∀ t : Fin cfg0.N, win0_2.index t (0 : Fin 3) = t.val / 32 ∧ win0_2.index t (1 : Fin 3) = 0 ∧ win0_2.index t (2 : Fin 3) = 0 :=
  (by decide +kernel : ∀ t : Fin grid0.N, _)

/-- The row block at a point is the batch's rows of the point's row tile. -/
theorem blk0_at (t : Fin cfg0.N) (r : Fin 1024) (d : Fin 3) :
    iblk m c 0 t (ix3 (0 : Fin 1) r d) = P m c (ix3 (bOf t) (rowOf t r) d) := by
  obtain ⟨h0, h1, h2⟩ := index0 t
  show V m c main_arg0 (((cfg0.win 0).blk t).view.emb (ix3 (0 : Fin 1) r d)) = V m c main_arg0 (ix3 (bOf t) (rowOf t r) d)
  refine congrArg _ (funext fun a => Fin.ext ?_)
  match a with
  | ⟨0, _⟩ => show win0_0.index t (0 : Fin 3) * 1 + 1 * 0 = t.val / 32; omega
  | ⟨1, _⟩ => show win0_0.index t (1 : Fin 3) * 1024 + 1 * r.val = t.val / 8 % 4 * 1024 + r.val; omega
  | ⟨2, _⟩ => show win0_0.index t (2 : Fin 3) * 3 + 1 * d.val = d.val; omega

/-- The column block at a point is the batch's rows of the point's column tile. -/
theorem blk1_at (t : Fin cfg0.N) (j : Fin 512) (d : Fin 3) :
    iblk m c 1 t (ix3 (0 : Fin 1) j d) = P m c (ix3 (bOf t) (colOf t j) d) := by
  obtain ⟨h0, h1, h2⟩ := index1 t
  show V m c main_arg0 (((cfg0.win 1).blk t).view.emb (ix3 (0 : Fin 1) j d)) = V m c main_arg0 (ix3 (bOf t) (colOf t j) d)
  refine congrArg _ (funext fun a => Fin.ext ?_)
  match a with
  | ⟨0, _⟩ => show win0_1.index t (0 : Fin 3) * 1 + 1 * 0 = t.val / 32; omega
  | ⟨1, _⟩ => show win0_1.index t (1 : Fin 3) * 512 + 1 * j.val = t.val % 8 * 512 + j.val; omega
  | ⟨2, _⟩ => show win0_1.index t (2 : Fin 3) * 3 + 1 * d.val = d.val; omega

/-- The tile computed at a point, the diagonal term included, is the specification's entry at the global row and column. -/
theorem tile_at (t : Fin cfg0.N) (r : Fin 1024) (j : Fin 512) :
    tileEntry (iblk m c 0 t) (iblk m c 1 t) r j
        + (if ((grid0.coords t) 1).val * 1024 + r.val = ((grid0.coords t) 2).val * 512 + j.val then cBig else cZero)
      = entry (P m c) (bOf t) (rowOf t r) (colOf t j) := by
  obtain ⟨hc1, hc2⟩ := coords_val t
  unfold tileEntry entry normSq inner3
  simp only [blk0_at, blk1_at]
  refine congrArg₂ (· + ·) rfl ?_
  rw [hc1, hc2]
  exact if_congr (Fin.ext_iff (a := rowOf t r) (b := colOf t j)).symm rfl rfl

/-- A lower bound of the running minima after a point, at a row: a lower bound of what they held (of +∞ at a restart), of the
    fold's start, and of every entry of the tile's row. -/
theorem le_minNext_iff (t : Fin cfg0.N) (mn : Vec Ideal S1024x1 .f32) (r : Fin 1024) (x : EReal) :
    x ≤ minNext (F := Ideal) (grid0.coords t) (iblk m c 0 t) (iblk m c 1 t) mn (ix2 r (0 : Fin 1))
      ↔ x ≤ (if cond2 (grid0.coords t) then cPosInf else mn (ix2 r (0 : Fin 1))) ∧ x ≤ cPosInf
          ∧ ∀ j : Fin 512, x ≤ entry (P m c) (bOf t) (rowOf t r) (colOf t j) := by
  rw [minNext_at, le_min_iff, Finset.le_fold_min]
  simp only [Finset.mem_univ, forall_true_left, tile_at]

/-! ## The running minima, point by point -/

/-- A lower bound of the running minima after point `n`, at row `r`, is a lower bound of the fold's start and of every
    entry, in that row, of every tile computed so far in `n`'s group of eight points (the points with the same batch and row
    tile): the first point of a group restarts from +∞, every later one takes in one more tile. -/
theorem inv_min : ∀ (n : ℕ) (hn : n < cfg0.N) (r : Fin 1024) (x : EReal),
    x ≤ (stAt m c n hn).1 (ix2 r (0 : Fin 1)) ↔
      x ≤ cPosInf ∧ ∀ s : Fin cfg0.N, s.val ≤ n → s.val / 8 = n / 8 → ∀ j : Fin 512, x ≤ entry (P m c) (bOf s) (rowOf s r) (colOf s j)
  | 0, hn, r, x => by
    rw [show (stAt m c 0 hn).1 = minNext (grid0.coords ⟨0, hn⟩) (iblk m c 0 ⟨0, hn⟩) (iblk m c 1 ⟨0, hn⟩) (k0_pay5 (F := Ideal)) from rfl,
      le_minNext_iff m c ⟨0, hn⟩, if_pos ((hc2 ⟨0, hn⟩).mpr rfl)]
    constructor
    · rintro ⟨h1, -, h3⟩
      refine ⟨h1, fun s hs _ j => ?_⟩
      have hs0 : s = ⟨0, hn⟩ := Fin.ext (by show s.val = 0; omega)
      rw [hs0]; exact h3 j
    · rintro ⟨h1, h2⟩
      exact ⟨h1, h1, fun j => h2 ⟨0, hn⟩ (le_refl _) rfl j⟩
  | n + 1, hn, r, x => by
    have ih := inv_min n (Nat.lt_of_succ_lt hn) r x
    rw [show (stAt m c (n + 1) hn).1 = minNext (grid0.coords ⟨n + 1, hn⟩) (iblk m c 0 ⟨n + 1, hn⟩) (iblk m c 1 ⟨n + 1, hn⟩)
        (stAt m c n (Nat.lt_of_succ_lt hn)).1 from rfl, le_minNext_iff m c ⟨n + 1, hn⟩]
    by_cases h2 : (n + 1) % 8 = 0
    · rw [if_pos ((hc2 ⟨n + 1, hn⟩).mpr h2)]
      constructor
      · rintro ⟨h1, -, h3⟩
        refine ⟨h1, fun s hs hs8 j => ?_⟩
        have hs0 : s = ⟨n + 1, hn⟩ := Fin.ext (by show s.val = n + 1; omega)
        rw [hs0]; exact h3 j
      · rintro ⟨h1, hall⟩
        exact ⟨h1, h1, fun j => hall ⟨n + 1, hn⟩ (le_refl _) rfl j⟩
    · rw [if_neg (fun h => h2 ((hc2 ⟨n + 1, hn⟩).mp h)), ih]
      constructor
      · rintro ⟨⟨h1, hprev⟩, -, h3⟩
        refine ⟨h1, fun s hs hs8 j => ?_⟩
        by_cases hst : s.val = n + 1
        · have hs0 : s = ⟨n + 1, hn⟩ := Fin.ext hst
          rw [hs0]; exact h3 j
        · exact hprev s (by omega) (by omega) j
      · rintro ⟨h1, hall⟩
        exact ⟨⟨h1, fun s hs hs8 j => hall s (by omega) (by omega) j⟩, h1, fun j => hall ⟨n + 1, hn⟩ (le_refl _) rfl j⟩

/-! ## The running maximum, point by point -/

/-- An upper bound of the running maximum after point `n` is an upper bound of the fold's start and of every running minimum
    completed so far in `n`'s batch of thirty-two points (the points at a last column tile): a batch's first point restarts
    from −∞, each last column tile takes in its group's running minima. -/
theorem inv_max : ∀ (n : ℕ) (hn : n < cfg0.N) (u : EReal),
    (stAt m c n hn).2 (ix2 (0 : Fin 1) (0 : Fin 1)) ≤ u ↔
      cNegInf ≤ u ∧ ∀ s : Fin cfg0.N, s.val ≤ n → s.val / 32 = n / 32 → s.val % 8 = 7 →
        ∀ r : Fin 1024, (stAt m c s.val s.isLt).1 (ix2 r (0 : Fin 1)) ≤ u
  | 0, hn, u => by
    rw [show (stAt m c 0 hn).2 = maxNext (grid0.coords ⟨0, hn⟩) (iblk m c 0 ⟨0, hn⟩) (iblk m c 1 ⟨0, hn⟩) (k0_pay5 (F := Ideal)) (k0_pay4 (F := Ideal)) from rfl,
      maxNext_at, if_neg (fun h => by have := (hc3 ⟨0, hn⟩).mp h; simp at this), if_pos ((hc1 ⟨0, hn⟩).mpr rfl)]
    constructor
    · intro h; exact ⟨h, fun s hs _ h7 r => by exfalso; omega⟩
    · exact fun h => h.1
  | n + 1, hn, u => by
    have ih := inv_max n (Nat.lt_of_succ_lt hn) u
    rw [show (stAt m c (n + 1) hn).2 = maxNext (grid0.coords ⟨n + 1, hn⟩) (iblk m c 0 ⟨n + 1, hn⟩) (iblk m c 1 ⟨n + 1, hn⟩)
        (stAt m c n (Nat.lt_of_succ_lt hn)).1 (stAt m c n (Nat.lt_of_succ_lt hn)).2 from rfl, maxNext_at]
    by_cases h1 : (n + 1) % 32 = 0
    · have h3 : ¬(n + 1) % 8 = 7 := by omega
      rw [if_neg (fun h => h3 ((hc3 ⟨n + 1, hn⟩).mp h)), if_pos ((hc1 ⟨n + 1, hn⟩).mpr h1)]
      constructor
      · intro h; exact ⟨h, fun s hs h32 h7 r => by exfalso; omega⟩
      · exact fun h => h.1
    · rw [if_neg (fun h => h1 ((hc1 ⟨n + 1, hn⟩).mp h))]
      by_cases h3 : (n + 1) % 8 = 7
      · rw [if_pos ((hc3 ⟨n + 1, hn⟩).mpr h3), max_le_iff, ih, Finset.fold_max_le]
        simp only [Finset.mem_univ, forall_true_left]
        constructor
        · rintro ⟨⟨h0, hprev⟩, -, hnew⟩
          refine ⟨h0, fun s hs h32 h7 r => ?_⟩
          by_cases hst : s.val = n + 1
          · have hs0 : s = ⟨n + 1, hn⟩ := Fin.ext hst
            rw [hs0]; exact hnew r
          · exact hprev s (by omega) (by omega) h7 r
        · rintro ⟨h0, hall⟩
          exact ⟨⟨h0, fun s hs h32 h7 r => hall s (by omega) (by omega) h7 r⟩, h0,
            fun r => hall ⟨n + 1, hn⟩ (le_refl _) rfl h3 r⟩
      · rw [if_neg (fun h => h3 ((hc3 ⟨n + 1, hn⟩).mp h)), ih]
        constructor
        · rintro ⟨h0, hprev⟩
          exact ⟨h0, fun s hs h32 h7 r => hprev s (by omega) (by omega) h7 r⟩
        · rintro ⟨h0, hall⟩
          exact ⟨h0, fun s hs h32 h7 r => hall s (by omega) (by omega) h7 r⟩

/-! ## Completed groups and batches against the specification -/

/-- At a last column tile the running minima are the rows' minima over the batch's whole distance matrix row: the eight
    tiles of the group are the 4096 columns, 512 at a time. -/
theorem mn_final (s : Fin cfg0.N) (h7 : s.val % 8 = 7) (r : Fin 1024) :
    (stAt m c s.val s.isLt).1 (ix2 r (0 : Fin 1)) = rowMin (P m c) (bOf s) (rowOf s r) := by
  refine eq_of_forall_le_iff fun x => ?_
  rw [inv_min m c s.val s.isLt r x, le_rowMin_iff]
  have hN := N256
  have hs := s.isLt
  refine and_congr Iff.rfl ⟨fun h k => ?_, fun h s' hs' hs8 j => ?_⟩
  · have hk := k.isLt
    have e := h ⟨8 * (s.val / 8) + k.val / 512, by omega⟩ (by show 8 * (s.val / 8) + k.val / 512 ≤ s.val; omega)
      (by show (8 * (s.val / 8) + k.val / 512) / 8 = s.val / 8; omega) ⟨k.val % 512, by omega⟩
    have e1 : bOf (⟨8 * (s.val / 8) + k.val / 512, by omega⟩ : Fin cfg0.N) = bOf s :=
      Fin.ext (by show (8 * (s.val / 8) + k.val / 512) / 32 = s.val / 32; omega)
    have e2 : rowOf (⟨8 * (s.val / 8) + k.val / 512, by omega⟩ : Fin cfg0.N) r = rowOf s r :=
      Fin.ext (by show (8 * (s.val / 8) + k.val / 512) / 8 % 4 * 1024 + r.val = s.val / 8 % 4 * 1024 + r.val; omega)
    have e3 : colOf (⟨8 * (s.val / 8) + k.val / 512, by omega⟩ : Fin cfg0.N) (⟨k.val % 512, by omega⟩ : Fin 512) = k :=
      Fin.ext (by show (8 * (s.val / 8) + k.val / 512) % 8 * 512 + k.val % 512 = k.val; omega)
    rw [e1, e2, e3] at e; exact e
  · have e1 : bOf s' = bOf s := Fin.ext (by show s'.val / 32 = s.val / 32; omega)
    have e2 : rowOf s' r = rowOf s r := Fin.ext (by show s'.val / 8 % 4 * 1024 + r.val = s.val / 8 % 4 * 1024 + r.val; omega)
    rw [e1, e2]; exact h (colOf s' j)

/-- The last point of batch `b`. -/
def lastOf (b : Fin 8) : Fin cfg0.N := ⟨32 * b.val + 31, by have := b.isLt; have := N256; omega⟩

/-- At a batch's last point the running maximum is the largest row minimum of the batch: the four row tiles are the
    4096 rows, 1024 at a time. -/
theorem mx_final (b : Fin 8) :
    (stAt m c (lastOf b).val (lastOf b).isLt).2 (ix2 (0 : Fin 1) (0 : Fin 1))
      = (Finset.univ : Finset (Fin 4096)).fold max cNegInf (fun n => rowMin (P m c) b n) := by
  refine eq_of_forall_ge_iff fun u => ?_
  rw [inv_max m c (lastOf b).val (lastOf b).isLt u, maxRows_le_iff]
  have hN := N256
  have hb := b.isLt
  have hl : (lastOf b).val = 32 * b.val + 31 := rfl
  refine and_congr Iff.rfl ⟨fun h n => ?_, fun h s hs h32 h7 r => ?_⟩
  · have hn := n.isLt
    have h7 : (32 * b.val + 8 * (n.val / 1024) + 7) % 8 = 7 := by omega
    have e := h ⟨32 * b.val + 8 * (n.val / 1024) + 7, by omega⟩ (by show 32 * b.val + 8 * (n.val / 1024) + 7 ≤ (lastOf b).val; omega)
      (by show (32 * b.val + 8 * (n.val / 1024) + 7) / 32 = (lastOf b).val / 32; omega) h7 ⟨n.val % 1024, by omega⟩
    rw [mn_final m c ⟨32 * b.val + 8 * (n.val / 1024) + 7, by omega⟩ h7 ⟨n.val % 1024, by omega⟩] at e
    have e1 : bOf (⟨32 * b.val + 8 * (n.val / 1024) + 7, by omega⟩ : Fin cfg0.N) = b :=
      Fin.ext (by show (32 * b.val + 8 * (n.val / 1024) + 7) / 32 = b.val; omega)
    have e2 : rowOf (⟨32 * b.val + 8 * (n.val / 1024) + 7, by omega⟩ : Fin cfg0.N) (⟨n.val % 1024, by omega⟩ : Fin 1024) = n :=
      Fin.ext (by show (32 * b.val + 8 * (n.val / 1024) + 7) / 8 % 4 * 1024 + n.val % 1024 = n.val; omega)
    rw [e1, e2] at e; exact e
  · rw [mn_final m c s h7 r]
    have e1 : bOf s = b := Fin.ext (by show s.val / 32 = b.val; omega)
    rw [e1]; exact h (rowOf s r)

/-! ## The output array and the returned vector -/

/-- The state after a point, the point as one number below 256. -/
def stF (t : Fin cfg0.N) : Vec Ideal S1024x1 .f32 × Vec Ideal S1x1 .f32 := stAt m c t.val t.isLt

/-- The batch of an index of the output array. -/
def batchOf (i : S8x1x1.Idx) : Fin 8 := ⟨(i 0).val, (i 0).isLt⟩

/-- The output array the pipeline leaves: at batch `b` the running maximum of the batch's last point, clamped from below. -/
def G (i : S8x1x1.Idx) : EReal := max ((stF m c (lastOf (batchOf i))).2 (ix2 (0 : Fin 1) (0 : Fin 1))) cClamp

/-- What a batch's last point writes back is that batch's entry of `G`. -/
theorem flushed_eq (t : Fin cfg0.N) (hf : (cfg0.win 2).flush t = true) :
    (dats m 0 c).flushed 2 t = ((cfg0.win 2).blk t).view.read (Elt Ideal) (G m c) := by
  have h31 := (flush0_2 t).mp hf
  obtain ⟨h0, h1, h2⟩ := index2 t
  have hN := N256
  have ht := t.isLt
  show (cfg0.win 2).cut (grid0.coords t) ((dats m 0 c).after 2 t) = _
  rw [after2]
  funext y
  have hy : y = ix3 (0 : Fin 1) (0 : Fin 1) (0 : Fin 1) := funext fun a => Fin.ext (by
    match a with
    | ⟨0, _⟩ => have h : (y 0).val < 1 := (y 0).isLt; show (y 0).val = 0; omega
    | ⟨1, _⟩ => have h : (y 1).val < 1 := (y 1).isLt; show (y 1).val = 0; omega
    | ⟨2, _⟩ => have h : (y 2).val < 1 := (y 2).isLt; show (y 2).val = 0; omega)
  subst hy
  show k0_pay3 (F := Ideal) (stF m c t).2 (ix3 (0 : Fin 1) (0 : Fin 1) (0 : Fin 1))
    = G m c (((cfg0.win 2).blk t).view.emb (ix3 (0 : Fin 1) (0 : Fin 1) (0 : Fin 1)))
  rw [pay3_at]
  have hl : lastOf (batchOf (((cfg0.win 2).blk t).view.emb (ix3 (0 : Fin 1) (0 : Fin 1) (0 : Fin 1)))) = t :=
    Fin.ext (by show 32 * (win0_2.index t (0 : Fin 3) * 1 + 1 * 0) + 31 = t.val; omega)
  unfold G
  rw [hl]

/-- Every index of the output array is in the block of its batch's last point. -/
theorem covered (i : ((cfg0.win 2).arr.view.loc (c.tc : Thread nD τ)).2.ty.Idx) :
    ∃ t : Fin cfg0.N, (cfg0.win 2).flush t = true ∧ i ∈ ((cfg0.win 2).blk t).view.set := by
  have hi0 : (i 0).val < 8 := (i 0).isLt
  have hi1 : (i 1).val < 1 := (i 1).isLt
  have hi2 : (i 2).val < 1 := (i 2).isLt
  refine ⟨lastOf ⟨(i 0).val, hi0⟩, (flush0_2 _).mpr (by show (32 * (i 0).val + 31) % 32 = 31; omega), ?_⟩
  obtain ⟨h0, h1, h2⟩ := index2 (lastOf ⟨(i 0).val, hi0⟩)
  have hl : (lastOf ⟨(i 0).val, hi0⟩).val = 32 * (i 0).val + 31 := rfl
  show i ∈ ((View.whole main_v0).slice (win0_2.rect (lastOf ⟨(i 0).val, hi0⟩))).set
  rw [View.set_slice_whole, Rect.mem_set_unit]
  intro a
  match a with
  | ⟨0, _⟩ => show win0_2.index (lastOf ⟨(i 0).val, hi0⟩) (0 : Fin 3) * 1 ≤ (i 0).val ∧ (i 0).val < win0_2.index (lastOf ⟨(i 0).val, hi0⟩) (0 : Fin 3) * 1 + 1; omega
  | ⟨1, _⟩ => show win0_2.index (lastOf ⟨(i 0).val, hi0⟩) (1 : Fin 3) * 1 ≤ (i 1).val ∧ (i 1).val < win0_2.index (lastOf ⟨(i 0).val, hi0⟩) (1 : Fin 3) * 1 + 1; omega
  | ⟨2, _⟩ => show win0_2.index (lastOf ⟨(i 0).val, hi0⟩) (2 : Fin 3) * 1 ≤ (i 2).val ∧ (i 2).val < win0_2.index (lastOf ⟨(i 0).val, hi0⟩) (2 : Fin 3) * 1 + 1; omega

/-- The output array after the run. -/
theorem final2 : (dats m 0 c).arrAt 2 cfg0.N = G m c :=
  (dats m 0 c).arrAt_eq_of_cover 2 (G m c) (flushed_eq m c) (covered c)

/-- An `[a, 1, 1]` array cast to `[a]` reads, at `p`, the operand at `(p, 0, 0)`. -/
theorem shapeCast_a11_a_apply {α : Type} {a : ℕ} (x : (⟨3, ![a, 1, 1]⟩ : Shape).Idx → α) (h : (⟨3, ![a, 1, 1]⟩ : Shape).ShapeCasts ⟨1, ![a]⟩)
    (p : Fin a) : shapeCast ⟨1, ![a]⟩ x h (ix1 p) = x (ix3 p (0 : Fin 1) (0 : Fin 1)) :=
  shapeCast_apply x h _ _ (by
    rw [Shape.rowMajor_val_three, Shape.rowMajor_val_one]
    show (p.val * 1 + 0) * 1 + 0 = p.val
    omega)

/-- THE KERNEL'S VALUE: the returned vector at batch `b` is the specification's result of the point array. -/
theorem kernel_value (b : Fin 8) : Wf m c (Proc.devRef .tc main_v1) (ix1 b) = result (P m c) b := by
  have e : Wf m c (Proc.devRef .tc main_v1) = fun i => shapeCast S8 (Wv m c (Proc.devRef .tc main_v0)) shapeCasts_S8x1x1_S8 i := by
    simp only [Wf, List.flatten_cons, List.flatten_nil, List.append_nil, hostOps1]
    after_results
    rfl
  rw [e, Wv_v0, final2]
  show shapeCast (⟨1, ![8]⟩ : Shape) (G m c) shapeCasts_S8x1x1_S8 (ix1 b) = _
  rw [shapeCast_a11_a_apply]
  unfold G result
  refine congrArg₂ max ?_ rfl
  exact mx_final m c b

/-- The kernel's run at the ideal instance, read: the returned vector is the specification's result batch by batch, and
    the argument array is unchanged. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v1) = (fun i : S8.Idx => result (m ((c.tc : Thread nD τ).loc main_arg0)) ⟨(i 0).val, (i 0).isLt⟩)
      ∧ r.2.mem ((c.tc : Thread nD τ).loc main_arg0) = m ((c.tc : Thread nD τ).loc main_arg0)) :=
  (θ_run (defs (F := Ideal)) _ _).mono (fun _ h c =>
    ⟨((h c).2 main_v1 (by decide)).trans (funext fun i => by
        exact (congrArg (Wf m c (Proc.devRef .tc main_v1)) (eq_ix1 (n := 8) i)).trans (kernel_value m c (i 0))),
      ((h c).1 0).trans (((dats m 0 c).arrAt_in 0 rfl _).trans ((A_eq m c 0).trans (V_main_arg0 m c)))⟩)
    (run_main m ρ)

end Cert.KernelIdeal.HandValue

end
-- ==== Proof.RefValue.lean ====
import proofs.«106982_j77386720740129_1_alg».proof.Proof.Gen.ReferenceIdeal.Read
import proofs.«106982_j77386720740129_1_alg».proof.Proof.MaxMinSpec

set_option maxRecDepth 16384

/-
  The reference, read at an index: its returned vector at batch `b` is the clamped farthest nearest-neighbour distance of
  the specification. The generated read-at-an-index lemmas carry every pointwise and layout operation; written here are
  the diagonal term (the identity matrix as a comparison of two index words, converted and scaled), the two reductions as
  folds over one axis, and the match with the specification.
-/
noncomputable section

namespace Cert.ReferenceIdeal.RefValue

open Cert.ReferenceIdeal Cert.ReferenceIdeal.Gen Cert.ReferenceIdeal.Read Idealize.ShloMosaic Idealize.ShloMosaic.ValueIdx Cert.MaxMinSpec

/-- The diagonal term: comparing the row and column index words, converting the bit and scaling by the big constant gives
    that constant on the diagonal and zero off it (the words encode numbers below 2³², so they differ when the numbers do). -/
theorem diag_ref (n k : Fin 4096) :
    FloatOps.mulf (F := Ideal) (FloatOps.uitofp .f32 (IntOp.cmpi .eq (IntOp.addi (BitVec.ofNat 32 n.val) 0#32) (BitVec.ofNat 32 k.val)))
      (FloatOps.ofBits .f32 0x47C35000#32) = if n = k then cBig else cZero := by
  by_cases h : n = k
  · subst h; rw [if_pos rfl]
    have e : IntOp.cmpi .eq (IntOp.addi (BitVec.ofNat 32 n.val) 0#32) (BitVec.ofNat 32 n.val) = 1#1 := by simp [IntOp.cmpi, IntOp.addi]
    rw [e]
    show (((1#1 : BitVec 1).toNat : ℝ) : EReal) * Ideal.ofBits .f32 0x47C35000#32 = _
    simp
  · rw [if_neg h]
    have hne : BitVec.ofNat 32 n.val ≠ BitVec.ofNat 32 k.val := fun e =>
      h (Fin.ext ((ofNat_inj32 (by have := n.isLt; omega) (by have := k.isLt; omega)).mp e))
    have e : IntOp.cmpi .eq (IntOp.addi (BitVec.ofNat 32 n.val) 0#32) (BitVec.ofNat 32 k.val) = 0#1 := by
      simp [IntOp.cmpi, IntOp.addi, beq_eq_false_iff_ne.mpr hne]
    rw [e]
    show (((0#1 : BitVec 1).toNat : ℝ) : EReal) * Ideal.ofBits .f32 0x47C35000#32 = _
    simp [cZero, Ideal.ofBits_zero_f32]

/-- The reference's distance entry (b, n, k) is the specification's. -/
theorem v24_at (P : (⟨S8x4096x3, .f32⟩ : BufTy).Contents (Elt Ideal)) (b : Fin 8) (n k : Fin 4096) :
    val_main_v24 (F := Ideal) P (ix3 b n k) = entry P b n k := by
  have e1 : ∀ d : Fin 3, idx_main_v1 (idx_main_v2 (idx_main_v4 (ix3 b n k))) d = ix3 b n d := fun d =>
    funext fun a => Fin.ext (by match a with | ⟨0, _⟩ => rfl | ⟨1, _⟩ => rfl | ⟨2, _⟩ => rfl)
  have e2 : ∀ d : Fin 3, idx_main_v1 (idx_main_v3 (idx_main_v5 (ix3 b n k))) d = ix3 b k d := fun d =>
    funext fun a => Fin.ext (by match a with | ⟨0, _⟩ => rfl | ⟨1, _⟩ => rfl | ⟨2, _⟩ => rfl)
  have e3 : ∀ d : Fin 3, lidx_main_v7 (ix3 b n k) d = ix3 b n d := fun d =>
    funext fun a => Fin.ext (by match a with | ⟨0, _⟩ => rfl | ⟨1, _⟩ => rfl | ⟨2, _⟩ => rfl)
  have e4 : ∀ d : Fin 3, ridx_main_v7 (ix3 b n k) d = ix3 b k d := fun d =>
    funext fun a => Fin.ext (by match a with | ⟨0, _⟩ => rfl | ⟨1, _⟩ => rfl | ⟨2, _⟩ => rfl)
  simp only [val_main_v24_apply, val_main_v13_apply, val_main_v12_apply, val_main_v10_apply, val_main_v6_apply, val_main_v4_apply,
    val_main_v2_apply, val_main_v5_apply, val_main_v3_apply, val_main_v1_apply, val_main_v0_apply, val_main_cst_apply,
    val_main_v9_apply, val_main_v8_apply, val_main_cst_0_apply, val_main_v7_apply, val_main_v11_apply, val_main_cst_1_apply,
    val_main_v23_apply, val_main_v22_apply, val_main_v21_apply, val_main_v19_apply, val_main_v18_apply, val_main_v17_apply,
    val_main_v14_apply, val_main_v15_apply, val_main_v16_apply, val_main_c_apply, val_main_v20_apply, val_main_cst_2_apply,
    e1, e2, e3, e4]
  unfold entry
  refine congrArg₂ (· + ·) ?_ (diag_ref n k)
  unfold normSq inner3
  simp only [Ideal.ofBits_def, Ideal.ofBits_zero_f32, zero_add]
  rfl

/-- The reference's minimum over the last axis at (b, n) is the row minimum. -/
theorem v25_at (P : (⟨S8x4096x3, .f32⟩ : BufTy).Contents (Elt Ideal)) (b : Fin 8) (n : Fin 4096) :
    val_main_v25 (F := Ideal) P (ix2 b n) = rowMin P b n := by
  have hR : S8x4096x4096.Reduces [2] S8x4096 := by decide
  unfold val_main_v25
  rw [Host.reduce_eq_fold_single FloatOps.minimumf _ _ reducesTo_S8x4096x4096_S8x4096_d2 hR h_S_]
  unfold rowMin
  have hf : (val_main_v24 (F := Ideal) P ∘ hR.lift (ix2 b n)) = fun k => entry P b n k := funext fun k => by
    rw [Function.comp_apply, show hR.lift (ix2 b n) k = ix3 b n k from funext fun c => Fin.ext (by fin_cases c <;> rfl)]
    exact v24_at P b n k
  rw [hf]
  rfl

/-- The reference's maximum over the points at `b` is the largest row minimum. -/
theorem v26_at (P : (⟨S8x4096x3, .f32⟩ : BufTy).Contents (Elt Ideal)) (b : Fin 8) :
    val_main_v26 (F := Ideal) P (ix1 b) = (Finset.univ : Finset (Fin 4096)).fold max cNegInf (fun n => rowMin P b n) := by
  have hR : S8x4096.Reduces [1] S8 := by decide
  unfold val_main_v26
  rw [Host.reduce_eq_fold_single FloatOps.maximumf _ _ reducesTo_S8x4096_S8_d1 hR h_S_]
  have hf : (val_main_v25 (F := Ideal) P ∘ hR.lift (ix1 b)) = fun n => rowMin P b n := funext fun n => by
    rw [Function.comp_apply, show hR.lift (ix1 b) n = ix2 b n from funext fun c => Fin.ext (by fin_cases c <;> rfl)]
    exact v25_at P b n
  rw [hf]
  rfl

/-- THE REFERENCE'S VALUE: its returned vector at `b` is the specification's result. -/
theorem ref_eq (P : (⟨S8x4096x3, .f32⟩ : BufTy).Contents (Elt Ideal)) (b : Fin 8) :
    val_main_v28 (F := Ideal) P (ix1 b) = result P b := by
  rw [val_main_v28_apply, val_main_v27_apply, val_main_cst_5_apply, v26_at]
  rfl

end Cert.ReferenceIdeal.RefValue

end
-- ==== Proof.lean ====
/-
  The farthest nearest-neighbour distance of eight point clouds, tiled against whole: the certificate.

  Both programs compute, for each of 8 batches of 4096 points in three coordinates, the largest over the points of the
  distance to the nearest other point, clamped from below at 8: the pairwise distance recovered from squared norms and
  inner products (|p|² + |q|² − 2 p·q, clamped at zero, rooted), a large constant added on the diagonal. The reference forms
  the whole 4096 × 4096 matrix per batch and reduces it by a minimum along rows and a maximum over rows. The kernel walks a
  grid of 8 batches × 4 row tiles × 8 column tiles, forms one 1024 × 512 tile per point, keeps the rows' running minima and
  the running maximum of completed minima in two scratch buffers, and stores the clamped maximum at each batch's last point.
  Its two input windows read ONE array (row block and column block of the same points), each at half a share.

  At the ideal values the two are one function: a change of float format is the identity, the matrix unit's product into
  a zero accumulator and the host's contraction are the same three-term sums, a select between the big constant and zero
  is the identity matrix scaled, and minima and maxima folded tile by tile from +∞ and −∞ are the minima and maxima over
  all columns and rows — carried here by their bounds, so that no float word is evaluated but the zero of the sums.

  The frames (both kernels terminate, fault nowhere and leave the argument unchanged) are by the library's launch theorem
  with the argument array dealt to its two windows; the reference's is its run.
-/
import proofs.«106982_j77386720740129_1_alg».proof.Defs
import proofs.«106982_j77386720740129_1_alg».proof.Proof.Gen.Kernel
import proofs.«106982_j77386720740129_1_alg».proof.Proof.Gen.Kernel.Skeleton
import proofs.«106982_j77386720740129_1_alg».proof.Proof.Gen.Kernel.Launch
import proofs.«106982_j77386720740129_1_alg».proof.Proof.Gen.Kernel.Points
import proofs.«106982_j77386720740129_1_alg».proof.Proof.Gen.KernelIdeal
import proofs.«106982_j77386720740129_1_alg».proof.Proof.Gen.KernelIdeal.Skeleton
import proofs.«106982_j77386720740129_1_alg».proof.Proof.Gen.KernelIdeal.Launch
import proofs.«106982_j77386720740129_1_alg».proof.Proof.Gen.KernelIdeal.Points
import proofs.«106982_j77386720740129_1_alg».proof.Proof.Gen.ReferenceIdeal
import proofs.«106982_j77386720740129_1_alg».proof.Proof.Gen.Pre_finite_inputs
import proofs.«106982_j77386720740129_1_alg».proof.Proof.Gen.ReferenceIdeal.Run
import proofs.«106982_j77386720740129_1_alg».proof.Proof.Gen.ReferenceIdeal.Read
import proofs.«106982_j77386720740129_1_alg».proof.Proof.KernelLaunch
import proofs.«106982_j77386720740129_1_alg».proof.Proof.KernelIdealValue
import proofs.«106982_j77386720740129_1_alg».proof.Proof.RefValue
import Idealize.ShloMosaic.Adequacy
import Idealize.ShloMosaic.Init

noncomputable section

namespace Cert.Proof

open Idealize.ShloMosaic Idealize.ShloMosaic.ValueIdx Idealize.SL.Sem

/-- The word-level kernel runs to its end and leaves the argument array as it found it. -/
theorem frame_k : Cert.frame_Kernel := fun m ρ _ => Cert.Kernel.Hand.frame m ρ

/-- So does the kernel read at the ideal values. -/
theorem frame_ki : Cert.frame_KernelIdeal := fun m ρ _ => Cert.KernelIdeal.Hand.frame m ρ

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal reading rewrote no operation of the kernel. -/
theorem preserves : Cert.preserves_Kernel_KernelIdeal := trivial

/-- At the ideal values, from memories agreeing on the point array, both programs end with the specification's result in
    their returned vector, batch by batch. -/
theorem algebraic : Cert.algebraic_KernelIdeal_ReferenceIdeal := by
  intro m ρ m' ρ' _ hagree
  refine ⟨fun c => (fun i : Cert.KernelIdeal.S8.Idx =>
      Cert.MaxMinSpec.result (m ((c.tc : Thread Cert.KernelIdeal.nD Cert.KernelIdeal.τ).loc Cert.KernelIdeal.main_arg0)) ⟨(i 0).val, (i 0).isLt⟩),
    Cert.KernelIdeal.HandValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, hagree c]
  funext i
  exact (congrArg (Cert.ReferenceIdeal.Read.val_main_v28 (F := Ideal)
      (m ((c.tc : Thread Cert.KernelIdeal.nD Cert.KernelIdeal.τ).loc Cert.KernelIdeal.main_arg0))) (eq_ix1 (n := 8) i)).trans
    (Cert.ReferenceIdeal.RefValue.ref_eq
      (m ((c.tc : Thread Cert.KernelIdeal.nD Cert.KernelIdeal.τ).loc Cert.KernelIdeal.main_arg0)) (i 0))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
